-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S2x5000000 : Shape := ⟨2, ![2, 5000000]⟩
abbrev S2x2000000 : Shape := ⟨2, ![2, 2000000]⟩
abbrev S1000000x16 : Shape := ⟨2, ![1000000, 16]⟩
abbrev S16x16 : Shape := ⟨2, ![16, 16]⟩
abbrev S16 : Shape := ⟨1, ![16]⟩
abbrev S32x1 : Shape := ⟨2, ![32, 1]⟩
abbrev S1 : Shape := ⟨1, ![1]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S16 .f32) (main_arg8 : FVec F S32x1 .f32) (main_arg9 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg7
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x1 .f32 := Host.absf main_arg8
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S1000000 32) (main_arg1 : IVec S2x5000000 32) (main_arg2 : IVec S2x2000000 32) (main_arg3 : FVec F S1000000x16 .f32) (main_arg4 : FVec F S16x16 .f32) (main_arg5 : FVec F S16 .f32) (main_arg6 : FVec F S16x16 .f32) (main_arg7 : FVec F S16 .f32) (main_arg8 : FVec F S32x1 .f32) (main_arg9 : FVec F S1 .f32) : IVec S_ 1 :=
  let main_v0 : FVec F S1000000x16 .f32 := Host.absf main_arg3
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S16x16 .f32 := Host.absf main_arg4
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg6
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg7 main_arg8 main_arg9 main_v13 main_v16
-- ==== Kernel.lean ====
abbrev S1000000 : Shape := ⟨1, ![1000000]⟩
abbrev S2x5000000 : Shape := ⟨2, ![2, 5000000]⟩
abbrev S2x2000000 : Shape := ⟨2, ![2, 2000000]⟩
abbrev S1000000x16 : Shape := ⟨2, ![1000000, 16]⟩
abbrev S16x16 : Shape := ⟨2, ![16, 16]⟩
abbrev S16 : Shape := ⟨1, ![16]⟩
abbrev S32x1 : Shape := ⟨2, ![32, 1]⟩
abbrev S1 : Shape := ⟨1, ![1]⟩
abbrev S1x5000000 : Shape := ⟨2, ![1, 5000000]⟩
abbrev S5000000 : Shape := ⟨1, ![5000000]⟩
abbrev S6000000 : Shape := ⟨1, ![6000000]⟩
abbrev S_ : Shape := ⟨0, ![]⟩
abbrev S6000000x1 : Shape := ⟨2, ![6000000, 1]⟩
abbrev S1000000x1 : Shape := ⟨2, ![1000000, 1]⟩
abbrev S8x8 : Shape := ⟨2, ![8, 8]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S125000x128 : Shape := ⟨2, ![125000, 128]⟩
abbrev S5000x128 : Shape := ⟨2, ![5000, 128]⟩
abbrev S6000000x16 : Shape := ⟨2, ![6000000, 16]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S1x2000000 : Shape := ⟨2, ![1, 2000000]⟩
abbrev S2000000 : Shape := ⟨1, ![2000000]⟩
abbrev S2000000x1 : Shape := ⟨2, ![2000000, 1]⟩
abbrev S2000000x16 : Shape := ⟨2, ![2000000, 16]⟩
abbrev S250000x128 : Shape := ⟨2, ![250000, 128]⟩
abbrev S16x1 : Shape := ⟨2, ![16, 1]⟩
abbrev S128x8 : Shape := ⟨2, ![128, 8]⟩
abbrev S1x1 : Shape := ⟨2, ![1, 1]⟩
abbrev S8x1 : Shape := ⟨2, ![8, 1]⟩
abbrev S8 : Shape := ⟨1, ![8]⟩
abbrev S1x8 : Shape := ⟨2, ![1, 8]⟩
abbrev S250000x8 : Shape := ⟨2, ![250000, 8]⟩
abbrev S10000x128 : Shape := ⟨2, ![10000, 128]⟩
abbrev S10000x8 : Shape := ⟨2, ![10000, 8]⟩

abbrev nBuf : Space → Nat
  | .hbm => 218
  | .vmem => 25
  | .smem => 0
  | _ => 0

abbrev hbmTy0_0 (i : Nat) : BufTy := match i % 128 with
  | 0 => ⟨S1000000, .i32⟩
  | 1 => ⟨S2x5000000, .i32⟩
  | 2 => ⟨S2x2000000, .i32⟩
  | 3 => ⟨S1000000x16, .f32⟩
  | 4 => ⟨S16x16, .f32⟩
  | 5 => ⟨S16, .f32⟩
  | 6 => ⟨S16x16, .f32⟩
  | 7 => ⟨S16, .f32⟩
  | 8 => ⟨S32x1, .f32⟩
  | 9 => ⟨S1, .f32⟩
  | 10 => ⟨S1x5000000, .i32⟩
  | 11 => ⟨S5000000, .i32⟩
  | 12 => ⟨S1x5000000, .i32⟩
  | 13 => ⟨S5000000, .i32⟩
  | 14 => ⟨S1000000, .i32⟩
  | 15 => ⟨S6000000, .i32⟩
  | 16 => ⟨S6000000, .i32⟩
  | 17 => ⟨S_, .f32⟩
  | 18 => ⟨S6000000, .f32⟩
  | 19 => ⟨S_, .f32⟩
  | 20 => ⟨S1000000, .f32⟩
  | 21 => ⟨S6000000x1, .i32⟩
  | 22 => ⟨S1000000, .f32⟩
  | 23 => ⟨S_, .f32⟩
  | 24 => ⟨S1000000, .f32⟩
  | 25 => ⟨S1000000, .i1⟩
  | 26 => ⟨S_, .f32⟩
  | 27 => ⟨S_, .f32⟩
  | 28 => ⟨S1000000, .f32⟩
  | 29 => ⟨S1000000, .f32⟩
  | 30 => ⟨S1000000, .f32⟩
  | 31 => ⟨S_, .i32⟩
  | 32 => ⟨S6000000, .i32⟩
  | 33 => ⟨S6000000, .i1⟩
  | 34 => ⟨S_, .i32⟩
  | 35 => ⟨S6000000, .i32⟩
  | 36 => ⟨S6000000, .i32⟩
  | 37 => ⟨S6000000, .i32⟩
  | 38 => ⟨S6000000x1, .i32⟩
  | 39 => ⟨S6000000, .f32⟩
  | 40 => ⟨S_, .i32⟩
  | 41 => ⟨S6000000, .i32⟩
  | 42 => ⟨S6000000, .i1⟩
  | 43 => ⟨S_, .i32⟩
  | 44 => ⟨S6000000, .i32⟩
  | 45 => ⟨S6000000, .i32⟩
  | 46 => ⟨S6000000, .i32⟩
  | 47 => ⟨S6000000x1, .i32⟩
  | 48 => ⟨S6000000, .f32⟩
  | 49 => ⟨S6000000, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x16, .f32⟩
  | 59 => ⟨S8x8, .i32⟩
  | 60 => ⟨S8x8, .i32⟩
  | 61 => ⟨S_, .i32⟩
  | 62 => ⟨S8x8, .i32⟩
  | 63 => ⟨S8x8, .i32⟩
  | 64 => ⟨S8x8, .i1⟩
  | 65 => ⟨S8x8, .f32⟩
  | 66 => ⟨S8x1x8x1, .f32⟩
  | 67 => ⟨S1x16x1x16, .f32⟩
  | 68 => ⟨S8x16x8x16, .f32⟩
  | 69 => ⟨S8x16x8x16, .f32⟩
  | 70 => ⟨S8x16x8x16, .f32⟩
  | 71 => ⟨S128x128, .f32⟩
  | 72 => ⟨S125000x128, .f32⟩
  | 73 => ⟨S125000x128, .f32⟩
  | 74 => ⟨S1000000x16, .f32⟩
  | 75 => ⟨S_, .i32⟩
  | 76 => ⟨S6000000, .i32⟩
  | 77 => ⟨S6000000, .i1⟩
  | 78 => ⟨S_, .i32⟩
  | 79 => ⟨S6000000, .i32⟩
  | 80 => ⟨S6000000, .i32⟩
  | 81 => ⟨S6000000, .i32⟩
  | 82 => ⟨S6000000x1, .i32⟩
  | 83 => ⟨S6000000x16, .f32⟩
  | 84 => ⟨S6000000x1, .f32⟩
  | 85 => ⟨S6000000x16, .f32⟩
  | 86 => ⟨S6000000x16, .f32⟩
  | 87 => ⟨S_, .f32⟩
  | 88 => ⟨S1000000x16, .f32⟩
  | 89 => ⟨S6000000x1, .i32⟩
  | 90 => ⟨S1000000x16, .f32⟩
  | 91 => ⟨S1x16, .f32⟩
  | 92 => ⟨S8x16, .f32⟩
  | 93 => ⟨S128, .f32⟩
  | 94 => ⟨S1x128, .f32⟩
  | 95 => ⟨S8x8, .i32⟩
  | 96 => ⟨S8x8, .i32⟩
  | 97 => ⟨S_, .i32⟩
  | 98 => ⟨S8x8, .i32⟩
  | 99 => ⟨S8x8, .i32⟩
  | 100 => ⟨S8x8, .i1⟩
  | 101 => ⟨S8x8, .f32⟩
  | 102 => ⟨S8x1x8x1, .f32⟩
  | 103 => ⟨S1x16x1x16, .f32⟩
  | 104 => ⟨S8x16x8x16, .f32⟩
  | 105 => ⟨S8x16x8x16, .f32⟩
  | 106 => ⟨S8x16x8x16, .f32⟩
  | 107 => ⟨S128x128, .f32⟩
  | 108 => ⟨S125000x128, .f32⟩
  | 109 => ⟨S125000x128, .f32⟩
  | 110 => ⟨S1000000x16, .f32⟩
  | 111 => ⟨S_, .i32⟩
  | 112 => ⟨S6000000, .i32⟩
  | 113 => ⟨S6000000, .i1⟩
  | 114 => ⟨S_, .i32⟩
  | 115 => ⟨S6000000, .i32⟩
  | 116 => ⟨S6000000, .i32⟩
  | 117 => ⟨S6000000, .i32⟩
  | 118 => ⟨S6000000x1, .i32⟩
  | 119 => ⟨S6000000x16, .f32⟩
  | 120 => ⟨S6000000x1, .f32⟩
  | 121 => ⟨S6000000x16, .f32⟩
  | 122 => ⟨S6000000x16, .f32⟩
  | 123 => ⟨S_, .f32⟩
  | 124 => ⟨S1000000x16, .f32⟩
  | 125 => ⟨S6000000x1, .i32⟩
  | 126 => ⟨S1000000x16, .f32⟩
  | 127 => ⟨S1x16, .f32⟩
  | _ => ⟨S1000000, .i32⟩

abbrev hbmTy0_1 (i : Nat) : BufTy := match i % 128 with
  | 0 => ⟨S8x16, .f32⟩
  | 1 => ⟨S128, .f32⟩
  | 2 => ⟨S1x128, .f32⟩
  | 3 => ⟨S125000x128, .f32⟩
  | 4 => ⟨S125000x128, .f32⟩
  | 5 => ⟨S1000000x16, .f32⟩
  | 6 => ⟨S1x2000000, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S2000000x16, .f32⟩
  | 17 => ⟨S1x2000000, .i32⟩
  | 18 => ⟨S2000000, .i32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x16, .f32⟩
  | 28 => ⟨S250000x128, .f32⟩
  | 29 => ⟨S250000x128, .f32⟩
  | 30 => ⟨S16x1, .f32⟩
  | 31 => ⟨S16x1, .f32⟩
  | 32 => ⟨S_, .f32⟩
  | 33 => ⟨S128x8, .f32⟩
  | 34 => ⟨S_, .i32⟩
  | 35 => ⟨S_, .i32⟩
  | 36 => ⟨S128x8, .f32⟩
  | 37 => ⟨S_, .i32⟩
  | 38 => ⟨S_, .i32⟩
  | 39 => ⟨S128x8, .f32⟩
  | 40 => ⟨S_, .i32⟩
  | 41 => ⟨S_, .i32⟩
  | 42 => ⟨S128x8, .f32⟩
  | 43 => ⟨S_, .i32⟩
  | 44 => ⟨S_, .i32⟩
  | 45 => ⟨S128x8, .f32⟩
  | 46 => ⟨S_, .i32⟩
  | 47 => ⟨S_, .i32⟩
  | 48 => ⟨S128x8, .f32⟩
  | 49 => ⟨S_, .i32⟩
  | 50 => ⟨S_, .i32⟩
  | 51 => ⟨S128x8, .f32⟩
  | 52 => ⟨S_, .i32⟩
  | 53 => ⟨S_, .i32⟩
  | 54 => ⟨S128x8, .f32⟩
  | 55 => ⟨S_, .i32⟩
  | 56 => ⟨S_, .i32⟩
  | 57 => ⟨S128x8, .f32⟩
  | 58 => ⟨S_, .f32⟩
  | 59 => ⟨S128x8, .f32⟩
  | 60 => ⟨S_, .i32⟩
  | 61 => ⟨S_, .i32⟩
  | 62 => ⟨S128x8, .f32⟩
  | 63 => ⟨S_, .i32⟩
  | 64 => ⟨S_, .i32⟩
  | 65 => ⟨S128x8, .f32⟩
  | 66 => ⟨S_, .i32⟩
  | 67 => ⟨S_, .i32⟩
  | 68 => ⟨S128x8, .f32⟩
  | 69 => ⟨S_, .i32⟩
  | 70 => ⟨S_, .i32⟩
  | 71 => ⟨S128x8, .f32⟩
  | 72 => ⟨S_, .i32⟩
  | 73 => ⟨S_, .i32⟩
  | 74 => ⟨S128x8, .f32⟩
  | 75 => ⟨S_, .i32⟩
  | 76 => ⟨S_, .i32⟩
  | 77 => ⟨S128x8, .f32⟩
  | 78 => ⟨S_, .i32⟩
  | 79 => ⟨S_, .i32⟩
  | 80 => ⟨S128x8, .f32⟩
  | 81 => ⟨S_, .i32⟩
  | 82 => ⟨S_, .i32⟩
  | 83 => ⟨S128x8, .f32⟩
  | 84 => ⟨S1x1, .f32⟩
  | 85 => ⟨S8x1, .f32⟩
  | 86 => ⟨S8, .f32⟩
  | 87 => ⟨S1x8, .f32⟩
  | 88 => ⟨S250000x8, .f32⟩
  | 89 => ⟨S2000000x1, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x8, .f32⟩
  | .local _ .vmem, ⟨21, _⟩ => ⟨S128x8, .f32⟩
  | .local _ .vmem, ⟨22, _⟩ => ⟨S1x8, .f32⟩
  | .local _ .vmem, ⟨23, _⟩ => ⟨S10000x8, .f32⟩
  | .local _ .vmem, ⟨24, _⟩ => ⟨S10000x8, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_13 : Ref sig .tc := ⟨.hbm, 111, rfl⟩
abbrev main_v74 : Ref sig .tc := ⟨.hbm, 112, rfl⟩
abbrev main_v75 : Ref sig .tc := ⟨.hbm, 113, rfl⟩
abbrev main_c_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_15 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_16 : Ref sig .tc := ⟨.hbm, 136, rfl⟩
abbrev main_v96 : Ref sig .tc := ⟨.hbm, 137, rfl⟩
abbrev main_v97 : Ref sig .tc := ⟨.hbm, 138, rfl⟩
abbrev main_c_17 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_18 : Ref sig .tc := ⟨.hbm, 147, rfl⟩
abbrev main_v105 : Ref sig .tc := ⟨.hbm, 148, rfl⟩
abbrev main_v106 : Ref sig .tc := ⟨.hbm, 149, rfl⟩
abbrev main_c_19 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_20 : Ref sig .tc := ⟨.hbm, 160, rfl⟩
abbrev main_v116 : Ref sig .tc := ⟨.hbm, 161, rfl⟩
abbrev main_c_21 : Ref sig .tc := ⟨.hbm, 162, rfl⟩
abbrev main_c_22 : Ref sig .tc := ⟨.hbm, 163, rfl⟩
abbrev main_v117 : Ref sig .tc := ⟨.hbm, 164, rfl⟩
abbrev main_c_23 : Ref sig .tc := ⟨.hbm, 165, rfl⟩
abbrev main_c_24 : Ref sig .tc := ⟨.hbm, 166, rfl⟩
abbrev main_v118 : Ref sig .tc := ⟨.hbm, 167, rfl⟩
abbrev main_c_25 : Ref sig .tc := ⟨.hbm, 168, rfl⟩
abbrev main_c_26 : Ref sig .tc := ⟨.hbm, 169, rfl⟩
abbrev main_v119 : Ref sig .tc := ⟨.hbm, 170, rfl⟩
abbrev main_c_27 : Ref sig .tc := ⟨.hbm, 171, rfl⟩
abbrev main_c_28 : Ref sig .tc := ⟨.hbm, 172, rfl⟩
abbrev main_v120 : Ref sig .tc := ⟨.hbm, 173, rfl⟩
abbrev main_c_29 : Ref sig .tc := ⟨.hbm, 174, rfl⟩
abbrev main_c_30 : Ref sig .tc := ⟨.hbm, 175, rfl⟩
abbrev main_v121 : Ref sig .tc := ⟨.hbm, 176, rfl⟩
abbrev main_c_31 : Ref sig .tc := ⟨.hbm, 177, rfl⟩
abbrev main_c_32 : Ref sig .tc := ⟨.hbm, 178, rfl⟩
abbrev main_v122 : Ref sig .tc := ⟨.hbm, 179, rfl⟩
abbrev main_c_33 : Ref sig .tc := ⟨.hbm, 180, rfl⟩
abbrev main_c_34 : Ref sig .tc := ⟨.hbm, 181, rfl⟩
abbrev main_v123 : Ref sig .tc := ⟨.hbm, 182, rfl⟩
abbrev main_c_35 : Ref sig .tc := ⟨.hbm, 183, rfl⟩
abbrev main_c_36 : Ref sig .tc := ⟨.hbm, 184, rfl⟩
abbrev main_v124 : Ref sig .tc := ⟨.hbm, 185, rfl⟩
abbrev main_cst_37 : Ref sig .tc := ⟨.hbm, 186, rfl⟩
abbrev main_v125 : Ref sig .tc := ⟨.hbm, 187, rfl⟩
abbrev main_c_38 : Ref sig .tc := ⟨.hbm, 188, rfl⟩
abbrev main_c_39 : Ref sig .tc := ⟨.hbm, 189, rfl⟩
abbrev main_v126 : Ref sig .tc := ⟨.hbm, 190, rfl⟩
abbrev main_c_40 : Ref sig .tc := ⟨.hbm, 191, rfl⟩
abbrev main_c_41 : Ref sig .tc := ⟨.hbm, 192, rfl⟩
abbrev main_v127 : Ref sig .tc := ⟨.hbm, 193, rfl⟩
abbrev main_c_42 : Ref sig .tc := ⟨.hbm, 194, rfl⟩
abbrev main_c_43 : Ref sig .tc := ⟨.hbm, 195, rfl⟩
abbrev main_v128 : Ref sig .tc := ⟨.hbm, 196, rfl⟩
abbrev main_c_44 : Ref sig .tc := ⟨.hbm, 197, rfl⟩
abbrev main_c_45 : Ref sig .tc := ⟨.hbm, 198, rfl⟩
abbrev main_v129 : Ref sig .tc := ⟨.hbm, 199, rfl⟩
abbrev main_c_46 : Ref sig .tc := ⟨.hbm, 200, rfl⟩
abbrev main_c_47 : Ref sig .tc := ⟨.hbm, 201, rfl⟩
abbrev main_v130 : Ref sig .tc := ⟨.hbm, 202, rfl⟩
abbrev main_c_48 : Ref sig .tc := ⟨.hbm, 203, rfl⟩
abbrev main_c_49 : Ref sig .tc := ⟨.hbm, 204, rfl⟩
abbrev main_v131 : Ref sig .tc := ⟨.hbm, 205, rfl⟩
abbrev main_c_50 : Ref sig .tc := ⟨.hbm, 206, rfl⟩
abbrev main_c_51 : Ref sig .tc := ⟨.hbm, 207, rfl⟩
abbrev main_v132 : Ref sig .tc := ⟨.hbm, 208, rfl⟩
abbrev main_c_52 : Ref sig .tc := ⟨.hbm, 209, rfl⟩
abbrev main_c_53 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem5_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S1000000_S6000000_d0 : Shape.Concatenates [S5000000, S1000000] S6000000 0
  bcast_S_S6000000 : S_.BroadcastsInDim S6000000 (![] : Fin 0 → Fin S6000000.rank)
  bcast_S_S1000000 : S_.BroadcastsInDim S1000000 (![] : Fin 0 → Fin S1000000.rank)
  bcast_S6000000_S6000000x1_0 : S6000000.BroadcastsInDim S6000000x1 (![0] : Fin 1 → Fin S6000000x1.rank)
  bcast_S1000000_S1000000x1_0 : S1000000.BroadcastsInDim S1000000x1 (![0] : Fin 1 → Fin S1000000x1.rank)
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  shapeCasts_S1000000x16_S125000x128 : S1000000x16.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S125000x128_S1000000x16 : S125000x128.ShapeCasts S1000000x16
  bcast_S6000000x1_S6000000x16_0_1 : S6000000x1.BroadcastsInDim S6000000x16 (![0, 1] : Fin 2 → Fin S6000000x16.rank)
  bcast_S_S1000000x16 : S_.BroadcastsInDim S1000000x16 (![] : Fin 0 → Fin S1000000x16.rank)
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  shapeCasts_S2000000x16_S250000x128 : S2000000x16.ShapeCasts S250000x128
  slices_S32x1_S16x1_0_0 : S32x1.Slices ![0, 0] S16x1
  slices_S32x1_S16x1_16_0 : S32x1.Slices ![16, 0] S16x1
  bcast_S_S128x8 : S_.BroadcastsInDim S128x8 (![] : Fin 0 → Fin S128x8.rank)
  updateFits_S128x8_S16x1 : S128x8.Slices (fun _ => 0) S16x1
  h_S_ : 0 < S_.numel
  shapeCasts_S1_S1x1 : S1.ShapeCasts S1x1
  bcast_S1x1_S8x1_0_1 : S1x1.BroadcastsInDim S8x1 (![0, 1] : Fin 2 → Fin S8x1.rank)
  shapeCasts_S8x1_S8 : S8x1.ShapeCasts S8
  shapeCasts_S8_S1x8 : S8.ShapeCasts S1x8
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  shapeCasts_S250000x8_S2000000x1 : S250000x8.ShapeCasts S2000000x1
  scatter_S1000000_S6000000x1_S6000000_n_0_0_1_wf : ScatterDims.WF S1000000 S6000000x1 S6000000 [] [0] [0] 1
  gather_S1000000_S6000000x1_S6000000_n_0_n_n_0_1_1_wf : GatherDims.WF S1000000 S6000000x1 S6000000 [] [0] [] [0] [] 1 ![1]
  gather_S1000000x16_S1000000x1_S1000000x16_1_0_n_n_0_1_116_wf : GatherDims.WF S1000000x16 S1000000x1 S1000000x16 [1] [0] [] [0] [] 1 ![1, 16]
  dot_S5000x128_S128x128_S5000x128_1_0_0_1_n_n_wf : DotDims.WF S5000x128 S128x128 S5000x128 [1] [0] [0] [1] [] []
  gather_S1000000x16_S6000000x1_S6000000x16_1_0_n_n_0_1_116_wf : GatherDims.WF S1000000x16 S6000000x1 S6000000x16 [1] [0] [] [0] [] 1 ![1, 16]
  scatter_S1000000x16_S6000000x1_S6000000x16_1_0_0_1_wf : ScatterDims.WF S1000000x16 S6000000x1 S6000000x16 [1] [0] [0] 1
  gather_S1000000x16_S2000000x1_S2000000x16_1_0_n_n_0_1_116_wf : GatherDims.WF S1000000x16 S2000000x1 S2000000x16 [1] [0] [] [0] [] 1 ![1, 16]
  dot_S10000x128_S128x8_S10000x8_1_0_0_1_n_n_wf : DotDims.WF S10000x128 S128x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S125000x128.size a
  hwx1_0 : ∀ i : grid1.Coords, EltTy.bits .f32 = 32 ∨ (Rect.block (s := S125000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S125000x128.size a
  hwx1_3 : ∀ i : grid1.Coords, EltTy.bits .f32 = 32 ∨ (Rect.block (s := S125000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S125000x128.size a
  hwx2_0 : ∀ i : grid2.Coords, EltTy.bits .f32 = 32 ∨ (Rect.block (s := S125000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S125000x128.size a
  hwx2_2 : ∀ i : grid2.Coords, EltTy.bits .f32 = 32 ∨ (Rect.block (s := S125000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S250000x128.size a
  hwx3_0 : ∀ i : grid3.Coords, EltTy.bits .f32 = 32 ∨ (Rect.block (s := S250000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S250000x128.size a
  hwx3_1 : ∀ i : grid3.Coords, EltTy.bits .f32 = 32 ∨ (Rect.block (s := S250000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x8.size a ≤ S128x8.size a
  hwx3_2 : ∀ i : grid3.Coords, EltTy.bits .f32 = 32 ∨ (Rect.block (s := S128x8) S128x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x8.size a ≤ S128x8.size a
  hwx3_3 : ∀ i : grid3.Coords, EltTy.bits .f32 = 32 ∨ (Rect.block (s := S128x8) S128x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x8.size a ≤ S1x8.size a
  hwx3_4 : ∀ i : grid3.Coords, EltTy.bits .f32 = 32 ∨ (Rect.block (s := S1x8) S1x8.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x8.size a ≤ S250000x8.size a
  hwx3_5 : ∀ i : grid3.Coords, EltTy.bits .f32 = 32 ∨ (Rect.block (s := S250000x8) S10000x8.size (cc3_transform_5 i) (hinb3_5 i)).WholeWords (EltTy.packing .f32)

variable [Facts₀]

def scatter_S1000000_S6000000x1_S6000000_n_0_0_1 : ScatterDims S1000000 S6000000x1 S6000000 where
  updateWindowDims := []
  insertedWindowDims := [0]
  scatterDimsToOperandDims := [0]
  indexVectorDim := 1
  wf := scatter_S1000000_S6000000x1_S6000000_n_0_0_1_wf
def gather_S1000000_S6000000x1_S6000000_n_0_n_n_0_1_1 : GatherDims S1000000 S6000000x1 S6000000 where
  offsetDims := []
  collapsedSliceDims := [0]
  operandBatchingDims := []
  startIndicesBatchingDims := []
  startIndexMap := [0]
  indexVectorDim := 1
  sliceSizes := ![1]
  wf := gather_S1000000_S6000000x1_S6000000_n_0_n_n_0_1_1_wf
def gather_S1000000x16_S1000000x1_S1000000x16_1_0_n_n_0_1_116 : GatherDims S1000000x16 S1000000x1 S1000000x16 where
  offsetDims := [1]
  collapsedSliceDims := [0]
  operandBatchingDims := []
  startIndicesBatchingDims := []
  startIndexMap := [0]
  indexVectorDim := 1
  sliceSizes := ![1, 16]
  wf := gather_S1000000x16_S1000000x1_S1000000x16_1_0_n_n_0_1_116_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S1000000x16_S6000000x1_S6000000x16_1_0_n_n_0_1_116 : GatherDims S1000000x16 S6000000x1 S6000000x16 where
  offsetDims := [1]
  collapsedSliceDims := [0]
  operandBatchingDims := []
  startIndicesBatchingDims := []
  startIndexMap := [0]
  indexVectorDim := 1
  sliceSizes := ![1, 16]
  wf := gather_S1000000x16_S6000000x1_S6000000x16_1_0_n_n_0_1_116_wf
def scatter_S1000000x16_S6000000x1_S6000000x16_1_0_0_1 : ScatterDims S1000000x16 S6000000x1 S6000000x16 where
  updateWindowDims := [1]
  insertedWindowDims := [0]
  scatterDimsToOperandDims := [0]
  indexVectorDim := 1
  wf := scatter_S1000000x16_S6000000x1_S6000000x16_1_0_0_1_wf
def gather_S1000000x16_S2000000x1_S2000000x16_1_0_n_n_0_1_116 : GatherDims S1000000x16 S2000000x1 S2000000x16 where
  offsetDims := [1]
  collapsedSliceDims := [0]
  operandBatchingDims := []
  startIndicesBatchingDims := []
  startIndexMap := [0]
  indexVectorDim := 1
  sliceSizes := ![1, 16]
  wf := gather_S1000000x16_S2000000x1_S2000000x16_1_0_n_n_0_1_116_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v71) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v91) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v112) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v124) S128x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v133) S128x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v137) S1x8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v138) S10000x8.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1000000 : Shape := ⟨1, ![1000000]⟩
abbrev S2x5000000 : Shape := ⟨2, ![2, 5000000]⟩
abbrev S2x2000000 : Shape := ⟨2, ![2, 2000000]⟩
abbrev S1000000x16 : Shape := ⟨2, ![1000000, 16]⟩
abbrev S16x16 : Shape := ⟨2, ![16, 16]⟩
abbrev S16 : Shape := ⟨1, ![16]⟩
abbrev S32x1 : Shape := ⟨2, ![32, 1]⟩
abbrev S1 : Shape := ⟨1, ![1]⟩
abbrev S1x5000000 : Shape := ⟨2, ![1, 5000000]⟩
abbrev S5000000 : Shape := ⟨1, ![5000000]⟩
abbrev S_ : Shape := ⟨0, ![]⟩
abbrev S1000000x1 : Shape := ⟨2, ![1000000, 1]⟩
abbrev S6000000 : Shape := ⟨1, ![6000000]⟩
abbrev S6000000x1 : Shape := ⟨2, ![6000000, 1]⟩
abbrev S6000000x16 : Shape := ⟨2, ![6000000, 16]⟩
abbrev S1x16 : Shape := ⟨2, ![1, 16]⟩
abbrev S1x2000000 : Shape := ⟨2, ![1, 2000000]⟩
abbrev S2000000 : Shape := ⟨1, ![2000000]⟩
abbrev S2000000x1 : Shape := ⟨2, ![2000000, 1]⟩
abbrev S2000000x16 : Shape := ⟨2, ![2000000, 16]⟩
abbrev S2000000x32 : Shape := ⟨2, ![2000000, 32]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S1000000, .i32⟩
  | 1 => ⟨S2x5000000, .i32⟩
  | 2 => ⟨S2x2000000, .i32⟩
  | 3 => ⟨S1000000x16, .f32⟩
  | 4 => ⟨S16x16, .f32⟩
  | 5 => ⟨S16, .f32⟩
  | 6 => ⟨S16x16, .f32⟩
  | 7 => ⟨S16, .f32⟩
  | 8 => ⟨S32x1, .f32⟩
  | 9 => ⟨S1, .f32⟩
  | 10 => ⟨S1x5000000, .i32⟩
  | 11 => ⟨S5000000, .i32⟩
  | 12 => ⟨S1x5000000, .i32⟩
  | 13 => ⟨S5000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x16, .f32⟩
  | 23 => ⟨S1000000x16, .f32⟩
  | 24 => ⟨S1000000, .i32⟩
  | 25 => ⟨S6000000, .i32⟩
  | 26 => ⟨S6000000, .i32⟩
  | 27 => ⟨S_, .f32⟩
  | 28 => ⟨S6000000, .f32⟩
  | 29 => ⟨S_, .f32⟩
  | 30 => ⟨S1000000, .f32⟩
  | 31 => ⟨S6000000x1, .i32⟩
  | 32 => ⟨S1000000, .f32⟩
  | 33 => ⟨S_, .f32⟩
  | 34 => ⟨S1000000, .f32⟩
  | 35 => ⟨S1000000, .i1⟩
  | 36 => ⟨S_, .f32⟩
  | 37 => ⟨S_, .f32⟩
  | 38 => ⟨S1000000, .f32⟩
  | 39 => ⟨S1000000, .f32⟩
  | 40 => ⟨S1000000, .f32⟩
  | 41 => ⟨S_, .i32⟩
  | 42 => ⟨S6000000, .i32⟩
  | 43 => ⟨S6000000, .i1⟩
  | 44 => ⟨S_, .i32⟩
  | 45 => ⟨S6000000, .i32⟩
  | 46 => ⟨S6000000, .i32⟩
  | 47 => ⟨S6000000, .i32⟩
  | 48 => ⟨S6000000x1, .i32⟩
  | 49 => ⟨S6000000, .f32⟩
  | 50 => ⟨S_, .i32⟩
  | 51 => ⟨S6000000, .i32⟩
  | 52 => ⟨S6000000, .i1⟩
  | 53 => ⟨S_, .i32⟩
  | 54 => ⟨S6000000, .i32⟩
  | 55 => ⟨S6000000, .i32⟩
  | 56 => ⟨S6000000, .i32⟩
  | 57 => ⟨S6000000x1, .i32⟩
  | 58 => ⟨S6000000, .f32⟩
  | 59 => ⟨S6000000, .f32⟩
  | 60 => ⟨S_, .i32⟩
  | 61 => ⟨S6000000, .i32⟩
  | 62 => ⟨S6000000, .i1⟩
  | 63 => ⟨S_, .i32⟩
  | 64 => ⟨S6000000, .i32⟩
  | 65 => ⟨S6000000, .i32⟩
  | 66 => ⟨S6000000, .i32⟩
  | 67 => ⟨S6000000x1, .i32⟩
  | 68 => ⟨S6000000x16, .f32⟩
  | 69 => ⟨S6000000x1, .f32⟩
  | 70 => ⟨S6000000x16, .f32⟩
  | 71 => ⟨S6000000x16, .f32⟩
  | 72 => ⟨S_, .f32⟩
  | 73 => ⟨S1000000x16, .f32⟩
  | 74 => ⟨S6000000x1, .i32⟩
  | 75 => ⟨S1000000x16, .f32⟩
  | 76 => ⟨S1x16, .f32⟩
  | 77 => ⟨S1000000x16, .f32⟩
  | 78 => ⟨S1000000x16, .f32⟩
  | 79 => ⟨S_, .f32⟩
  | 80 => ⟨S1000000x16, .f32⟩
  | 81 => ⟨S1000000x16, .f32⟩
  | 82 => ⟨S1000000x16, .f32⟩
  | 83 => ⟨S1000000, .i32⟩
  | 84 => ⟨S6000000, .i32⟩
  | 85 => ⟨S6000000, .i32⟩
  | 86 => ⟨S_, .f32⟩
  | 87 => ⟨S6000000, .f32⟩
  | 88 => ⟨S_, .f32⟩
  | 89 => ⟨S1000000, .f32⟩
  | 90 => ⟨S6000000x1, .i32⟩
  | 91 => ⟨S1000000, .f32⟩
  | 92 => ⟨S_, .f32⟩
  | 93 => ⟨S1000000, .f32⟩
  | 94 => ⟨S1000000, .i1⟩
  | 95 => ⟨S_, .f32⟩
  | 96 => ⟨S_, .f32⟩
  | 97 => ⟨S1000000, .f32⟩
  | 98 => ⟨S1000000, .f32⟩
  | 99 => ⟨S1000000, .f32⟩
  | 100 => ⟨S_, .i32⟩
  | 101 => ⟨S6000000, .i32⟩
  | 102 => ⟨S6000000, .i1⟩
  | 103 => ⟨S_, .i32⟩
  | 104 => ⟨S6000000, .i32⟩
  | 105 => ⟨S6000000, .i32⟩
  | 106 => ⟨S6000000, .i32⟩
  | 107 => ⟨S6000000x1, .i32⟩
  | 108 => ⟨S6000000, .f32⟩
  | 109 => ⟨S_, .i32⟩
  | 110 => ⟨S6000000, .i32⟩
  | 111 => ⟨S6000000, .i1⟩
  | 112 => ⟨S_, .i32⟩
  | 113 => ⟨S6000000, .i32⟩
  | 114 => ⟨S6000000, .i32⟩
  | 115 => ⟨S6000000, .i32⟩
  | 116 => ⟨S6000000x1, .i32⟩
  | 117 => ⟨S6000000, .f32⟩
  | 118 => ⟨S6000000, .f32⟩
  | 119 => ⟨S_, .i32⟩
  | 120 => ⟨S6000000, .i32⟩
  | 121 => ⟨S6000000, .i1⟩
  | 122 => ⟨S_, .i32⟩
  | 123 => ⟨S6000000, .i32⟩
  | 124 => ⟨S6000000, .i32⟩
  | 125 => ⟨S6000000, .i32⟩
  | 126 => ⟨S6000000x1, .i32⟩
  | 127 => ⟨S6000000x16, .f32⟩
  | _ => ⟨S1000000, .i32⟩

abbrev hbmTy0_1 (i : Nat) : BufTy := match i % 128 with
  | 0 => ⟨S6000000x1, .f32⟩
  | 1 => ⟨S6000000x16, .f32⟩
  | 2 => ⟨S6000000x16, .f32⟩
  | 3 => ⟨S_, .f32⟩
  | 4 => ⟨S1000000x16, .f32⟩
  | 5 => ⟨S6000000x1, .i32⟩
  | 6 => ⟨S1000000x16, .f32⟩
  | 7 => ⟨S1x16, .f32⟩
  | 8 => ⟨S1000000x16, .f32⟩
  | 9 => ⟨S1000000x16, .f32⟩
  | 10 => ⟨S1x2000000, .i32⟩
  | 11 => ⟨S2000000, .i32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x16, .f32⟩
  | 21 => ⟨S1x2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x16, .f32⟩
  | 32 => ⟨S2000000x32, .f32⟩
  | 33 => ⟨S2000000x1, .f32⟩
  | 34 => ⟨S1x1, .f32⟩
  | 35 => ⟨S2000000x1, .f32⟩
  | 36 => ⟨S2000000x1, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_c_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_22 : Ref sig .tc := ⟨.hbm, 140, rfl⟩
abbrev main_v100 : Ref sig .tc := ⟨.hbm, 141, rfl⟩
abbrev main_v101 : Ref sig .tc := ⟨.hbm, 142, rfl⟩
abbrev main_c_23 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_24 : Ref sig .tc := ⟨.hbm, 151, rfl⟩
abbrev main_v109 : Ref sig .tc := ⟨.hbm, 152, rfl⟩
abbrev main_v110 : Ref sig .tc := ⟨.hbm, 153, rfl⟩
abbrev main_c_25 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S5000000_S1000000_S6000000_d0 : Shape.Concatenates [S5000000, S1000000] S6000000 0
  bcast_S_S6000000 : S_.BroadcastsInDim S6000000 (![] : Fin 0 → Fin S6000000.rank)
  bcast_S6000000_S6000000x1_0 : S6000000.BroadcastsInDim S6000000x1 (![0] : Fin 1 → Fin S6000000x1.rank)
  bcast_S6000000x1_S6000000x16_0_1 : S6000000x1.BroadcastsInDim S6000000x16 (![0, 1] : Fin 2 → Fin S6000000x16.rank)
  bcast_S_S1000000x16 : S_.BroadcastsInDim S1000000x16 (![] : Fin 0 → Fin S1000000x16.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  concatenates_S2000000x16_S2000000x16_S2000000x32_d1 : Shape.Concatenates [S2000000x16, S2000000x16] S2000000x32 1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  gather_S1000000x16_S1000000x1_S1000000x16_1_0_n_n_0_1_116_wf : GatherDims.WF S1000000x16 S1000000x1 S1000000x16 [1] [0] [] [0] [] 1 ![1, 16]
  dot_S1000000x16_S16x16_S1000000x16_1_0_0_1_n_n_wf : DotDims.WF S1000000x16 S16x16 S1000000x16 [1] [0] [0] [1] [] []
  scatter_S1000000_S6000000x1_S6000000_n_0_0_1_wf : ScatterDims.WF S1000000 S6000000x1 S6000000 [] [0] [0] 1
  gather_S1000000_S6000000x1_S6000000_n_0_n_n_0_1_1_wf : GatherDims.WF S1000000 S6000000x1 S6000000 [] [0] [] [0] [] 1 ![1]
  gather_S1000000x16_S6000000x1_S6000000x16_1_0_n_n_0_1_116_wf : GatherDims.WF S1000000x16 S6000000x1 S6000000x16 [1] [0] [] [0] [] 1 ![1, 16]
  scatter_S1000000x16_S6000000x1_S6000000x16_1_0_0_1_wf : ScatterDims.WF S1000000x16 S6000000x1 S6000000x16 [1] [0] [0] 1
  gather_S1000000x16_S2000000x1_S2000000x16_1_0_n_n_0_1_116_wf : GatherDims.WF S1000000x16 S2000000x1 S2000000x16 [1] [0] [] [0] [] 1 ![1, 16]
  dot_S2000000x32_S32x1_S2000000x1_1_0_0_1_n_n_wf : DotDims.WF S2000000x32 S32x1 S2000000x1 [1] [0] [0] [1] [] []

variable [Facts₀]

def gather_S1000000x16_S1000000x1_S1000000x16_1_0_n_n_0_1_116 : GatherDims S1000000x16 S1000000x1 S1000000x16 where
  offsetDims := [1]
  collapsedSliceDims := [0]
  operandBatchingDims := []
  startIndicesBatchingDims := []
  startIndexMap := [0]
  indexVectorDim := 1
  sliceSizes := ![1, 16]
  wf := gather_S1000000x16_S1000000x1_S1000000x16_1_0_n_n_0_1_116_wf
def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def scatter_S1000000_S6000000x1_S6000000_n_0_0_1 : ScatterDims S1000000 S6000000x1 S6000000 where
  updateWindowDims := []
  insertedWindowDims := [0]
  scatterDimsToOperandDims := [0]
  indexVectorDim := 1
  wf := scatter_S1000000_S6000000x1_S6000000_n_0_0_1_wf
def gather_S1000000_S6000000x1_S6000000_n_0_n_n_0_1_1 : GatherDims S1000000 S6000000x1 S6000000 where
  offsetDims := []
  collapsedSliceDims := [0]
  operandBatchingDims := []
  startIndicesBatchingDims := []
  startIndexMap := [0]
  indexVectorDim := 1
  sliceSizes := ![1]
  wf := gather_S1000000_S6000000x1_S6000000_n_0_n_n_0_1_1_wf
def gather_S1000000x16_S6000000x1_S6000000x16_1_0_n_n_0_1_116 : GatherDims S1000000x16 S6000000x1 S6000000x16 where
  offsetDims := [1]
  collapsedSliceDims := [0]
  operandBatchingDims := []
  startIndicesBatchingDims := []
  startIndexMap := [0]
  indexVectorDim := 1
  sliceSizes := ![1, 16]
  wf := gather_S1000000x16_S6000000x1_S6000000x16_1_0_n_n_0_1_116_wf
def scatter_S1000000x16_S6000000x1_S6000000x16_1_0_0_1 : ScatterDims S1000000x16 S6000000x1 S6000000x16 where
  updateWindowDims := [1]
  insertedWindowDims := [0]
  scatterDimsToOperandDims := [0]
  indexVectorDim := 1
  wf := scatter_S1000000x16_S6000000x1_S6000000x16_1_0_0_1_wf
def gather_S1000000x16_S2000000x1_S2000000x16_1_0_n_n_0_1_116 : GatherDims S1000000x16 S2000000x1 S2000000x16 where
  offsetDims := [1]
  collapsedSliceDims := [0]
  operandBatchingDims := []
  startIndicesBatchingDims := []
  startIndexMap := [0]
  indexVectorDim := 1
  sliceSizes := ![1, 16]
  wf := gather_S1000000x16_S2000000x1_S2000000x16_1_0_n_n_0_1_116_wf
def dot_S2000000x32_S32x1_S2000000x1_1_0_0_1_n_n : DotDims S2000000x32 S32x1 S2000000x1 where
  lhsContracting := [1]
  rhsContracting := [0]
  lhsNonContracting := [0]
  rhsNonContracting := [1]
  lhsBatch := []
  rhsBatch := []
  wf := dot_S2000000x32_S32x1_S2000000x1_1_0_0_1_n_n_wf

class Facts : Prop extends Facts₀ where

variable [Facts]
-- ==== Proof.KRun.lean ====
/-
  The idealized kernel's run, with its result named.

  The program is fifteen segments: stretches of host operations and four grid regions. The generated frame module
  fixes the buffer contents at every segment boundary as a fold from the launch memory: a stretch of host operations
  rewrites the buffers it writes, a region leaves each of its arrays at what its grid points wrote back and every other
  buffer alone. Its frame theorem keeps, of the last boundary's contents, only that the arguments are as launched.
  Here the same run is stated keeping ONE more fact: the result buffer ends at the last boundary's contents,
  which the following modules compute, boundary by boundary, down to the arguments.
-/
import proofs.«119417_j62199716380859_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    contents of the last segment boundary, and every argument as launched. -/
theorem run_last : θ_run defs (onTc (τ := τ) (main (F := F))) ⟨m, fun _ => 0, ρ⟩ (fun r => ∀ c : Dev nD,
      r.2.mem ((c.tc : Thread nD τ).loc main_v139) = W15 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v139 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.RunV

end
-- ==== Proof.KStage.lean ====
/-
  The host-side stages of the kernel program that both graph-convolution layers share, as functions of the arguments.

  With `N = 1000000` nodes and `5000000` edges, each edge list is extended by the `N` self loops (`srcF`, `dstF`:
  6000000 entries). The in-degree of a node counts the entries of `dstF` equal to it (`deg`, a scatter-add of ones),
  `dinv = 1 / sqrt (deg, or 1 where deg is not positive)`, and the weight of edge `e` is
  `norm e = dinv (srcF e) · dinv (dstF e)`. One aggregation step sends a table `h` of `N` rows of 16 numbers to
  `agg h`, whose row `v` is the sum over the edges `e` into `v` of `norm e · h (srcF e)` (a gather of rows, a product
  with the weights, a scatter-add). Indices are read the way the host reads them: a negative index has `N` added.
  The embedding lookup `emb` is a gather of rows of the table by the node ids; the decode step gathers rows of the
  final table by the two rows of the pair list (`gatE0`, `gatE1`). `pack` / `unpack` / `packE` / `unpackOut` are the
  changes between rows of 16 (or 1) and rows of 128 (or 8) with the same row-major order.
-/
import proofs.«119417_j62199716380859_2_alg».proof.Proof.Gen.KernelIdeal
import Idealize.ShloMosaic.PureOps.Ideal

noncomputable section

namespace Cert.KernelIdeal.KStage

open Cert.KernelIdeal Cert.KernelIdeal.Facts₀ Cert.KernelIdeal.Facts Idealize.ShloMosaic

/-- The source list extended by the self loops. -/
def srcF (x1 : IVec S2x5000000 32) : IVec S6000000 32 :=
  concatenate S6000000 0 [⟨S5000000, shapeCast S5000000 (extractStridedSlice S1x5000000 ![0, 0] x1 slices_S2x5000000_S1x5000000_0_0) shapeCasts_S1x5000000_S5000000⟩, ⟨S1000000, iotaInDim S1000000 32 0⟩] concatenates_S5000000_S1000000_S6000000_d0

/-- The destination list extended by the self loops. -/
def dstF (x1 : IVec S2x5000000 32) : IVec S6000000 32 :=
  concatenate S6000000 0 [⟨S5000000, shapeCast S5000000 (extractStridedSlice S1x5000000 ![1, 0] x1 slices_S2x5000000_S1x5000000_1_0) shapeCasts_S1x5000000_S5000000⟩, ⟨S1000000, iotaInDim S1000000 32 0⟩] concatenates_S5000000_S1000000_S6000000_d0

/-- A list of 6000000 node indices as the host reads them (a negative index has `N` added), as a column. -/
def fix6 (v : IVec S6000000 32) : IVec S6000000x1 32 :=
  broadcastInDim S6000000x1 ![0] bcast_S6000000_S6000000x1_0
    (select (cmpi .slt v (broadcastInDim S6000000 ![] bcast_S_S6000000 (constantI S_ 32 0#32)))
      (addi v (broadcastInDim S6000000 ![] bcast_S_S6000000 (constantI S_ 32 1000000#32))) v)

/-- The in-degree of every node, self loop included. -/
def deg (x1 : IVec S2x5000000 32) : FVec Ideal S1000000 .f32 :=
  Host.scatterAdd (F := Ideal) scatter_S1000000_S6000000x1_S6000000_n_0_0_1
    (broadcastInDim S1000000 ![] bcast_S_S1000000 (constant (F := Ideal) S_ .f32 0x00000000#32))
    (broadcastInDim S6000000x1 ![0] bcast_S6000000_S6000000x1_0 (dstF x1))
    (broadcastInDim S6000000 ![] bcast_S_S6000000 (constant (F := Ideal) S_ .f32 0x3F800000#32))

/-- One over the square root of the degree (of one, where the degree is not positive). -/
def dinv (x1 : IVec S2x5000000 32) : FVec Ideal S1000000 .f32 :=
  Host.rsqrt (F := Ideal) (select (cmpf (F := Ideal) .ogt (deg x1) (broadcastInDim S1000000 ![] bcast_S_S1000000 (constant (F := Ideal) S_ .f32 0x00000000#32)))
    (deg x1) (broadcastInDim S1000000 ![] bcast_S_S1000000 (constant (F := Ideal) S_ .f32 0x3F800000#32)))

/-- The weight of every edge. -/
def norm (x1 : IVec S2x5000000 32) : FVec Ideal S6000000 .f32 :=
  mulf (F := Ideal) (Host.gather gather_S1000000_S6000000x1_S6000000_n_0_n_n_0_1_1 (dinv x1) (fix6 (srcF x1)))
    (Host.gather gather_S1000000_S6000000x1_S6000000_n_0_n_n_0_1_1 (dinv x1) (fix6 (dstF x1)))

/-- One aggregation step: row `v` of the result is the sum over the edges into `v` of the weight times the source's row. -/
def agg (x1 : IVec S2x5000000 32) (h : FVec Ideal S1000000x16 .f32) : FVec Ideal S1000000x16 .f32 :=
  Host.scatterAdd (F := Ideal) scatter_S1000000x16_S6000000x1_S6000000x16_1_0_0_1
    (broadcastInDim S1000000x16 ![] bcast_S_S1000000x16 (constant (F := Ideal) S_ .f32 0x00000000#32))
    (broadcastInDim S6000000x1 ![0] bcast_S6000000_S6000000x1_0 (dstF x1))
    (mulf (F := Ideal) (Host.gather gather_S1000000x16_S6000000x1_S6000000x16_1_0_n_n_0_1_116 h (fix6 (srcF x1)))
      (broadcastInDim S6000000x16 ![0, 1] bcast_S6000000x1_S6000000x16_0_1
        (broadcastInDim S6000000x1 ![0] bcast_S6000000_S6000000x1_0 (norm x1))))

/-- The embedding lookup: the table's rows at the node ids. -/
def emb (x0 : IVec S1000000 32) (x3 : FVec Ideal S1000000x16 .f32) : FVec Ideal S1000000x16 .f32 :=
  Host.gather gather_S1000000x16_S1000000x1_S1000000x16_1_0_n_n_0_1_116 x3
    (broadcastInDim S1000000x1 ![0] bcast_S1000000_S1000000x1_0
      (select (cmpi .slt x0 (broadcastInDim S1000000 ![] bcast_S_S1000000 (constantI S_ 32 0#32)))
        (addi x0 (broadcastInDim S1000000 ![] bcast_S_S1000000 (constantI S_ 32 1000000#32))) x0))

/-- Row `r` of the pair list as the host reads it, as a column. -/
def fixE (v : IVec S2000000 32) : IVec S2000000x1 32 :=
  broadcastInDim S2000000x1 ![0] bcast_S2000000_S2000000x1_0
    (select (cmpi .slt v (broadcastInDim S2000000 ![] bcast_S_S2000000 (constantI S_ 32 0#32)))
      (addi v (broadcastInDim S2000000 ![] bcast_S_S2000000 (constantI S_ 32 1000000#32))) v)

/-- The rows of `z` at the first row of the pair list. -/
def gatE0 (x2 : IVec S2x2000000 32) (z : FVec Ideal S1000000x16 .f32) : FVec Ideal S2000000x16 .f32 :=
  Host.gather gather_S1000000x16_S2000000x1_S2000000x16_1_0_n_n_0_1_116 z
    (fixE (shapeCast S2000000 (extractStridedSlice S1x2000000 ![0, 0] x2 slices_S2x2000000_S1x2000000_0_0) shapeCasts_S1x2000000_S2000000))

/-- The rows of `z` at the second row of the pair list. -/
def gatE1 (x2 : IVec S2x2000000 32) (z : FVec Ideal S1000000x16 .f32) : FVec Ideal S2000000x16 .f32 :=
  Host.gather gather_S1000000x16_S2000000x1_S2000000x16_1_0_n_n_0_1_116 z
    (fixE (shapeCast S2000000 (extractStridedSlice S1x2000000 ![1, 0] x2 slices_S2x2000000_S1x2000000_1_0) shapeCasts_S1x2000000_S2000000))

/-- Eight rows of 16 as one row of 128. -/
def pack (h : FVec Ideal S1000000x16 .f32) : FVec Ideal S125000x128 .f32 := shapeCast S125000x128 h shapeCasts_S1000000x16_S125000x128
/-- And back. -/
def unpack (y : FVec Ideal S125000x128 .f32) : FVec Ideal S1000000x16 .f32 := shapeCast S1000000x16 y shapeCasts_S125000x128_S1000000x16
/-- The same for the 2000000 gathered rows. -/
def packE (g : FVec Ideal S2000000x16 .f32) : FVec Ideal S250000x128 .f32 := shapeCast S250000x128 g shapeCasts_S2000000x16_S250000x128
/-- Rows of 8 as a column. -/
def unpackOut (y : FVec Ideal S250000x8 .f32) : FVec Ideal S2000000x1 .f32 := shapeCast S2000000x1 y shapeCasts_S250000x8_S2000000x1

end Cert.KernelIdeal.KStage

end
-- ==== Proof.KBoundary.lean ====
/-
  What each grid region of the kernel program finds in its input arrays, and what carries across the regions.

  The buffer contents at a segment boundary are a fold of the host operations from the launch memory. Read at one
  buffer the fold is the composition of the operations that produced that buffer, so:
    • region 0 is entered with the packed embedding rows in its first window;
    • region 1 with the packed aggregation of region 0's unpacked output; region 2 with the packed aggregation of
      region 1's unpacked output; region 3 with the packed rows gathered, at either row of the pair list, from region
      2's unpacked output; and the program's result is region 3's output unpacked to a column;
    • the extended edge lists, the edge weights and the arguments are written once (or never) and no later stretch or
      region touches them, so every later boundary still holds them.
-/
import proofs.«119417_j62199716380859_2_alg».proof.Proof.KRun
import proofs.«119417_j62199716380859_2_alg».proof.Proof.KStage

set_option maxRecDepth 16384

noncomputable section

namespace Cert.KernelIdeal.Boundary

open Cert.KernelIdeal Cert.KernelIdeal.Gen Cert.KernelIdeal.KStage Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Region 0's entry -/

set_option maxHeartbeats 4000000 in
/-- Region 0's first window: the embedding rows, packed. -/
theorem W5_v44 : W5 m ρ c (Proc.devRef .tc main_v44) = pack (emb (m ((c : Thread nD τ).loc main_arg0)) (m ((c : Thread nD τ).loc main_arg3))) := by
  dsimp only [W5, W4, W3, W2, W1]
  after_results_simp <;> rfl

set_option maxHeartbeats 4000000 in
theorem W5_v5 : W5 m ρ c (Proc.devRef .tc main_v5) = srcF (m ((c : Thread nD τ).loc main_arg1)) := by
  dsimp only [W5, W4, W3, W2, W1]
  after_results_simp <;> rfl
theorem W6_v5 : W6 m ρ c (Proc.devRef .tc main_v5) = srcF (m ((c : Thread nD τ).loc main_arg1)) :=
  (W6_of_ne m ρ c main_v5 (by decide)).trans (W5_v5 m ρ c)
set_option maxHeartbeats 4000000 in
theorem W5_v6 : W5 m ρ c (Proc.devRef .tc main_v6) = dstF (m ((c : Thread nD τ).loc main_arg1)) := by
  dsimp only [W5, W4, W3, W2, W1]
  after_results_simp <;> rfl
theorem W6_v6 : W6 m ρ c (Proc.devRef .tc main_v6) = dstF (m ((c : Thread nD τ).loc main_arg1)) :=
  (W6_of_ne m ρ c main_v6 (by decide)).trans (W5_v6 m ρ c)
/-! The edge weights are written across three stretches (the degree; the choice of one where the degree is not
    positive, an outlined function; the inverse square roots, the two gathers and their product). They are read one
    stretch at a time: what a stretch leaves in a buffer as a function of ANY contents before it, then the three composed. -/

section Stretches
variable (W : Valuation τ sig (Elt Ideal))

/-- The outlined choice: where the condition holds the value, elsewhere the broadcast scalar. -/
theorem where_after : StableHlo.after hostOps0_1 W (Proc.devRef .tc main_v13)
    = (select (W (Proc.devRef .tc main_v12) : IVec S1000000 1) (W (Proc.devRef .tc main_v10) : FVec Ideal S1000000 .f32)
        (broadcastInDim S1000000 ![] Facts₀.bcast_S_S1000000 (W (Proc.devRef .tc main_cst_2) : FVec Ideal S_ .f32)) : FVec Ideal S1000000 .f32) := by
  after_results_simp <;> rfl

theorem where_after_v5 : StableHlo.after hostOps0_1 W (Proc.devRef .tc main_v5) = W (Proc.devRef .tc main_v5) := by
  after_results_simp <;> rfl
theorem where_after_v6 : StableHlo.after hostOps0_1 W (Proc.devRef .tc main_v6) = W (Proc.devRef .tc main_v6) := by
  after_results_simp <;> rfl

set_option maxHeartbeats 4000000 in
/-- The weights from the chosen degrees and the two extended edge lists. -/
theorem norm_after : StableHlo.after hostOps0_2 W (Proc.devRef .tc main_v29)
    = (mulf (F := Ideal)
        (Host.gather gather_S1000000_S6000000x1_S6000000_n_0_n_n_0_1_1 (Host.rsqrt (F := Ideal) (W (Proc.devRef .tc main_v13) : FVec Ideal S1000000 .f32)) (fix6 (W (Proc.devRef .tc main_v5))))
        (Host.gather gather_S1000000_S6000000x1_S6000000_n_0_n_n_0_1_1 (Host.rsqrt (F := Ideal) (W (Proc.devRef .tc main_v13) : FVec Ideal S1000000 .f32)) (fix6 (W (Proc.devRef .tc main_v6)))) : FVec Ideal S6000000 .f32) := by
  after_results_simp <;> rfl

end Stretches

set_option maxHeartbeats 4000000 in
theorem W1_v10 : W1 m ρ c (Proc.devRef .tc main_v10) = deg (m ((c : Thread nD τ).loc main_arg1)) := by
  dsimp only [W1]
  after_results_simp <;> rfl
set_option maxHeartbeats 4000000 in
theorem W1_v12 : W1 m ρ c (Proc.devRef .tc main_v12) = cmpf (F := Ideal) .ogt (deg (m ((c : Thread nD τ).loc main_arg1))) (broadcastInDim S1000000 ![] Facts₀.bcast_S_S1000000 (constant (F := Ideal) S_ .f32 0x00000000#32)) := by
  dsimp only [W1]
  after_results_simp <;> rfl
theorem W1_cst_2 : W1 m ρ c (Proc.devRef .tc main_cst_2) = constant (F := Ideal) S_ .f32 0x3F800000#32 := by
  dsimp only [W1]
  after_results_simp <;> rfl
set_option maxHeartbeats 4000000 in
theorem W1_v5 : W1 m ρ c (Proc.devRef .tc main_v5) = srcF (m ((c : Thread nD τ).loc main_arg1)) := by
  dsimp only [W1]
  after_results_simp <;> rfl
set_option maxHeartbeats 4000000 in
theorem W1_v6 : W1 m ρ c (Proc.devRef .tc main_v6) = dstF (m ((c : Thread nD τ).loc main_arg1)) := by
  dsimp only [W1]
  after_results_simp <;> rfl

theorem W2_v13 : W2 m ρ c (Proc.devRef .tc main_v13) = (select (cmpf (F := Ideal) .ogt (deg (m ((c : Thread nD τ).loc main_arg1))) (broadcastInDim S1000000 ![] Facts₀.bcast_S_S1000000 (constant (F := Ideal) S_ .f32 0x00000000#32)))
    (deg (m ((c : Thread nD τ).loc main_arg1))) (broadcastInDim S1000000 ![] Facts₀.bcast_S_S1000000 (constant (F := Ideal) S_ .f32 0x3F800000#32)) : FVec Ideal S1000000 .f32) := by
  show StableHlo.after hostOps0_1 (W1 m ρ c) _ = _
  rw [where_after (W1 m ρ c), W1_v12 m ρ c, W1_v10 m ρ c, W1_cst_2 m ρ c]
theorem W2_v5 : W2 m ρ c (Proc.devRef .tc main_v5) = srcF (m ((c : Thread nD τ).loc main_arg1)) :=
  (where_after_v5 (W1 m ρ c)).trans (W1_v5 m ρ c)
theorem W2_v6 : W2 m ρ c (Proc.devRef .tc main_v6) = dstF (m ((c : Thread nD τ).loc main_arg1)) :=
  (where_after_v6 (W1 m ρ c)).trans (W1_v6 m ρ c)

theorem W3_v29 : W3 m ρ c (Proc.devRef .tc main_v29) = norm (m ((c : Thread nD τ).loc main_arg1)) := by
  show StableHlo.after hostOps0_2 (W2 m ρ c) _ = _
  rw [norm_after (W2 m ρ c), W2_v13 m ρ c, W2_v5 m ρ c, W2_v6 m ρ c]
  rfl

/-- The Kronecker call and the packing that follow do not write the weights. -/
theorem norm_kept (W : Valuation τ sig (Elt Ideal)) :
    StableHlo.after hostOps0_4 (StableHlo.after hostOps0_3 W) (Proc.devRef .tc main_v29) = W (Proc.devRef .tc main_v29) := by
  after_results_simp <;> rfl

theorem W5_v29 : W5 m ρ c (Proc.devRef .tc main_v29) = norm (m ((c : Thread nD τ).loc main_arg1)) :=
  (norm_kept (W3 m ρ c)).trans (W3_v29 m ρ c)
theorem W6_v29 : W6 m ρ c (Proc.devRef .tc main_v29) = norm (m ((c : Thread nD τ).loc main_arg1)) :=
  (W6_of_ne m ρ c main_v29 (by decide)).trans (W5_v29 m ρ c)
set_option maxHeartbeats 4000000 in
theorem W5_arg2 : W5 m ρ c (Proc.devRef .tc main_arg2) = m ((c : Thread nD τ).loc main_arg2) := by
  dsimp only [W5, W4, W3, W2, W1]
  after_results_simp <;> rfl
theorem W6_arg2 : W6 m ρ c (Proc.devRef .tc main_arg2) = m ((c : Thread nD τ).loc main_arg2) :=
  (W6_of_ne m ρ c main_arg2 (by decide)).trans (W5_arg2 m ρ c)
set_option maxHeartbeats 4000000 in
theorem W5_arg5 : W5 m ρ c (Proc.devRef .tc main_arg5) = m ((c : Thread nD τ).loc main_arg5) := by
  dsimp only [W5, W4, W3, W2, W1]
  after_results_simp <;> rfl
theorem W6_arg5 : W6 m ρ c (Proc.devRef .tc main_arg5) = m ((c : Thread nD τ).loc main_arg5) :=
  (W6_of_ne m ρ c main_arg5 (by decide)).trans (W5_arg5 m ρ c)
set_option maxHeartbeats 4000000 in
theorem W5_arg6 : W5 m ρ c (Proc.devRef .tc main_arg6) = m ((c : Thread nD τ).loc main_arg6) := by
  dsimp only [W5, W4, W3, W2, W1]
  after_results_simp <;> rfl
theorem W6_arg6 : W6 m ρ c (Proc.devRef .tc main_arg6) = m ((c : Thread nD τ).loc main_arg6) :=
  (W6_of_ne m ρ c main_arg6 (by decide)).trans (W5_arg6 m ρ c)
set_option maxHeartbeats 4000000 in
theorem W5_arg7 : W5 m ρ c (Proc.devRef .tc main_arg7) = m ((c : Thread nD τ).loc main_arg7) := by
  dsimp only [W5, W4, W3, W2, W1]
  after_results_simp <;> rfl
theorem W6_arg7 : W6 m ρ c (Proc.devRef .tc main_arg7) = m ((c : Thread nD τ).loc main_arg7) :=
  (W6_of_ne m ρ c main_arg7 (by decide)).trans (W5_arg7 m ρ c)
set_option maxHeartbeats 4000000 in
theorem W5_arg8 : W5 m ρ c (Proc.devRef .tc main_arg8) = m ((c : Thread nD τ).loc main_arg8) := by
  dsimp only [W5, W4, W3, W2, W1]
  after_results_simp <;> rfl
theorem W6_arg8 : W6 m ρ c (Proc.devRef .tc main_arg8) = m ((c : Thread nD τ).loc main_arg8) :=
  (W6_of_ne m ρ c main_arg8 (by decide)).trans (W5_arg8 m ρ c)
set_option maxHeartbeats 4000000 in
theorem W5_arg9 : W5 m ρ c (Proc.devRef .tc main_arg9) = m ((c : Thread nD τ).loc main_arg9) := by
  dsimp only [W5, W4, W3, W2, W1]
  after_results_simp <;> rfl
theorem W6_arg9 : W6 m ρ c (Proc.devRef .tc main_arg9) = m ((c : Thread nD τ).loc main_arg9) :=
  (W6_of_ne m ρ c main_arg9 (by decide)).trans (W5_arg9 m ρ c)

/-! ## Region 1's entry -/

set_option maxHeartbeats 4000000 in
/-- Region 1's first window: the aggregation of region 0's output, packed. -/
theorem W9_v71 : W9 m ρ c (Proc.devRef .tc main_v71) = pack (agg (m ((c : Thread nD τ).loc main_arg1)) (unpack (W6 m ρ c (Proc.devRef .tc main_v45)))) := by
  dsimp only [W9, W8, W7]
  after_results_simp
  rw [W6_v5 m ρ c, W6_v6 m ρ c, W6_v29 m ρ c]
  rfl

set_option maxHeartbeats 4000000 in
theorem W10_v5 : W10 m ρ c (Proc.devRef .tc main_v5) = srcF (m ((c : Thread nD τ).loc main_arg1)) := by
  rw [W10_of_ne m ρ c main_v5 (by decide)]
  dsimp only [W9, W8, W7]
  after_results_simp
  exact W6_v5 m ρ c
set_option maxHeartbeats 4000000 in
theorem W10_v6 : W10 m ρ c (Proc.devRef .tc main_v6) = dstF (m ((c : Thread nD τ).loc main_arg1)) := by
  rw [W10_of_ne m ρ c main_v6 (by decide)]
  dsimp only [W9, W8, W7]
  after_results_simp
  exact W6_v6 m ρ c
set_option maxHeartbeats 4000000 in
theorem W10_v29 : W10 m ρ c (Proc.devRef .tc main_v29) = norm (m ((c : Thread nD τ).loc main_arg1)) := by
  rw [W10_of_ne m ρ c main_v29 (by decide)]
  dsimp only [W9, W8, W7]
  after_results_simp
  exact W6_v29 m ρ c
set_option maxHeartbeats 4000000 in
theorem W10_arg2 : W10 m ρ c (Proc.devRef .tc main_arg2) = m ((c : Thread nD τ).loc main_arg2) := by
  rw [W10_of_ne m ρ c main_arg2 (by decide)]
  dsimp only [W9, W8, W7]
  after_results_simp
  exact W6_arg2 m ρ c
set_option maxHeartbeats 4000000 in
theorem W10_arg5 : W10 m ρ c (Proc.devRef .tc main_arg5) = m ((c : Thread nD τ).loc main_arg5) := by
  rw [W10_of_ne m ρ c main_arg5 (by decide)]
  dsimp only [W9, W8, W7]
  after_results_simp
  exact W6_arg5 m ρ c
set_option maxHeartbeats 4000000 in
theorem W10_arg6 : W10 m ρ c (Proc.devRef .tc main_arg6) = m ((c : Thread nD τ).loc main_arg6) := by
  rw [W10_of_ne m ρ c main_arg6 (by decide)]
  dsimp only [W9, W8, W7]
  after_results_simp
  exact W6_arg6 m ρ c
set_option maxHeartbeats 4000000 in
theorem W10_arg7 : W10 m ρ c (Proc.devRef .tc main_arg7) = m ((c : Thread nD τ).loc main_arg7) := by
  rw [W10_of_ne m ρ c main_arg7 (by decide)]
  dsimp only [W9, W8, W7]
  after_results_simp
  exact W6_arg7 m ρ c
set_option maxHeartbeats 4000000 in
theorem W10_arg8 : W10 m ρ c (Proc.devRef .tc main_arg8) = m ((c : Thread nD τ).loc main_arg8) := by
  rw [W10_of_ne m ρ c main_arg8 (by decide)]
  dsimp only [W9, W8, W7]
  after_results_simp
  exact W6_arg8 m ρ c
set_option maxHeartbeats 4000000 in
theorem W10_arg9 : W10 m ρ c (Proc.devRef .tc main_arg9) = m ((c : Thread nD τ).loc main_arg9) := by
  rw [W10_of_ne m ρ c main_arg9 (by decide)]
  dsimp only [W9, W8, W7]
  after_results_simp
  exact W6_arg9 m ρ c

/-! ## Region 2's entry -/

set_option maxHeartbeats 4000000 in
/-- Region 2's first window: the aggregation of region 1's output, packed. -/
theorem W11_v91 : W11 m ρ c (Proc.devRef .tc main_v91) = pack (agg (m ((c : Thread nD τ).loc main_arg1)) (unpack (W10 m ρ c (Proc.devRef .tc main_v72)))) := by
  dsimp only [W11]
  after_results_simp
  rw [W10_v5 m ρ c, W10_v6 m ρ c, W10_v29 m ρ c]
  rfl

set_option maxHeartbeats 4000000 in
theorem W12_arg2 : W12 m ρ c (Proc.devRef .tc main_arg2) = m ((c : Thread nD τ).loc main_arg2) := by
  rw [W12_of_ne m ρ c main_arg2 (by decide)]
  dsimp only [W11]
  after_results_simp
  exact W10_arg2 m ρ c
set_option maxHeartbeats 4000000 in
theorem W12_arg8 : W12 m ρ c (Proc.devRef .tc main_arg8) = m ((c : Thread nD τ).loc main_arg8) := by
  rw [W12_of_ne m ρ c main_arg8 (by decide)]
  dsimp only [W11]
  after_results_simp
  exact W10_arg8 m ρ c
set_option maxHeartbeats 4000000 in
theorem W12_arg9 : W12 m ρ c (Proc.devRef .tc main_arg9) = m ((c : Thread nD τ).loc main_arg9) := by
  rw [W12_of_ne m ρ c main_arg9 (by decide)]
  dsimp only [W11]
  after_results_simp
  exact W10_arg9 m ρ c

/-! ## Region 3's entry, and the result -/

set_option maxHeartbeats 4000000 in
/-- Region 3's first window: region 2's output unpacked, its rows gathered at the first row of the pair list, packed. -/
theorem W13_v112 : W13 m ρ c (Proc.devRef .tc main_v112) = packE (gatE0 (m ((c : Thread nD τ).loc main_arg2)) (unpack (W12 m ρ c (Proc.devRef .tc main_v92)))) := by
  dsimp only [W13]
  after_results_simp
  rw [W12_arg2 m ρ c]
  rfl

set_option maxHeartbeats 4000000 in
/-- Region 3's second window: the same at the second row of the pair list. -/
theorem W13_v113 : W13 m ρ c (Proc.devRef .tc main_v113) = packE (gatE1 (m ((c : Thread nD τ).loc main_arg2)) (unpack (W12 m ρ c (Proc.devRef .tc main_v92)))) := by
  dsimp only [W13]
  after_results_simp
  rw [W12_arg2 m ρ c]
  rfl

/-- The program's result: region 3's output, unpacked to a column. -/
theorem W15_v139 : W15 m ρ c (Proc.devRef .tc main_v139) = unpackOut (W14 m ρ c (Proc.devRef .tc main_v138)) := by
  dsimp only [W15]
  after_results_simp <;> rfl

end Cert.KernelIdeal.Boundary

end
-- ==== Proof.LibPackRead.lean ====
/-
  Rows of sixteen packed eight to a row of 128, read entry by entry (a general lemma file; nothing here mentions a
  particular program).

  An array of `N = 8a` rows of 16 entries and the array of `a` rows of 128 entries with the same row-major order
  are one list of numbers: entry `(p, d)` of the packed array is entry `(8p + d / 16, d % 16)` of the unpacked one,
  and entry `(n, j)` of the unpacked array is entry `(n / 8, 16 (n % 8) + j)` of the packed one. The same for a column
  of `E = 8a` entries against `a` rows of 8. Beside them:
    • the Kronecker product of an 8 × 8 matrix `E` with a 16 × 16 matrix `W`, built as a product of two broadcasts
      to `[8, 16, 8, 16]` and flattened to 128 × 128: its entry `(k, c)` is `E (k / 16, c / 16) · W (k % 16, c % 16)`;
    • a vector of 16 entries repeated eight times as one row of 128: entry `d` is entry `d % 16` of the vector;
    • a single number repeated as one row of 8;
    • the 8 × 8 identity pattern written with two iotas and a comparison: `1` on the diagonal, `0` off it.
  Every lemma is stated at indices given by their coordinates; the caller names the operand's index and proves
  the coordinate arithmetic.
-/
import Idealize.ShloMosaic.Lib.Pipeline.Value
import Idealize.ShloMosaic.Lib.ValueIdx
import Idealize.ShloMosaic.Lib.IdealHost
import Idealize.ShloMosaic.PureOps.Ideal

namespace Cert.PackRead

open Idealize.ShloMosaic Idealize.ShloMosaic.ValueIdx

variable {α : Type}

/-- Packed entry `(p, d)` is unpacked entry `(8p + d / 16, d % 16)`. -/
theorem pack8_apply {N a : ℕ} (x : (⟨2, ![N, 16]⟩ : Shape).Idx → α)
    (h : (⟨2, ![N, 16]⟩ : Shape).ShapeCasts ⟨2, ![a, 128]⟩) (p : Fin a) (d : Fin 128) (n : Fin N) (i : Fin 16)
    (hn : n.val = 8 * p.val + d.val / 16) (hi : i.val = d.val % 16) :
    shapeCast ⟨2, ![a, 128]⟩ x h (ix2 p d) = x (ix2 n i) :=
  shapeCast_apply x h (ix2 p d) (ix2 n i) (by
    rw [Shape.rowMajor_val_two, Shape.rowMajor_val_two]
    show n.val * 16 + i.val = p.val * 128 + d.val
    have := d.isLt; omega)

/-- Unpacked entry `(n, j)` is packed entry `(n / 8, 16 (n % 8) + j)`. -/
theorem unpack8_apply {N a : ℕ} (y : (⟨2, ![a, 128]⟩ : Shape).Idx → α)
    (h : (⟨2, ![a, 128]⟩ : Shape).ShapeCasts ⟨2, ![N, 16]⟩) (n : Fin N) (j : Fin 16) (p : Fin a) (d : Fin 128)
    (hp : p.val = n.val / 8) (hd : d.val = 16 * (n.val % 8) + j.val) :
    shapeCast ⟨2, ![N, 16]⟩ y h (ix2 n j) = y (ix2 p d) :=
  shapeCast_apply y h (ix2 n j) (ix2 p d) (by
    rw [Shape.rowMajor_val_two, Shape.rowMajor_val_two]
    show p.val * 128 + d.val = n.val * 16 + j.val
    have := j.isLt; omega)

/-- Entry `e` of a column of `8a` entries is entry `(e / 8, e % 8)` of the `a` rows of 8. -/
theorem unpack8col_apply {E a : ℕ} (y : (⟨2, ![a, 8]⟩ : Shape).Idx → α)
    (h : (⟨2, ![a, 8]⟩ : Shape).ShapeCasts ⟨2, ![E, 1]⟩) (e : Fin E) (z : Fin 1) (p : Fin a) (r : Fin 8)
    (hp : p.val = e.val / 8) (hr : r.val = e.val % 8) :
    shapeCast ⟨2, ![E, 1]⟩ y h (ix2 e z) = y (ix2 p r) :=
  shapeCast_apply y h (ix2 e z) (ix2 p r) (by
    rw [Shape.rowMajor_val_two, Shape.rowMajor_val_two]
    show p.val * 8 + r.val = e.val * 1 + z.val
    have := z.isLt; omega)

/-- The Kronecker product of an 8 × 8 with a 16 × 16 matrix, as a product of two broadcasts flattened to 128 × 128:
    entry `(k, c)` is `E (k / 16, c / 16) · W (k % 16, c % 16)`. -/
theorem kron_apply (E : (⟨2, ![8, 8]⟩ : Shape).Idx → EReal) (W : (⟨2, ![16, 16]⟩ : Shape).Idx → EReal)
    (h1 : (⟨2, ![8, 8]⟩ : Shape).BroadcastsInDim ⟨4, ![8, 1, 8, 1]⟩ ![0, 2])
    (h2 : (⟨2, ![16, 16]⟩ : Shape).BroadcastsInDim ⟨4, ![1, 16, 1, 16]⟩ ![1, 3])
    (h3 : (⟨4, ![8, 1, 8, 1]⟩ : Shape).BroadcastsInDim ⟨4, ![8, 16, 8, 16]⟩ ![0, 1, 2, 3])
    (h4 : (⟨4, ![1, 16, 1, 16]⟩ : Shape).BroadcastsInDim ⟨4, ![8, 16, 8, 16]⟩ ![0, 1, 2, 3])
    (hc : (⟨4, ![8, 16, 8, 16]⟩ : Shape).ShapeCasts ⟨2, ![128, 128]⟩)
    (k c : Fin 128) (a b : Fin 8) (i j : Fin 16)
    (ha : a.val = k.val / 16) (hi : i.val = k.val % 16) (hb : b.val = c.val / 16) (hj : j.val = c.val % 16) :
    shapeCast ⟨2, ![128, 128]⟩
        (mulf (F := Ideal) (φ := .f32)
          (broadcastInDim ⟨4, ![8, 16, 8, 16]⟩ ![0, 1, 2, 3] h3 (broadcastInDim ⟨4, ![8, 1, 8, 1]⟩ ![0, 2] h1 E))
          (broadcastInDim ⟨4, ![8, 16, 8, 16]⟩ ![0, 1, 2, 3] h4 (broadcastInDim ⟨4, ![1, 16, 1, 16]⟩ ![1, 3] h2 W)))
        hc (ix2 k c)
      = E (ix2 a b) * W (ix2 i j) := by
  refine (shapeCast_apply _ hc (ix2 k c) (ix4 a i b j) (by
    rw [Shape.rowMajor_val_four, Shape.rowMajor_val_two]
    show ((a.val * 16 + i.val) * 8 + b.val) * 16 + j.val = k.val * 128 + c.val
    have := k.isLt; have := c.isLt; omega)).trans ?_
  refine congrArg₂ (· * ·) ?_ ?_
  · refine (broadcastInDim_apply _ h3 _ (ix4 a i b j) (ix4 a 0 b 0) fun ax => by
      match ax with
      | ⟨0, _⟩ => rfl
      | ⟨1, _⟩ => rfl
      | ⟨2, _⟩ => rfl
      | ⟨3, _⟩ => rfl).trans ?_
    exact broadcastInDim_apply _ h1 _ (ix4 a 0 b 0) (ix2 a b) fun ax => by
      match ax with
      | ⟨0, _⟩ => rfl
      | ⟨1, _⟩ => rfl
  · refine (broadcastInDim_apply _ h4 _ (ix4 a i b j) (ix4 0 i 0 j) fun ax => by
      match ax with
      | ⟨0, _⟩ => rfl
      | ⟨1, _⟩ => rfl
      | ⟨2, _⟩ => rfl
      | ⟨3, _⟩ => rfl).trans ?_
    exact broadcastInDim_apply _ h2 _ (ix4 0 i 0 j) (ix2 i j) fun ax => by
      match ax with
      | ⟨0, _⟩ => rfl
      | ⟨1, _⟩ => rfl

/-- A vector of 16 entries repeated eight times as one row of 128: entry `d` is the vector's entry `d % 16`. -/
theorem tile8_apply (b : (⟨1, ![16]⟩ : Shape).Idx → α)
    (h1 : (⟨1, ![16]⟩ : Shape).ShapeCasts ⟨2, ![1, 16]⟩)
    (h2 : (⟨2, ![1, 16]⟩ : Shape).BroadcastsInDim ⟨2, ![8, 16]⟩ ![0, 1])
    (h3 : (⟨2, ![8, 16]⟩ : Shape).ShapeCasts ⟨1, ![128]⟩)
    (h4 : (⟨1, ![128]⟩ : Shape).ShapeCasts ⟨2, ![1, 128]⟩)
    (z : Fin 1) (d : Fin 128) (i : Fin 16) (hi : i.val = d.val % 16) :
    shapeCast ⟨2, ![1, 128]⟩ (shapeCast ⟨1, ![128]⟩ (broadcastInDim ⟨2, ![8, 16]⟩ ![0, 1] h2 (shapeCast ⟨2, ![1, 16]⟩ b h1)) h3) h4
        (ix2 z d) = b (ix1 i) := by
  refine (shapeCast_apply _ h4 (ix2 z d) (ix1 d) (by
    rw [Shape.rowMajor_val_one, Shape.rowMajor_val_two]
    show d.val = z.val * 128 + d.val
    have := z.isLt; omega)).trans ?_
  refine (shapeCast_apply _ h3 (ix1 d) (ix2 (⟨d.val / 16, by have := d.isLt; omega⟩ : Fin 8) i) (by
    rw [Shape.rowMajor_val_one, Shape.rowMajor_val_two]
    show d.val / 16 * 16 + i.val = d.val
    omega)).trans ?_
  refine (broadcastInDim_apply _ h2 _ (ix2 (⟨d.val / 16, by have := d.isLt; omega⟩ : Fin 8) i) (ix2 (0 : Fin 1) i) fun ax => by
    match ax with
    | ⟨0, _⟩ => rfl
    | ⟨1, _⟩ => rfl).trans ?_
  exact shapeCast_apply _ h1 (ix2 (0 : Fin 1) i) (ix1 i) (by
    rw [Shape.rowMajor_val_one, Shape.rowMajor_val_two]
    show i.val = 0 * 16 + i.val
    omega)

/-- A single number repeated as one row of 8. -/
theorem tile8_one_apply (b : (⟨1, ![1]⟩ : Shape).Idx → α)
    (h1 : (⟨1, ![1]⟩ : Shape).ShapeCasts ⟨2, ![1, 1]⟩)
    (h2 : (⟨2, ![1, 1]⟩ : Shape).BroadcastsInDim ⟨2, ![8, 1]⟩ ![0, 1])
    (h3 : (⟨2, ![8, 1]⟩ : Shape).ShapeCasts ⟨1, ![8]⟩)
    (h4 : (⟨1, ![8]⟩ : Shape).ShapeCasts ⟨2, ![1, 8]⟩)
    (z : Fin 1) (r : Fin 8) :
    shapeCast ⟨2, ![1, 8]⟩ (shapeCast ⟨1, ![8]⟩ (broadcastInDim ⟨2, ![8, 1]⟩ ![0, 1] h2 (shapeCast ⟨2, ![1, 1]⟩ b h1)) h3) h4
        (ix2 z r) = b (ix1 (0 : Fin 1)) := by
  refine (shapeCast_apply _ h4 (ix2 z r) (ix1 r) (by
    rw [Shape.rowMajor_val_one, Shape.rowMajor_val_two]
    show r.val = z.val * 8 + r.val
    have := z.isLt; omega)).trans ?_
  refine (shapeCast_apply _ h3 (ix1 r) (ix2 r (0 : Fin 1)) (by
    rw [Shape.rowMajor_val_one, Shape.rowMajor_val_two]
    show r.val * 1 + 0 = r.val
    omega)).trans ?_
  refine (broadcastInDim_apply _ h2 _ (ix2 r (0 : Fin 1)) (ix2 (0 : Fin 1) (0 : Fin 1)) fun ax => by
    match ax with
    | ⟨0, _⟩ => rfl
    | ⟨1, _⟩ => rfl).trans ?_
  exact shapeCast_apply _ h1 (ix2 (0 : Fin 1) (0 : Fin 1)) (ix1 (0 : Fin 1)) (by
    rw [Shape.rowMajor_val_one, Shape.rowMajor_val_two]
    show 0 = 0 * 1 + 0
    omega)

/-- The 8 × 8 identity pattern as a comparison of the row number with the column number, turned into a number:
    `1` on the diagonal and `0` off it. -/
theorem eye8_apply (h0 : (⟨0, ![]⟩ : Shape).BroadcastsInDim ⟨2, ![8, 8]⟩ ![]) (a b : Fin 8) :
    uitofp (F := Ideal) .f32
        (cmpi .eq (addi (iotaInDim ⟨2, ![8, 8]⟩ 32 0) (broadcastInDim ⟨2, ![8, 8]⟩ ![] h0 (constantI ⟨0, ![]⟩ 32 0#32)))
          (iotaInDim ⟨2, ![8, 8]⟩ 32 1)) (ix2 a b)
      = if a = b then (1 : EReal) else 0 := by
  have hw : cmpi .eq (addi (iotaInDim ⟨2, ![8, 8]⟩ 32 0) (broadcastInDim ⟨2, ![8, 8]⟩ ![] h0 (constantI ⟨0, ![]⟩ 32 0#32)))
      (iotaInDim ⟨2, ![8, 8]⟩ 32 1) (ix2 a b) = if a = b then 1#1 else 0#1 := by
    show IntOp.cmpi .eq (IntOp.addi (BitVec.ofNat 32 a.val) 0#32) (BitVec.ofNat 32 b.val) = _
    revert a b; decide
  show (((cmpi .eq (addi (iotaInDim ⟨2, ![8, 8]⟩ 32 0) (broadcastInDim ⟨2, ![8, 8]⟩ ![] h0 (constantI ⟨0, ![]⟩ 32 0#32)))
      (iotaInDim ⟨2, ![8, 8]⟩ 32 1) (ix2 a b)).toNat : ℝ) : EReal) = _
  rw [hw]
  by_cases hab : a = b
  · rw [if_pos hab, if_pos hab]; simp
  · rw [if_neg hab, if_neg hab]; simp

end Cert.PackRead
-- ==== Proof.KHostRead.lean ====
/-
  The small arrays the host prepares for the matrix products, read entry by entry.

  Before each matrix product the program builds, from a 16 × 16 weight array `A`, the 128 × 128 array that is the
  Kronecker product of the 8 × 8 identity pattern with `A`: it broadcasts the pattern to `[8,1,8,1]` and then
  `[8,16,8,16]`, broadcasts `A` to `[1,16,1,16]` and then `[8,16,8,16]`, multiplies the two entry by entry and
  flattens the outcome to `[128,128]`.  Entry `(k, q)` of the result is therefore `A (k % 16, q % 16)` when `k` and
  `q` lie in the same block of sixteen (`k / 16 = q / 16`) and `0` otherwise: it depends on one entry of `A` only.

  Before each bias addition it repeats a vector of 16 entries eight times as one row of 128 (entry `d` of the row is
  entry `d % 16` of the vector), and before the last step it repeats a single number as one row of 8.

  Each statement below reads one of these arrays, as the program's buffers hold it when the next region is entered,
  at an index given by its coordinates, in terms of the buffer the stretch of host operations started from.
  All values are extended reals and every operation is exact.
-/
import proofs.«119417_j62199716380859_2_alg».proof.Proof.Gen.KernelIdeal.Frame
import Idealize.ShloMosaic.PureOps.Ideal
import Idealize.ShloMosaic.Lib.ValueIdx
import Idealize.ShloMosaic.Lib.Pipeline.Value
import proofs.«119417_j62199716380859_2_alg».proof.Proof.LibPackRead

noncomputable section

open Idealize.ShloMosaic Idealize.ShloMosaic.TcCoe Idealize.SL.Sem
open Idealize.ShloMosaic.StableHlo
open Idealize.ShloMosaic.ValueIdx

namespace Cert.KernelIdeal.HostRead

open Cert.KernelIdeal Cert.KernelIdeal.Gen

variable (m : (ℓ : Loc nD τ sig) → Buf (Elt Ideal) ℓ) (ρ : Dev nD → PrngReg)

/-- The 8 × 8 identity pattern, as the program writes it: the row number compared with the column number. -/
abbrev eye : S8x8.Idx → EReal :=
  uitofp (F := Ideal) .f32
    (cmpi .eq (addi (iotaInDim S8x8 32 0) (broadcastInDim S8x8 ![] bcast_S_S8x8 (constantI S_ 32 0#32))) (iotaInDim S8x8 32 1))

/-- The Kronecker product of the identity pattern with a 16 × 16 array, as the program writes it. -/
abbrev kronTerm (A : S16x16.Idx → EReal) : S128x128.Idx → EReal :=
  shapeCast S128x128
    (mulf (F := Ideal) (φ := .f32)
      (broadcastInDim S8x16x8x16 ![0, 1, 2, 3] bcast_S8x1x8x1_S8x16x8x16_0_1_2_3
        (broadcastInDim S8x1x8x1 ![0, 2] bcast_S8x8_S8x1x8x1_0_2 eye))
      (broadcastInDim S8x16x8x16 ![0, 1, 2, 3] bcast_S1x16x1x16_S8x16x8x16_0_1_2_3
        (broadcastInDim S1x16x1x16 ![1, 3] bcast_S16x16_S1x16x1x16_1_3 A)))
    shapeCasts_S8x16x8x16_S128x128

/-- A vector of 16 entries repeated eight times as one row of 128, as the program writes it. -/
abbrev tileTerm (B : S16.Idx → EReal) : S1x128.Idx → EReal :=
  shapeCast S1x128 (shapeCast S128 (broadcastInDim S8x16 ![0, 1] bcast_S1x16_S8x16_0_1 (shapeCast S1x16 B shapeCasts_S16_S1x16))
    shapeCasts_S8x16_S128) shapeCasts_S128_S1x128

/-- A single number repeated as one row of 8, as the program writes it. -/
abbrev tileOneTerm (B : S1.Idx → EReal) : S1x8.Idx → EReal :=
  shapeCast S1x8 (shapeCast S8 (broadcastInDim S8x1 ![0, 1] bcast_S1x1_S8x1_0_1 (shapeCast S1x1 B shapeCasts_S1_S1x1))
    shapeCasts_S8x1_S8) shapeCasts_S8_S1x8

/-- Entry `(k, q)` of the Kronecker product: the array's entry `(k % 16, q % 16)` inside the diagonal blocks, zero
    outside them. -/
theorem kronTerm_apply (A : S16x16.Idx → EReal) (k q : Fin 128) :
    kronTerm A (ix2 k q)
      = (if k.val / 16 = q.val / 16 then (1 : EReal) else 0)
        * A (ix2 (⟨k.val % 16, Nat.mod_lt _ (by decide)⟩ : Fin 16) (⟨q.val % 16, Nat.mod_lt _ (by decide)⟩ : Fin 16)) := by
  have hk := k.isLt
  have hq := q.isLt
  refine (Cert.PackRead.kron_apply eye A bcast_S8x8_S8x1x8x1_0_2 bcast_S16x16_S1x16x1x16_1_3
    bcast_S8x1x8x1_S8x16x8x16_0_1_2_3 bcast_S1x16x1x16_S8x16x8x16_0_1_2_3 shapeCasts_S8x16x8x16_S128x128 k q
    (⟨k.val / 16, by omega⟩ : Fin 8) (⟨q.val / 16, by omega⟩ : Fin 8)
    (⟨k.val % 16, Nat.mod_lt _ (by decide)⟩ : Fin 16) (⟨q.val % 16, Nat.mod_lt _ (by decide)⟩ : Fin 16) rfl rfl rfl rfl).trans ?_
  refine congrArg (· * A _) ?_
  refine (Cert.PackRead.eye8_apply bcast_S_S8x8 _ _).trans ?_
  exact if_congr Fin.ext_iff rfl rfl

/-- Entry `d` of the repeated row is entry `d % 16` of the vector. -/
theorem tileTerm_apply (B : S16.Idx → EReal) (z : Fin 1) (d : Fin 128) :
    tileTerm B (ix2 z d) = B (ix1 (⟨d.val % 16, Nat.mod_lt _ (by decide)⟩ : Fin 16)) :=
  Cert.PackRead.tile8_apply B shapeCasts_S16_S1x16 bcast_S1x16_S8x16_0_1 shapeCasts_S8x16_S128 shapeCasts_S128_S1x128 z d
    (⟨d.val % 16, Nat.mod_lt _ (by decide)⟩ : Fin 16) rfl

/-- Every entry of the row of 8 is the one number. -/
theorem tileOneTerm_apply (B : S1.Idx → EReal) (z : Fin 1) (r : Fin 8) :
    tileOneTerm B (ix2 z r) = B (ix1 (0 : Fin 1)) :=
  Cert.PackRead.tile8_one_apply B shapeCasts_S1_S1x1 bcast_S1x1_S8x1_0_1 shapeCasts_S8x1_S8 shapeCasts_S8_S1x8 z r

/-! ## What the buffers hold when each region is entered -/

/-- The right operand of the first product is the Kronecker product built from the launch contents of the first
    weight array. -/
theorem kron1_term (c : Dev nD) :
    (W5 (F := Ideal) m ρ c (Proc.devRef .tc main_v43) : S128x128.Idx → EReal)
      = kronTerm (m ((c : Thread nD τ).loc main_arg4)) := by
  dsimp only [W5, W4, W3, W2, W1]
  after_results_simp
  rfl

/-- The right operand of the second product is the Kronecker product built from the second weight array as the
    first region left it. -/
theorem kron2_term (c : Dev nD) :
    (W9 (F := Ideal) m ρ c (Proc.devRef .tc main_v70) : S128x128.Idx → EReal)
      = kronTerm (W6 (F := Ideal) m ρ c (Proc.devRef .tc main_arg6)) := by
  dsimp only [W9, W8, W7]
  after_results_simp
  rfl

/-- The bias row of the second region is the first bias vector, as the first region left it, repeated. -/
theorem tile1_term (c : Dev nD) :
    (W9 (F := Ideal) m ρ c (Proc.devRef .tc main_v63) : S1x128.Idx → EReal)
      = tileTerm (W6 (F := Ideal) m ρ c (Proc.devRef .tc main_arg5)) := by
  dsimp only [W9, W8, W7]
  after_results_simp
  rfl

/-- The bias row of the third region is the second bias vector, as the second region left it, repeated. -/
theorem tile2_term (c : Dev nD) :
    (W11 (F := Ideal) m ρ c (Proc.devRef .tc main_v90) : S1x128.Idx → EReal)
      = tileTerm (W10 (F := Ideal) m ρ c (Proc.devRef .tc main_arg7)) := by
  dsimp only [W11]
  after_results_simp
  rfl

/-- The bias row of the fourth region is the last bias number, as the third region left it, repeated. -/
theorem tileb_term (c : Dev nD) :
    (W13 (F := Ideal) m ρ c (Proc.devRef .tc main_v137) : S1x8.Idx → EReal)
      = tileOneTerm (W12 (F := Ideal) m ρ c (Proc.devRef .tc main_arg9)) := by
  dsimp only [W13]
  after_results_simp
  rfl

theorem kron1_apply (c : Dev nD) (k q : Fin 128) (A4 : S16x16.Idx → EReal)
    (hA : A4 = m ((c : Thread nD τ).loc main_arg4)) :
    (W5 (F := Ideal) m ρ c (Proc.devRef .tc main_v43) : S128x128.Idx → EReal) (ix2 k q)
      = (if k.val / 16 = q.val / 16 then (1 : EReal) else 0)
        * A4 (ix2 (⟨k.val % 16, Nat.mod_lt _ (by decide)⟩ : Fin 16) (⟨q.val % 16, Nat.mod_lt _ (by decide)⟩ : Fin 16)) := by
  subst hA
  exact (congrFun (kron1_term m ρ c) (ix2 k q)).trans (kronTerm_apply _ k q)

theorem kron2_apply (c : Dev nD) (k q : Fin 128) (A6 : S16x16.Idx → EReal)
    (hA : A6 = W6 (F := Ideal) m ρ c (Proc.devRef .tc main_arg6)) :
    (W9 (F := Ideal) m ρ c (Proc.devRef .tc main_v70) : S128x128.Idx → EReal) (ix2 k q)
      = (if k.val / 16 = q.val / 16 then (1 : EReal) else 0)
        * A6 (ix2 (⟨k.val % 16, Nat.mod_lt _ (by decide)⟩ : Fin 16) (⟨q.val % 16, Nat.mod_lt _ (by decide)⟩ : Fin 16)) := by
  subst hA
  exact (congrFun (kron2_term m ρ c) (ix2 k q)).trans (kronTerm_apply _ k q)

theorem tile1_apply (c : Dev nD) (z : Fin 1) (d : Fin 128) (B5 : S16.Idx → EReal)
    (hB : B5 = W6 (F := Ideal) m ρ c (Proc.devRef .tc main_arg5)) :
    (W9 (F := Ideal) m ρ c (Proc.devRef .tc main_v63) : S1x128.Idx → EReal) (ix2 z d)
      = B5 (ix1 (⟨d.val % 16, Nat.mod_lt _ (by decide)⟩ : Fin 16)) := by
  subst hB
  exact (congrFun (tile1_term m ρ c) (ix2 z d)).trans (tileTerm_apply _ z d)

theorem tile2_apply (c : Dev nD) (z : Fin 1) (d : Fin 128) (B7 : S16.Idx → EReal)
    (hB : B7 = W10 (F := Ideal) m ρ c (Proc.devRef .tc main_arg7)) :
    (W11 (F := Ideal) m ρ c (Proc.devRef .tc main_v90) : S1x128.Idx → EReal) (ix2 z d)
      = B7 (ix1 (⟨d.val % 16, Nat.mod_lt _ (by decide)⟩ : Fin 16)) := by
  subst hB
  exact (congrFun (tile2_term m ρ c) (ix2 z d)).trans (tileTerm_apply _ z d)

theorem tileb_apply (c : Dev nD) (z : Fin 1) (r : Fin 8) (B9 : S1.Idx → EReal)
    (hB : B9 = W12 (F := Ideal) m ρ c (Proc.devRef .tc main_arg9)) :
    (W13 (F := Ideal) m ρ c (Proc.devRef .tc main_v137) : S1x8.Idx → EReal) (ix2 z r) = B9 (ix1 (0 : Fin 1)) := by
  subst hB
  exact (congrFun (tileb_term m ρ c) (ix2 z r)).trans (tileOneTerm_apply _ z r)

end Cert.KernelIdeal.HostRead
end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.Region0.lean ====
/-
  The first matrix product of the program, read entry by entry.

  The region multiplies a `[125000,128]` array `A` by a `[128,128]` array `B` in 25 steps.  At step `t` it holds
  block `t` of `A`, which is rows `5000·t … 5000·t + 4999` of `A` (all 128 columns), together with the whole of `B`,
  forms their product from the zero accumulator, and writes it as block `t` (the same rows) of the output array.
  An element `(p', q)` of block `t` sits in its array at row `5000·t + p'`, column `q`; the blocks of the 25 steps tile
  the output, row `r` lying in the block of step `r / 5000`.

  Hence entry `(p, q)` of the output depends on row `p` of `A` and column `q` of `B` only:
      out (p, q) = ∑ d < 128, A (p, d) · B (d, q).
  All values are extended reals and every operation is exact.
-/
import proofs.«119417_j62199716380859_2_alg».proof.Proof.Gen.KernelIdeal.Frame
import proofs.«119417_j62199716380859_2_alg».proof.Proof.LibMatmulRead
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The product of a `[125000,128]` array with a `[128,128]` array, entry by entry. -/
def G (A : S125000x128.Idx → EReal) (B : S128x128.Idx → EReal) : S125000x128.Idx → EReal :=
  fun i => ∑ d : Fin 128, A (ix2 (n0 := 125000) (n1 := 128) (i 0) d) * B (ix2 (n0 := 128) (n1 := 128) d (i 1))

/-- The product at the entry with coordinates `(p, q)`. -/
theorem G_apply (A : S125000x128.Idx → EReal) (B : S128x128.Idx → EReal) (p : Fin 125000) (q : Fin 128) :
    G A B (ix2 p q) = ∑ d : Fin 128, A (ix2 p d) * B (ix2 d q) := rfl

/-- What one step computes from its two blocks, at `(p, q)`: the inner product of row `p` of the first block with
    column `q` of the second (the accumulator starts at zero). -/
theorem pay_apply (x0 : Vec Ideal S5000x128 .f32) (x1 : Vec Ideal S128x128 .f32) (p : Fin 5000) (q : Fin 128) :
    Gen.k0_pay1 (F := Ideal) x0 x1 (ix2 p q) = ∑ d : Fin 128, x0 (ix2 p d) * x1 (ix2 d q) := by
  unfold Gen.k0_pay1
  rw [shapeCast_self, shapeCast_self]
  exact matmul_ix2_apply dot_S5000x128_S128x128_S5000x128_1_0_0_1_n_n rfl rfl rfl rfl rfl rfl none x0 x1 p q

/-- If row `p` of the first block is row `r` of `A` and the second block is `B`, the step's value at `(p, q)` is the
    product's entry `(r, q)`. -/
theorem pay_eq_G (A : S125000x128.Idx → EReal) (B : S128x128.Idx → EReal)
    (x0 : Vec Ideal S5000x128 .f32) (x1 : Vec Ideal S128x128 .f32) (p : Fin 5000) (q : Fin 128) (r : Fin 125000)
    (h0 : ∀ d : Fin 128, x0 (ix2 p d) = A (ix2 r d))
    (h1 : ∀ d : Fin 128, x1 (ix2 d q) = B (ix2 d q)) :
    Gen.k0_pay1 (F := Ideal) x0 x1 (ix2 p q) = G A B (ix2 r q) := by
  rw [pay_apply, G_apply]
  exact Finset.sum_congr rfl fun d _ => by rw [h0 d, h1 d]

/-- The block indices at step `t`: the row-tiled windows are at block `(t, 0)`, the whole-array window at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at step `t` is rows `5000·t …` of the first array. -/
theorem iblk_0_apply (c : Dev nD) (t : Fin cfg0.N) (x : S5000x128.Idx) (k : S125000x128.Idx)
    (hk0 : (k 0).val = 5000 * t.val + (x 0).val) (hk1 : (k 1).val = (x 1).val) :
    (Gen.iblk0 V c 0 t : Vec Ideal S5000x128 .f32) x = (V c main_v44 : S125000x128.Idx → EReal) k := by
  obtain ⟨e0, e1, -⟩ := idx_facts t
  unfold Gen.iblk0
  rw [View.read_apply]
  show V c main_v44 _ = V c main_v44 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The second window's block at any step is the whole second array. -/
theorem iblk_1_apply (c : Dev nD) (t : Fin cfg0.N) (x : S128x128.Idx) :
    (Gen.iblk0 V c 1 t : Vec Ideal S128x128 .f32) x = (V c main_v43 : S128x128.Idx → EReal) x := by
  obtain ⟨-, -, e0, e1, -⟩ := idx_facts t
  unfold Gen.iblk0
  rw [View.read_apply]
  show V c main_v43 _ = V c main_v43 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- What point `t` writes back is block `t` of the product of the two arrays as the region finds them. -/
theorem flushed_eq (c : Dev nD) (t : Fin cfg0.N) :
    (Gen.dat0 (F := Ideal) V c).flushed 2 t
      = ((cfg0.win 2).blk t).view.read (Elt Ideal) (G (V c main_v44) (V c main_v43)) := by
  show (cfg0.win 2).cut (grid0.coords t) ((Gen.dat0 (F := Ideal) V c).after 2 t) = _
  rw [Gen.after0_2]
  unfold Gen.out0_2
  rw [View.canon_unit_zero hz]
  simp only [View.ld_unit_zero (S := S5000x128) hz, View.ld_unit_zero (S := S128x128) hz]
  obtain ⟨-, -, -, -, e0, e1⟩ := idx_facts t
  funext j
  obtain ⟨p, q, rfl⟩ : ∃ (p : Fin 5000) (q : Fin 128), j = ix2 p q := ⟨j 0, j 1, eq_ix2 j⟩
  have hr : 5000 * t.val + p.val < 125000 := by
    have : t.val < 25 := lt_of_lt_of_eq t.isLt N_0
    omega
  have hemb : ((cfg0.win 2).blk t).view.emb (ix2 p q) = ix2 (n0 := 125000) (n1 := 128) ⟨5000 * t.val + p.val, hr⟩ q := by
    funext a
    apply Fin.ext
    match a with
    | ⟨0, _⟩ => show win0_2.index t 0 * 5000 + 1 * p.val = 5000 * t.val + p.val; rw [e0]; omega
    | ⟨1, _⟩ => show win0_2.index t 1 * 128 + 1 * q.val = q.val; rw [e1]; omega
  show Gen.k0_pay1 (F := Ideal) (Gen.iblk0 V c 0 t) (Gen.iblk0 V c 1 t) (ix2 p q)
      = G (V c main_v44) (V c main_v43) (((cfg0.win 2).blk t).view.emb (ix2 p q))
  rw [hemb]
  exact pay_eq_G (V c main_v44) (V c main_v43) (Gen.iblk0 V c 0 t) (Gen.iblk0 V c 1 t) p q ⟨5000 * t.val + p.val, hr⟩
    (fun d => iblk_0_apply V c t (ix2 p d) (ix2 ⟨5000 * t.val + p.val, hr⟩ d) rfl rfl)
    (fun d => iblk_1_apply V c t (ix2 d q))

/-- An index of the array is in point `t`'s block iff each coordinate is in the block's range on its axis. -/
theorem mem_blk (t : Fin cfg0.N) (i : S125000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v45).slice (win0_2.rect t)).set ↔ _
  rw [View.set_slice_whole, Rect.mem_set_unit]
  exact Iff.rfl

/-- Every index of the array is in the block of the point its row falls in. -/
theorem cover (i : S125000x128.Idx) :
    ∃ t : Fin cfg0.N, (cfg0.win 2).flush t = true ∧ i ∈ ((cfg0.win 2).blk t).view.set := by
  have hi0 : (i 0).val < 125000 := (i 0).isLt
  have hi1 : (i 1).val < 128 := (i 1).isLt
  have hN : cfg0.N = 25 := N_0
  refine ⟨⟨(i 0).val / 5000, by rw [hN]; omega⟩, Gen.flush0_2 _, ?_⟩
  obtain ⟨-, -, -, -, e0, e1⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e0]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e1]; omega

/-- The output array after the region: the product of the two arrays the region found. -/
theorem final (c : Dev nD) :
    (Gen.dat0 (F := Ideal) V c).arrAt 2 cfg0.N = G (V c main_v44) (V c main_v43) :=
  (Gen.dat0 (F := Ideal) V c).arrAt_eq_of_cover 2 (G (V c main_v44) (V c main_v43)) (fun t _ => flushed_eq V c t) cover

/-- Entry `(p, q)` of the output array is the inner product of row `p` of the first array with column `q` of the
    second. -/
theorem out_apply (c : Dev nD) (p : Fin 125000) (q : Fin 128)
    (A : S125000x128.Idx → EReal) (B : S128x128.Idx → EReal) (hA : A = V c main_v44) (hB : B = V c main_v43) :
    ((Gen.dat0 (F := Ideal) V c).arrAt 2 cfg0.N : S125000x128.Idx → EReal) (ix2 p q)
      = (∑ d : Fin 128, A (ix2 p d) * B (ix2 d q) : EReal) := by
  subst hA hB
  exact (congrFun (final V c) (ix2 p q)).trans (G_apply _ _ p q)

end Cert.KernelIdeal.Region0
end
-- ==== Proof.Region1.lean ====
/-
  The second matrix product of the program, with its bias and clamp, read entry by entry.

  The region takes a `[125000,128]` array `A`, a `[1,128]` row `b` and a `[128,128]` array `B`, and works in 25 steps.
  At step `t` it holds block `t` of `A`, which is rows `5000·t … 5000·t + 4999` of `A` (all 128 columns), together with
  the whole of `b` and the whole of `B`; it adds `b` to every row of the block, replaces negative entries by zero
  (the maximum with zero), multiplies the outcome by `B` from the zero accumulator, and writes the product as block
  `t` (the same rows) of the output array.  An element `(p', q)` of block `t` sits in its array at row `5000·t + p'`,
  column `q`; the blocks of the 25 steps tile the output, row `r` lying in the block of step `r / 5000`.

  Hence entry `(p, q)` of the output depends on row `p` of `A`, on `b`, and on column `q` of `B` only:
      out (p, q) = ∑ d < 128, max (A (p, d) + b (0, d)) 0 · B (d, q).
  All values are extended reals and every operation is exact.
-/
import proofs.«119417_j62199716380859_2_alg».proof.Proof.Gen.KernelIdeal.Frame
import proofs.«119417_j62199716380859_2_alg».proof.Proof.LibMatmulRead
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- A `[125000,128]` array with a `[1,128]` row added to each of its rows, negative entries replaced by zero, times a
    `[128,128]` array, entry by entry. -/
def G (A : S125000x128.Idx → EReal) (b : S1x128.Idx → EReal) (B : S128x128.Idx → EReal) : S125000x128.Idx → EReal :=
  fun i => ∑ d : Fin 128, max (A (ix2 (n0 := 125000) (n1 := 128) (i 0) d) + b (ix2 (n0 := 1) (n1 := 128) 0 d)) 0
    * B (ix2 (n0 := 128) (n1 := 128) d (i 1))

/-- The result at the entry with coordinates `(p, q)`. -/
theorem G_apply (A : S125000x128.Idx → EReal) (b : S1x128.Idx → EReal) (B : S128x128.Idx → EReal) (p : Fin 125000) (q : Fin 128) :
    G A b B (ix2 p q) = ∑ d : Fin 128, max (A (ix2 p d) + b (ix2 0 d)) 0 * B (ix2 d q) := rfl

/-- The row broadcast along the rows, read at `(p, d)`, is the row's entry `d`. -/
theorem bcast_row_apply (x1 : Vec Ideal S1x128 .f32) (h : S1x128.Broadcasts S5000x128) (p : Fin 5000) (d : Fin 128) :
    broadcastTo S5000x128 x1 h (ix2 p d) = x1 (ix2 0 d) :=
  broadcastTo_apply x1 h (ix2 p d) (ix2 0 d) fun a => by
    match a with
    | ⟨0, _⟩ => rfl
    | ⟨1, _⟩ => rfl

/-- The left operand of the product, read at `(p, d)`. -/
theorem lhs_apply (x0 : Vec Ideal S5000x128 .f32) (x1 : Vec Ideal S1x128 .f32) (h : S1x128.Broadcasts S5000x128)
    (p : Fin 5000) (d : Fin 128) :
    maximumf (addf x0 (broadcastTo S5000x128 x1 h)) (broadcast S5000x128 (Scalar.ofBits (F := Ideal) .f32 0x00000000#32)) (ix2 p d)
      = max (x0 (ix2 p d) + x1 (ix2 0 d)) 0 := by
  rw [maximumf_apply, addf_apply, broadcast_apply, bcast_row_apply]
  exact congrArg (max _) Ideal.ofBits_zero_f32

/-- What one step computes from its three blocks, at `(p, q)` (the accumulator starts at zero). -/
theorem pay_apply (x0 : Vec Ideal S5000x128 .f32) (x1 : Vec Ideal S1x128 .f32) (x2 : Vec Ideal S128x128 .f32)
    (p : Fin 5000) (q : Fin 128) :
    Gen.k1_pay1 (F := Ideal) x0 x1 x2 (ix2 p q)
      = ∑ d : Fin 128, max (x0 (ix2 p d) + x1 (ix2 0 d)) 0 * x2 (ix2 d q) := by
  unfold Gen.k1_pay1
  rw [shapeCast_self, shapeCast_self, shapeCast_self]
  refine (matmul_ix2_apply dot_S5000x128_S128x128_S5000x128_1_0_0_1_n_n rfl rfl rfl rfl rfl rfl none _ x2 p q).trans ?_
  exact Finset.sum_congr rfl fun d _ => congrArg (· * x2 (ix2 d q)) (lhs_apply x0 x1 _ p d)

/-- If row `p` of the first block is row `r` of `A`, the second block is the row `b` and the third block is `B`, the
    step's value at `(p, q)` is the result's entry `(r, q)`. -/
theorem pay_eq_G (A : S125000x128.Idx → EReal) (b : S1x128.Idx → EReal) (B : S128x128.Idx → EReal)
    (x0 : Vec Ideal S5000x128 .f32) (x1 : Vec Ideal S1x128 .f32) (x2 : Vec Ideal S128x128 .f32)
    (p : Fin 5000) (q : Fin 128) (r : Fin 125000)
    (h0 : ∀ d : Fin 128, x0 (ix2 p d) = A (ix2 r d))
    (h1 : ∀ d : Fin 128, x1 (ix2 0 d) = b (ix2 0 d))
    (h2 : ∀ d : Fin 128, x2 (ix2 d q) = B (ix2 d q)) :
    Gen.k1_pay1 (F := Ideal) x0 x1 x2 (ix2 p q) = G A b B (ix2 r q) := by
  rw [pay_apply, G_apply]
  exact Finset.sum_congr rfl fun d _ => by rw [h0 d, h1 d, h2 d]

/-- The block indices at step `t`: the row-tiled windows are at block `(t, 0)`, the whole-array windows at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at step `t` is rows `5000·t …` of the first array. -/
theorem iblk_0_apply (c : Dev nD) (t : Fin cfg1.N) (x : S5000x128.Idx) (k : S125000x128.Idx)
    (hk0 : (k 0).val = 5000 * t.val + (x 0).val) (hk1 : (k 1).val = (x 1).val) :
    (Gen.iblk1 V c 0 t : Vec Ideal S5000x128 .f32) x = (V c main_v71 : S125000x128.Idx → EReal) k := by
  obtain ⟨e0, e1, -⟩ := idx_facts t
  unfold Gen.iblk1
  rw [View.read_apply]
  show V c main_v71 _ = V c main_v71 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The second window's block at any step is the whole row. -/
theorem iblk_1_apply (c : Dev nD) (t : Fin cfg1.N) (x : S1x128.Idx) :
    (Gen.iblk1 V c 1 t : Vec Ideal S1x128 .f32) x = (V c main_v63 : S1x128.Idx → EReal) x := by
  obtain ⟨-, -, e0, e1, -⟩ := idx_facts t
  unfold Gen.iblk1
  rw [View.read_apply]
  show V c main_v63 _ = V c main_v63 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The third window's block at any step is the whole `[128,128]` array. -/
theorem iblk_2_apply (c : Dev nD) (t : Fin cfg1.N) (x : S128x128.Idx) :
    (Gen.iblk1 V c 2 t : Vec Ideal S128x128 .f32) x = (V c main_v70 : S128x128.Idx → EReal) x := by
  obtain ⟨-, -, -, -, e0, e1, -⟩ := idx_facts t
  unfold Gen.iblk1
  rw [View.read_apply]
  show V c main_v70 _ = V c main_v70 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- What step `t` writes back is block `t` of the result computed from the three arrays as the region finds them. -/
theorem flushed_eq (c : Dev nD) (t : Fin cfg1.N) :
    (Gen.dat1 (F := Ideal) V c).flushed 3 t
      = ((cfg1.win 3).blk t).view.read (Elt Ideal) (G (V c main_v71) (V c main_v63) (V c main_v70)) := by
  show (cfg1.win 3).cut (grid1.coords t) ((Gen.dat1 (F := Ideal) V c).after 3 t) = _
  rw [Gen.after1_3]
  unfold Gen.out1_3
  rw [View.canon_unit_zero hz]
  simp only [View.ld_unit_zero (S := S5000x128) hz, View.ld_unit_zero (S := S1x128) hz, View.ld_unit_zero (S := S128x128) hz]
  obtain ⟨-, -, -, -, -, -, e0, e1⟩ := idx_facts t
  funext j
  obtain ⟨p, q, rfl⟩ : ∃ (p : Fin 5000) (q : Fin 128), j = ix2 p q := ⟨j 0, j 1, eq_ix2 j⟩
  have hr : 5000 * t.val + p.val < 125000 := by
    have : t.val < 25 := lt_of_lt_of_eq t.isLt N_1
    omega
  have hemb : ((cfg1.win 3).blk t).view.emb (ix2 p q) = ix2 (n0 := 125000) (n1 := 128) ⟨5000 * t.val + p.val, hr⟩ q := by
    funext a
    apply Fin.ext
    match a with
    | ⟨0, _⟩ => show win1_3.index t 0 * 5000 + 1 * p.val = 5000 * t.val + p.val; rw [e0]; omega
    | ⟨1, _⟩ => show win1_3.index t 1 * 128 + 1 * q.val = q.val; rw [e1]; omega
  show Gen.k1_pay1 (F := Ideal) (Gen.iblk1 V c 0 t) (Gen.iblk1 V c 1 t) (Gen.iblk1 V c 2 t) (ix2 p q)
      = G (V c main_v71) (V c main_v63) (V c main_v70) (((cfg1.win 3).blk t).view.emb (ix2 p q))
  rw [hemb]
  exact pay_eq_G (V c main_v71) (V c main_v63) (V c main_v70) (Gen.iblk1 V c 0 t) (Gen.iblk1 V c 1 t) (Gen.iblk1 V c 2 t)
    p q ⟨5000 * t.val + p.val, hr⟩
    (fun d => iblk_0_apply V c t (ix2 p d) (ix2 ⟨5000 * t.val + p.val, hr⟩ d) rfl rfl)
    (fun d => iblk_1_apply V c t (ix2 0 d))
    (fun d => iblk_2_apply V c t (ix2 d q))

/-- An index of the array is in step `t`'s block iff each coordinate is in the block's range on its axis. -/
theorem mem_blk (t : Fin cfg1.N) (i : S125000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v72).slice (win1_3.rect t)).set ↔ _
  rw [View.set_slice_whole, Rect.mem_set_unit]
  exact Iff.rfl

/-- Every index of the array is in the block of the step its row falls in. -/
theorem cover (i : S125000x128.Idx) :
    ∃ t : Fin cfg1.N, (cfg1.win 3).flush t = true ∧ i ∈ ((cfg1.win 3).blk t).view.set := by
  have hi0 : (i 0).val < 125000 := (i 0).isLt
  have hi1 : (i 1).val < 128 := (i 1).isLt
  have hN : cfg1.N = 25 := N_1
  refine ⟨⟨(i 0).val / 5000, by rw [hN]; omega⟩, Gen.flush1_3 _, ?_⟩
  obtain ⟨-, -, -, -, -, -, e0, e1⟩ := idx_facts ⟨(i 0).val / 5000, by rw [hN]; omega⟩
  rw [mem_blk]
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- The output array after the region: the result computed from the three arrays the region found. -/
theorem final (c : Dev nD) :
    (Gen.dat1 (F := Ideal) V c).arrAt 3 cfg1.N = G (V c main_v71) (V c main_v63) (V c main_v70) :=
  (Gen.dat1 (F := Ideal) V c).arrAt_eq_of_cover 3 (G (V c main_v71) (V c main_v63) (V c main_v70))
    (fun t _ => flushed_eq V c t) cover

/-- Entry `(p, q)` of the output array: row `p` of the first array plus the row, negative entries replaced by zero,
    in inner product with column `q` of the third array. -/
theorem out_apply (c : Dev nD) (p : Fin 125000) (q : Fin 128)
    (A : S125000x128.Idx → EReal) (b : S1x128.Idx → EReal) (B : S128x128.Idx → EReal)
    (hA : A = V c main_v71) (hb : b = V c main_v63) (hB : B = V c main_v70) :
    ((Gen.dat1 (F := Ideal) V c).arrAt 3 cfg1.N : S125000x128.Idx → EReal) (ix2 p q)
      = (∑ d : Fin 128, max (A (ix2 p d) + b (ix2 0 d)) 0 * B (ix2 d q) : EReal) := by
  subst hA hb hB
  exact (congrFun (final V c) (ix2 p q)).trans (G_apply _ _ _ p q)

end Cert.KernelIdeal.Region1
end
-- ==== Proof.Region2.lean ====
/-
  Region 2: a bias row added to every row of a matrix.

  The region reads a matrix `X` of 125000 rows and 128 columns and a bias `B` of one row and 128 columns, and
  writes a matrix of the shape of `X`. The rows are cut into 25 blocks of 5000: block `t` holds rows
  `5000 t … 5000 t + 4999` and all 128 columns, of `X` and of the result alike; the bias is read whole at every
  block. On a block the body adds to each row the bias row, so the entry of the result at row `r` and column `q`
  is `X(r, q) + B(0, q)`: it depends on the entry of `X` at the same place and on the bias entry of the same
  column, and on nothing else. Row `r` lies in block `r / 5000`, so the 25 blocks fill the result and every
  entry of it is written.

  Below: the body's value at an entry of a block (`block_entry`), the block index of each window at each of the
  25 points (`block_index`), what a point writes back as a block of one function of the two arrays
  (`written_block`), the rows each block holds (`mem_block`) and that the blocks fill the array (`rows_covered`),
  the result array (`result_array`) and its entries (`out_apply`).
-/
import proofs.«119417_j62199716380859_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region2

open Cert.KernelIdeal Cert.KernelIdeal.Gen

-- the contents of the buffers when the region is entered
variable (V : (c : Dev nD) → (b : Ref sig .tc) → Buf (Elt Ideal) ((c : Thread nD τ).loc b))

/-- The offsets of a whole-block access are zero on both axes. -/
theorem zero_offsets : (![0, 0] : Fin 2 → Nat) = fun _ => 0 := funext fun a => by fin_cases a <;> rfl

/-- The body on a block, at row `p` and column `q` of the block: the block's entry plus the bias entry of column
    `q` (the bias row is repeated down the 5000 rows). -/
theorem block_entry (x0 : Vec Ideal S5000x128 .f32) (x1 : Vec Ideal S1x128 .f32) (p : Fin 5000) (q : Fin 128) :
    k2_pay1 x0 x1 (ix2 p q) = x0 (ix2 p q) + x1 (ix2 0 q) := by
  unfold k2_pay1
  rw [shapeCast_self, shapeCast_self]
  refine (addf_apply _ _ _).trans ?_
  refine congrArg (x0 (ix2 p q) + ·) ?_
  refine broadcastTo_apply x1 _ (ix2 p q) (ix2 0 q) fun a => ?_
  match a with
  | ⟨0, _⟩ => rfl
  | ⟨1, _⟩ => rfl

/-- The matrix and the bias as the region finds them, as functions of a row and a column. -/
abbrev X (c : Dev nD) : S125000x128.Idx → EReal := V c main_v91
abbrev B (c : Dev nD) : S1x128.Idx → EReal := V c main_v90

/-- The result as one function of the two arrays: at row `r`, column `q`, the matrix entry plus the bias entry of
    column `q`. -/
abbrev G (a0 : S125000x128.Idx → EReal) (a1 : S1x128.Idx → EReal) : S125000x128.Idx → EReal :=
  fun i => a0 i + a1 (ix2 (0 : Fin 1) (i 1 : Fin 128))

/-- At point `t` the matrix's window and the result's window are on block `t` of the rows and block 0 of the
    columns; the bias's window is on its one block. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `G` of the two arrays: entry `(p, q)` of the block is computed
    from entry `(p, q)` of the matrix's block `t`, which is the matrix at row `5000 t + p`, and from the bias at
    column `q`. -/
theorem written_block (c : Dev nD) (t : Fin cfg2.N) :
    (dat2 (F := Ideal) V c).flushed 2 t = ((cfg2.win 2).blk t).view.read (Elt Ideal) (G (X V c) (B V c)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S1x128) zero_offsets]
  obtain ⟨e0, e1, e2, e3, e4, e5⟩ := block_index t
  funext j
  have key : ∀ y : S5000x128.Idx, k2_pay1 (iblk2 V c 0 t) (iblk2 V c 1 t) y
      = G (X V c) (B V c) (((cfg2.win 2).blk t).view.emb y) := by
    intro y
    obtain ⟨p, q, rfl⟩ : ∃ (p : Fin 5000) (q : Fin 128), y = ix2 p q := ⟨y 0, y 1, eq_ix2 y⟩
    refine (block_entry (iblk2 V c 0 t) (iblk2 V c 1 t) p q).trans ?_
    show X V c (((cfg2.win 0).blk t).view.emb (ix2 p q)) + B V c (((cfg2.win 1).blk t).view.emb (ix2 0 q))
      = X V c (((cfg2.win 2).blk t).view.emb (ix2 p q))
        + B V c (ix2 (0 : Fin 1) ((((cfg2.win 2).blk t).view.emb (ix2 p q)) 1))
    -- the matrix's block and the result's block sit at the same rows and columns
    have h0 : ((cfg2.win 0).blk t).view.emb (ix2 p q) = ((cfg2.win 2).blk t).view.emb (ix2 p q) := by
      funext a; apply Fin.ext
      match a with
      | ⟨0, _⟩ => show win2_0.index t (0 : Fin 2) * 5000 + 1 * p.val = win2_2.index t (0 : Fin 2) * 5000 + 1 * p.val; omega
      | ⟨1, _⟩ => show win2_0.index t (1 : Fin 2) * 128 + 1 * q.val = win2_2.index t (1 : Fin 2) * 128 + 1 * q.val; omega
    -- the bias's one block is the bias; its column is the result's column
    have h1 : ((cfg2.win 1).blk t).view.emb (ix2 0 q) = ix2 (0 : Fin 1) ((((cfg2.win 2).blk t).view.emb (ix2 p q)) 1) := by
      funext a; apply Fin.ext
      match a with
      | ⟨0, _⟩ => show win2_1.index t (0 : Fin 2) * 1 + 1 * 0 = 0; omega
      | ⟨1, _⟩ => show win2_1.index t (1 : Fin 2) * 128 + 1 * q.val = win2_2.index t (1 : Fin 2) * 128 + 1 * q.val; omega
    exact congrArg₂ (· + ·) (congrArg (X V c) h0) (congrArg (B V c) h1)
  exact key j

/-- An entry of the result is in point `t`'s block iff each of its coordinates is in the block's range on its axis. -/
theorem mem_block (t : Fin cfg2.N) (i : S125000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v92).slice (win2_2.rect t)).set ↔ _
  rw [View.set_slice_whole, Rect.mem_set_unit]
  exact Iff.rfl

/-- Every entry of the result is in the block of some point that writes back: row `r` is in block `r / 5000`. -/
theorem rows_covered (i : S125000x128.Idx) :
    ∃ t : Fin cfg2.N, (cfg2.win 2).flush t = true ∧ i ∈ ((cfg2.win 2).blk t).view.set := by
  have hi0 : (i 0).val < 125000 := (i 0).isLt
  have hi1 : (i 1).val < 128 := (i 1).isLt
  have hN : cfg2.N = 25 := N_2
  let t : Fin cfg2.N := ⟨(i 0).val / 5000, by rw [hN]; omega⟩
  obtain ⟨e0, e1, e2, e3, e4, e5⟩ := block_index t
  have e4' : win2_2.index t (0 : Fin 2) = (i 0).val / 5000 := e4
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the 25 points: `G` of the matrix and the bias as the region found them. -/
theorem result_array (c : Dev nD) : (dat2 (F := Ideal) V c).arrAt 2 cfg2.N = G (X V c) (B V c) :=
  (dat2 (F := Ideal) V c).arrAt_eq_of_cover 2 (G (X V c) (B V c)) (fun t _ => written_block V c t) rows_covered

/-- The result at row `p`, column `q`, with the two arrays at their literal index types. -/
theorem out_apply_typed (c : Dev nD) (p : Fin 125000) (q : Fin 128) :
    ((dat2 (F := Ideal) V c).arrAt 2 cfg2.N : S125000x128.Idx → EReal) (ix2 p q)
      = X V c (ix2 p q) + B V c (ix2 0 q) :=
  congrFun (result_array V c) (ix2 p q)

/-- The result at row `p`, column `q`: the matrix's entry there plus the bias's entry of column `q`. -/
theorem out_apply (c : Dev nD) (p : Fin 125000) (q : Fin 128) :
    (dat2 (F := Ideal) V c).arrAt 2 cfg2.N (ix2 p q)
      = @HAdd.hAdd EReal EReal EReal instHAdd (V c main_v91 (ix2 p q)) (V c main_v90 (ix2 0 q)) :=
  out_apply_typed V c p q

end Cert.KernelIdeal.Region2

end
-- ==== Proof.LibBlockSum.lean ====
/-
  A sum over 128 = 8 · 16 positions taken block by block (a general lemma file; nothing here mentions a particular program).

  A position `d < 128` lies in block `d / 16` at place `d % 16`. A sum over the 128 positions of a term that depends on
  the position only through its block and its place is the double sum over blocks and places; when the term vanishes
  outside one block, the sum is that block's sum over its 16 places. This is the whole content of a product with a
  block-diagonal matrix that repeats one 16-row matrix down its diagonal: of the 128 products in an entry of the
  result, the 112 that meet a zero of the matrix drop out. A sum over 32 = 16 + 16 positions splits in two likewise.
-/
import Mathlib.Algebra.BigOperators.Fin
import Mathlib.Logic.Equiv.Fin.Basic

namespace Cert.BlockSum

open Finset

/-- The block of a position among 128 = 8 · 16. -/
def hi (d : Fin 128) : Fin 8 := ⟨d.val / 16, by have := d.isLt; omega⟩

/-- The place of a position inside its block. -/
def lo (d : Fin 128) : Fin 16 := ⟨d.val % 16, Nat.mod_lt _ (by decide)⟩

theorem hi_val (d : Fin 128) : (hi d).val = d.val / 16 := rfl
theorem lo_val (d : Fin 128) : (lo d).val = d.val % 16 := rfl

/-- A sum over the 128 positions, of a term of the block and the place, is the sum over blocks of the sums over places. -/
theorem sum128_eq_sum_sum {M : Type*} [AddCommMonoid M] (f : Fin 8 → Fin 16 → M) :
    ∑ d : Fin 128, f (hi d) (lo d) = ∑ a : Fin 8, ∑ i : Fin 16, f a i := by
  rw [← Fintype.sum_prod_type']
  exact Fintype.sum_equiv (finProdFinEquiv (m := 8) (n := 16)).symm _ _ fun d => rfl

/-- When the term vanishes outside block `b`, only that block's sixteen terms are left. -/
theorem sum128_block {M : Type*} [AddCommMonoid M] (f : Fin 8 → Fin 16 → M) (b : Fin 8)
    (h0 : ∀ a i, a ≠ b → f a i = 0) :
    ∑ d : Fin 128, f (hi d) (lo d) = ∑ i : Fin 16, f b i := by
  rw [sum128_eq_sum_sum]
  exact Finset.sum_eq_single b (fun a _ hab => Finset.sum_eq_zero fun i _ => h0 a i hab)
    (fun h => absurd (Finset.mem_univ b) h)

/-- A sum over 32 = 16 + 16 positions is the sum over the first sixteen plus the sum over the last sixteen. -/
theorem sum32_split {M : Type*} [AddCommMonoid M] (f : Fin 32 → M) :
    ∑ k : Fin 32, f k = ∑ i : Fin 16, f ⟨i.val, by have := i.isLt; omega⟩ + ∑ i : Fin 16, f ⟨16 + i.val, by have := i.isLt; omega⟩ :=
  Fin.sum_univ_add (a := 16) (b := 16) (f : Fin (16 + 16) → M)

end Cert.BlockSum
-- ==== Proof.KDense.lean ====
/-
  What each of the first three grid regions computes, read at an entry of the unpacked table.

  The regions work on packed tables: eight consecutive rows of 16 numbers of a `[1000000,16]` table are one row of 128
  of the `[125000,128]` table with the same row-major order, so entry `(n, j)` of the unpacked table is entry
  `(n / 8, 16 (n % 8) + j)` of the packed one.

  A product of the packed table with the 128 × 128 block-diagonal array that repeats one 16 × 16 array `A` down its
  diagonal is, unpacked, the product of the table with `A`: in entry `(p, q)` of the packed product the summand for
  position `d < 128` is the packed entry `(p, d)`, which is the unpacked entry `(8p + d / 16, d % 16)`, times
  `A (d % 16, q % 16)` when `d` lies in the block of `q` and zero otherwise; of the 128 summands only the sixteen of
  block `q / 16` are left, and with `q = 16 (n % 8) + j` they are `∑ i < 16, table (n, i) · A (i, j)`.
  The bias rows are a vector of 16 numbers repeated eight times, so position `d` carries entry `d % 16` of the vector.

  Hence, at entry `(n, j)` of the unpacked output:
    • the first region gives `∑ i, H (n, i) · A₄ (i, j)` for the embedded table `H`;
    • the second gives `∑ i, max (G₁ (n, i) + b₅ (i)) 0 · A₆ (i, j)` for the aggregation `G₁` of the first's output;
    • the third gives `G₂ (n, j) + b₇ (j)` for the aggregation `G₂` of the second's output.
  All values are extended reals and every operation is exact.
-/
import proofs.«119417_j62199716380859_2_alg».proof.Proof.KBoundary
import proofs.«119417_j62199716380859_2_alg».proof.Proof.KHostRead
import proofs.«119417_j62199716380859_2_alg».proof.Proof.Region0
import proofs.«119417_j62199716380859_2_alg».proof.Proof.Region1
import proofs.«119417_j62199716380859_2_alg».proof.Proof.Region2
import proofs.«119417_j62199716380859_2_alg».proof.Proof.LibPackRead
import proofs.«119417_j62199716380859_2_alg».proof.Proof.LibBlockSum

noncomputable section

open Idealize.ShloMosaic Idealize.ShloMosaic.TcCoe Idealize.SL.Sem
open Idealize.ShloMosaic.StableHlo
open Idealize.ShloMosaic.ValueIdx

namespace Cert.KernelIdeal.Dense

open Cert.KernelIdeal Cert.KernelIdeal.Gen Cert.KernelIdeal.KStage

variable (m : (ℓ : Loc nD τ sig) → Buf (Elt Ideal) ℓ) (ρ : Dev nD → PrngReg) (c : Dev nD)

/-- Entry `(n, j)` of the unpacked table is entry `(n / 8, 16 (n % 8) + j)` of the packed one. -/
theorem unpack_at (y : FVec Ideal S125000x128 .f32) (n : Fin 1000000) (j : Fin 16) (p : Fin 125000) (d : Fin 128)
    (hp : p.val = n.val / 8) (hd : d.val = 16 * (n.val % 8) + j.val) :
    unpack y (ix2 n j) = y (ix2 p d) :=
  Cert.PackRead.unpack8_apply y shapeCasts_S125000x128_S1000000x16 n j p d hp hd

/-- And the packed table's entry `(n / 8, 16 (n % 8) + j)` is the unpacked table's entry `(n, j)`. -/
theorem pack_at (h : FVec Ideal S1000000x16 .f32) (n : Fin 1000000) (j : Fin 16) (p : Fin 125000) (d : Fin 128)
    (hp : p.val = n.val / 8) (hd : d.val = 16 * (n.val % 8) + j.val) :
    pack h (ix2 p d) = h (ix2 n j) :=
  Cert.PackRead.pack8_apply h shapeCasts_S1000000x16_S125000x128 p d n j (by have := j.isLt; omega) (by have := j.isLt; omega)

/-- The third region adds the second bias vector to every row of the aggregated table. -/
theorem dense3 (n : Fin 1000000) (j : Fin 16) (G2 : S1000000x16.Idx → EReal)
    (hG : G2 = agg (m ((c : Thread nD τ).loc main_arg1)) (unpack (W10 m ρ c (Proc.devRef .tc main_v72))))
    (B7 : S16.Idx → EReal) (hB : B7 = m ((c : Thread nD τ).loc main_arg7)) :
    unpack (W12 m ρ c (Proc.devRef .tc main_v92)) (ix2 n j) = G2 (ix2 n j) + B7 (ix1 j) := by
  subst hG hB
  have hn := n.isLt
  have hj := j.isLt
  have hp : n.val / 8 < 125000 := by omega
  have hd : 16 * (n.val % 8) + j.val < 128 := by omega
  refine (unpack_at _ n j ⟨n.val / 8, hp⟩ ⟨16 * (n.val % 8) + j.val, hd⟩ rfl rfl).trans ?_
  refine (congrFun (W12_arr m ρ c 2) (ix2 (⟨n.val / 8, hp⟩ : Fin 125000) (⟨16 * (n.val % 8) + j.val, hd⟩ : Fin 128))).trans ?_
  refine (Region2.out_apply_typed (V11 m ρ) c ⟨n.val / 8, hp⟩ ⟨16 * (n.val % 8) + j.val, hd⟩).trans ?_
  refine congrArg₂ (· + ·) ?_ ?_
  · refine (congrFun (Boundary.W11_v91 m ρ c) (ix2 (⟨n.val / 8, hp⟩ : Fin 125000) (⟨16 * (n.val % 8) + j.val, hd⟩ : Fin 128))).trans ?_
    exact pack_at _ n j _ _ rfl rfl
  · refine (HostRead.tile2_apply m ρ c 0 ⟨16 * (n.val % 8) + j.val, hd⟩ _ rfl).trans ?_
    refine (congrFun (Boundary.W10_arg7 m ρ c) _).trans ?_
    exact congrArg _ (congrArg ix1 (Fin.ext (by show (16 * (n.val % 8) + j.val) % 16 = j.val; omega)))

/-- The first region multiplies the embedded table by the first weight array. -/
theorem dense1 (n : Fin 1000000) (j : Fin 16) (H0 : S1000000x16.Idx → EReal)
    (hH : H0 = emb (m ((c : Thread nD τ).loc main_arg0)) (m ((c : Thread nD τ).loc main_arg3)))
    (A4 : S16x16.Idx → EReal) (hA : A4 = m ((c : Thread nD τ).loc main_arg4)) :
    unpack (W6 m ρ c (Proc.devRef .tc main_v45)) (ix2 n j) = ∑ i : Fin 16, H0 (ix2 n i) * A4 (ix2 i j) := by
  have hn := n.isLt
  have hj := j.isLt
  have hp : n.val / 8 < 125000 := by omega
  have hq : 16 * (n.val % 8) + j.val < 128 := by omega
  have hb : n.val % 8 < 8 := Nat.mod_lt _ (by decide)
  -- the summand for block `a` and place `i`
  let f : Fin 8 → Fin 16 → EReal := fun a i =>
    H0 (ix2 (⟨8 * (n.val / 8) + a.val, by have := a.isLt; omega⟩ : Fin 1000000) i)
      * ((if a.val = n.val % 8 then (1 : EReal) else 0) * A4 (ix2 i j))
  refine (unpack_at _ n j ⟨n.val / 8, hp⟩ ⟨16 * (n.val % 8) + j.val, hq⟩ rfl rfl).trans ?_
  refine (congrFun (W6_arr m ρ c 2) (ix2 (⟨n.val / 8, hp⟩ : Fin 125000) (⟨16 * (n.val % 8) + j.val, hq⟩ : Fin 128))).trans ?_
  refine (congrFun (Region0.final (V5 m ρ) c) (ix2 (⟨n.val / 8, hp⟩ : Fin 125000) (⟨16 * (n.val % 8) + j.val, hq⟩ : Fin 128))).trans ?_
  refine (Region0.G_apply _ _ ⟨n.val / 8, hp⟩ ⟨16 * (n.val % 8) + j.val, hq⟩).trans ?_
  have hterm : ∀ (X : S125000x128.Idx → EReal) (hX : X = W5 m ρ c (Proc.devRef .tc main_v44))
      (Y : S128x128.Idx → EReal) (hY : Y = W5 m ρ c (Proc.devRef .tc main_v43)) (d : Fin 128),
      X (ix2 (⟨n.val / 8, hp⟩ : Fin 125000) d) * Y (ix2 d (⟨16 * (n.val % 8) + j.val, hq⟩ : Fin 128))
        = f (Cert.BlockSum.hi d) (Cert.BlockSum.lo d) := by
    intro X hX Y hY d
    subst hX hY
    have hd := d.isLt
    refine congrArg₂ (· * ·) ?_ ?_
    · refine (congrFun (Boundary.W5_v44 m ρ c) (ix2 (⟨n.val / 8, hp⟩ : Fin 125000) d)).trans ?_
      rw [← hH]
      exact Cert.PackRead.pack8_apply H0 shapeCasts_S1000000x16_S125000x128 ⟨n.val / 8, hp⟩ d
        (⟨8 * (n.val / 8) + (Cert.BlockSum.hi d).val, by have := (Cert.BlockSum.hi d).isLt; omega⟩ : Fin 1000000)
        (Cert.BlockSum.lo d) rfl rfl
    · refine (HostRead.kron1_apply m ρ c d ⟨16 * (n.val % 8) + j.val, hq⟩ A4 hA).trans ?_
      refine congrArg₂ (· * ·) (if_congr ?_ rfl rfl) (congrArg A4 ?_)
      · show d.val / 16 = (16 * (n.val % 8) + j.val) / 16 ↔ d.val / 16 = n.val % 8
        rw [show (16 * (n.val % 8) + j.val) / 16 = n.val % 8 by omega]
      · exact congrArg (ix2 (Cert.BlockSum.lo d)) (Fin.ext (by show (16 * (n.val % 8) + j.val) % 16 = j.val; omega))
  refine (Finset.sum_congr rfl fun d _ => hterm _ rfl _ rfl d).trans ?_
  refine (Cert.BlockSum.sum128_block f ⟨n.val % 8, hb⟩ fun a i hab => ?_).trans ?_
  · have hne : ¬ a.val = n.val % 8 := fun h => hab (Fin.ext h)
    show H0 _ * ((if a.val = n.val % 8 then (1 : EReal) else 0) * A4 (ix2 i j)) = 0
    rw [if_neg hne, zero_mul, mul_zero]
  · refine Finset.sum_congr rfl fun i _ => ?_
    show H0 (ix2 (⟨8 * (n.val / 8) + n.val % 8, _⟩ : Fin 1000000) i)
        * ((if n.val % 8 = n.val % 8 then (1 : EReal) else 0) * A4 (ix2 i j)) = H0 (ix2 n i) * A4 (ix2 i j)
    rw [if_pos rfl, one_mul]
    exact congrArg (fun r : Fin 1000000 => H0 (ix2 r i) * A4 (ix2 i j)) (Fin.ext (by show 8 * (n.val / 8) + n.val % 8 = n.val; omega))

/-- The second region adds the first bias vector to every row of the aggregated table, replaces negative entries by
    zero and multiplies by the second weight array. -/
theorem dense2 (n : Fin 1000000) (j : Fin 16) (G1 : S1000000x16.Idx → EReal)
    (hG : G1 = agg (m ((c : Thread nD τ).loc main_arg1)) (unpack (W6 m ρ c (Proc.devRef .tc main_v45))))
    (B5 : S16.Idx → EReal) (hB : B5 = m ((c : Thread nD τ).loc main_arg5))
    (A6 : S16x16.Idx → EReal) (hA : A6 = m ((c : Thread nD τ).loc main_arg6)) :
    unpack (W10 m ρ c (Proc.devRef .tc main_v72)) (ix2 n j)
      = ∑ i : Fin 16, max (G1 (ix2 n i) + B5 (ix1 i)) 0 * A6 (ix2 i j) := by
  have hn := n.isLt
  have hj := j.isLt
  have hp : n.val / 8 < 125000 := by omega
  have hq : 16 * (n.val % 8) + j.val < 128 := by omega
  have hb : n.val % 8 < 8 := Nat.mod_lt _ (by decide)
  let f : Fin 8 → Fin 16 → EReal := fun a i =>
    max (G1 (ix2 (⟨8 * (n.val / 8) + a.val, by have := a.isLt; omega⟩ : Fin 1000000) i) + B5 (ix1 i)) 0
      * ((if a.val = n.val % 8 then (1 : EReal) else 0) * A6 (ix2 i j))
  refine (unpack_at _ n j ⟨n.val / 8, hp⟩ ⟨16 * (n.val % 8) + j.val, hq⟩ rfl rfl).trans ?_
  refine (congrFun (W10_arr m ρ c 3) (ix2 (⟨n.val / 8, hp⟩ : Fin 125000) (⟨16 * (n.val % 8) + j.val, hq⟩ : Fin 128))).trans ?_
  refine (congrFun (Region1.final (V9 m ρ) c) (ix2 (⟨n.val / 8, hp⟩ : Fin 125000) (⟨16 * (n.val % 8) + j.val, hq⟩ : Fin 128))).trans ?_
  refine (Region1.G_apply _ _ _ ⟨n.val / 8, hp⟩ ⟨16 * (n.val % 8) + j.val, hq⟩).trans ?_
  have hterm : ∀ (X : S125000x128.Idx → EReal) (hX : X = W9 m ρ c (Proc.devRef .tc main_v71))
      (b : S1x128.Idx → EReal) (hb' : b = W9 m ρ c (Proc.devRef .tc main_v63))
      (Y : S128x128.Idx → EReal) (hY : Y = W9 m ρ c (Proc.devRef .tc main_v70)) (d : Fin 128),
      max (X (ix2 (⟨n.val / 8, hp⟩ : Fin 125000) d) + b (ix2 0 d)) 0
          * Y (ix2 d (⟨16 * (n.val % 8) + j.val, hq⟩ : Fin 128))
        = f (Cert.BlockSum.hi d) (Cert.BlockSum.lo d) := by
    intro X hX b hb' Y hY d
    subst hX hb' hY
    have hd := d.isLt
    refine congrArg₂ (· * ·) (congrArg (max · (0 : EReal)) (congrArg₂ (· + ·) ?_ ?_)) ?_
    · refine (congrFun (Boundary.W9_v71 m ρ c) (ix2 (⟨n.val / 8, hp⟩ : Fin 125000) d)).trans ?_
      rw [← hG]
      exact Cert.PackRead.pack8_apply G1 shapeCasts_S1000000x16_S125000x128 ⟨n.val / 8, hp⟩ d
        (⟨8 * (n.val / 8) + (Cert.BlockSum.hi d).val, by have := (Cert.BlockSum.hi d).isLt; omega⟩ : Fin 1000000)
        (Cert.BlockSum.lo d) rfl rfl
    · refine (HostRead.tile1_apply m ρ c 0 d B5 (hB.trans (Boundary.W6_arg5 m ρ c).symm)).trans ?_
      rfl
    · refine (HostRead.kron2_apply m ρ c d ⟨16 * (n.val % 8) + j.val, hq⟩ A6 (hA.trans (Boundary.W6_arg6 m ρ c).symm)).trans ?_
      refine congrArg₂ (· * ·) (if_congr ?_ rfl rfl) (congrArg A6 ?_)
      · show d.val / 16 = (16 * (n.val % 8) + j.val) / 16 ↔ d.val / 16 = n.val % 8
        rw [show (16 * (n.val % 8) + j.val) / 16 = n.val % 8 by omega]
      · exact congrArg (ix2 (Cert.BlockSum.lo d)) (Fin.ext (by show (16 * (n.val % 8) + j.val) % 16 = j.val; omega))
  refine (Finset.sum_congr rfl fun d _ => hterm _ rfl _ rfl _ rfl d).trans ?_
  refine (Cert.BlockSum.sum128_block f ⟨n.val % 8, hb⟩ fun a i hab => ?_).trans ?_
  · have hne : ¬ a.val = n.val % 8 := fun h => hab (Fin.ext h)
    show max _ (0 : EReal) * ((if a.val = n.val % 8 then (1 : EReal) else 0) * A6 (ix2 i j)) = 0
    rw [if_neg hne, zero_mul, mul_zero]
  · refine Finset.sum_congr rfl fun i _ => ?_
    show max (G1 (ix2 (⟨8 * (n.val / 8) + n.val % 8, _⟩ : Fin 1000000) i) + B5 (ix1 i)) 0
        * ((if n.val % 8 = n.val % 8 then (1 : EReal) else 0) * A6 (ix2 i j))
      = max (G1 (ix2 n i) + B5 (ix1 i)) 0 * A6 (ix2 i j)
    rw [if_pos rfl, one_mul]
    exact congrArg (fun r : Fin 1000000 => max (G1 (ix2 r i) + B5 (ix1 i)) 0 * A6 (ix2 i j))
      (Fin.ext (by show 8 * (n.val / 8) + n.val % 8 = n.val; omega))

end Cert.KernelIdeal.Dense
end
-- ==== Proof.LibUpdateChain.lean ====
/-
  A 128 × 8 array with one vector of sixteen entries written down its block diagonal (a general lemma file; nothing
  here mentions a particular program).

  Writing a 16 × 1 piece `w` into a 128 × 8 array at rows `16a … 16a + 15` of column `a` changes exactly the entries
  `(k, r)` with `k / 16 = a` and `r = a`, where it puts `w (k % 16)`. Doing so for `a = 0, …, 7`, starting from an
  array `z`, leaves at `(k, r)` the entry `w (k % 16)` when `k` lies in block `r` and `z (k, r)` otherwise: the eight
  written rectangles are disjoint, one per column.
-/
import Idealize.ShloMosaic.Lib.Pipeline.Value
import Idealize.ShloMosaic.Lib.ValueIdx

namespace Cert.UpdateChain

open Idealize.ShloMosaic Idealize.ShloMosaic.ValueIdx

variable {α : Type}

/-- One piece: the entries of block `a` in column `a` are the piece's, every other entry is kept. -/
theorem updateSlice_block_apply (x : (⟨2, ![128, 8]⟩ : Shape).Idx → α) (w : (⟨2, ![16, 1]⟩ : Shape).Idx → α)
    (a : ℕ) (st : Fin 2 → ℕ) (hst0 : st 0 = 16 * a) (hst1 : st 1 = a)
    (h : (⟨2, ![128, 8]⟩ : Shape).Slices st ⟨2, ![16, 1]⟩) (k : Fin 128) (r : Fin 8) :
    updateSlice x w st h (ix2 k r)
      = if k.val / 16 = a ∧ r.val = a then w (ix2 (⟨k.val % 16, Nat.mod_lt _ (by decide)⟩ : Fin 16) (0 : Fin 1))
        else x (ix2 k r) := by
  have hk := k.isLt
  unfold updateSlice
  by_cases hc : k.val / 16 = a ∧ r.val = a
  · have hin : ∀ ax : Fin 2, st ax ≤ ((ix2 k r) ax).val
        ∧ ((ix2 k r) ax).val < st ax + (⟨2, ![16, 1]⟩ : Shape).size (ax.cast h.1.symm) := by
      intro ax
      match ax with
      | ⟨0, _⟩ => show st 0 ≤ k.val ∧ k.val < st 0 + 16; rw [hst0]; omega
      | ⟨1, _⟩ => show st 1 ≤ r.val ∧ r.val < st 1 + 1; rw [hst1]; omega
    rw [if_pos hc, dif_pos hin]
    refine congrArg w (funext fun b => Fin.ext ?_)
    match b with
    | ⟨0, _⟩ => show k.val - st 0 = k.val % 16; rw [hst0]; omega
    | ⟨1, _⟩ => show r.val - st 1 = 0; rw [hst1]; omega
  · rw [if_neg hc, dif_neg]
    intro hin
    have h0 : st 0 ≤ k.val ∧ k.val < st 0 + 16 := hin 0
    have h1 : st 1 ≤ r.val ∧ r.val < st 1 + 1 := hin 1
    rw [hst0] at h0; rw [hst1] at h1
    exact hc (by omega)

/-- Eight pieces of one vector, one per block and column: the block-diagonal array. -/
theorem blockdiag8_apply (z : (⟨2, ![128, 8]⟩ : Shape).Idx → α) (w : (⟨2, ![16, 1]⟩ : Shape).Idx → α)
    (h0 : (⟨2, ![128, 8]⟩ : Shape).Slices ![0, 0] ⟨2, ![16, 1]⟩)
    (h1 : (⟨2, ![128, 8]⟩ : Shape).Slices ![16, 1] ⟨2, ![16, 1]⟩)
    (h2 : (⟨2, ![128, 8]⟩ : Shape).Slices ![32, 2] ⟨2, ![16, 1]⟩)
    (h3 : (⟨2, ![128, 8]⟩ : Shape).Slices ![48, 3] ⟨2, ![16, 1]⟩)
    (h4 : (⟨2, ![128, 8]⟩ : Shape).Slices ![64, 4] ⟨2, ![16, 1]⟩)
    (h5 : (⟨2, ![128, 8]⟩ : Shape).Slices ![80, 5] ⟨2, ![16, 1]⟩)
    (h6 : (⟨2, ![128, 8]⟩ : Shape).Slices ![96, 6] ⟨2, ![16, 1]⟩)
    (h7 : (⟨2, ![128, 8]⟩ : Shape).Slices ![112, 7] ⟨2, ![16, 1]⟩)
    (k : Fin 128) (r : Fin 8) :
    updateSlice (updateSlice (updateSlice (updateSlice (updateSlice (updateSlice (updateSlice (updateSlice z w ![0, 0] h0) w ![16, 1] h1) w ![32, 2] h2) w ![48, 3] h3) w ![64, 4] h4) w ![80, 5] h5) w ![96, 6] h6) w ![112, 7] h7 (ix2 k r)
      = if k.val / 16 = r.val then w (ix2 (⟨k.val % 16, Nat.mod_lt _ (by decide)⟩ : Fin 16) (0 : Fin 1)) else z (ix2 k r) := by
  have hr := r.isLt
  rw [updateSlice_block_apply _ w 7 _ rfl rfl h7,
    updateSlice_block_apply _ w 6 _ rfl rfl h6,
    updateSlice_block_apply _ w 5 _ rfl rfl h5,
    updateSlice_block_apply _ w 4 _ rfl rfl h4,
    updateSlice_block_apply _ w 3 _ rfl rfl h3,
    updateSlice_block_apply _ w 2 _ rfl rfl h2,
    updateSlice_block_apply _ w 1 _ rfl rfl h1,
    updateSlice_block_apply _ w 0 _ rfl rfl h0]
  by_cases hkr : k.val / 16 = r.val
  · rw [if_pos hkr]
    split_ifs <;> first | rfl | (exfalso; omega)
  · rw [if_neg hkr]
    split_ifs <;> first | rfl | (exfalso; omega)

end Cert.UpdateChain
-- ==== Proof.KDecodeW.lean ====
/-
  The two 128 × 8 matrices that region 3 multiplies by, as the stretch of host operations before it builds them.

  A vector `a` of 32 entries (held as a 32 × 1 array) is cut into its first sixteen entries and its last sixteen.
  Each half `w` is written eight times into a 128 × 8 array of zeros, the `j`-th time at rows `16 j … 16 j + 15` of
  column `j` (`j = 0, …, 7`): the eight written rectangles are disjoint, one per column, and what is left is the
  block-diagonal array whose entry at row `k`, column `r` is `w (k mod 16)` when `k` lies in block `r` (that is,
  `k / 16 = r`) and `0` otherwise. So the first matrix has `a (k mod 16)` there and the second `a (16 + k mod 16)`;
  each entry depends on one entry of `a` or on none.

  Each write's starting row and column are given by two constant words; a write started there lies inside the
  array, so the clamping of the start changes nothing. Below: the result of one such write operation with its two
  start words read off their own buffers (`binaryIndexed_pair_result`), one write read at an entry (`dus_block_apply`), the eight writes read at an entry (`dus8_apply`),
  and the two matrices' entries (`bd0_apply`, `bd1_apply`).
-/
import proofs.«119417_j62199716380859_2_alg».proof.Proof.Gen.KernelIdeal.Frame
import proofs.«119417_j62199716380859_2_alg».proof.Proof.LibUpdateChain
import Idealize.ShloMosaic.PureOps.Ideal
import Idealize.ShloMosaic.Lib.IdealHost

noncomputable section

open Idealize.ShloMosaic Idealize.ShloMosaic.TcCoe Idealize.SL.Sem
open Idealize.ShloMosaic.StableHlo
open Idealize.ShloMosaic.ValueIdx
open Cert.KernelIdeal.Facts₀ Cert.KernelIdeal.Facts

namespace Cert.KernelIdeal.DecodeW

open Cert.KernelIdeal Cert.KernelIdeal.Gen

/-- An operation of two operands and a pair of index operands: its result buffer takes its function of the two
    operands' contents and of the pair of the index operands' contents, each read at its own buffer. -/
theorem binaryIndexed_pair_result {Val : EltTy → Type} {a b c1 c2 y : Ref sig .tc} (T : BufTy)
    (f : a.ty.Contents Val → b.ty.Contents Val → (Fin 2 → T.Contents Val) → y.ty.Contents Val) (hT ha hb hix hy)
    (F : Valuation τ sig Val) :
    (binaryIndexed (τ := τ) a b ![c1, c2] T y f hT ha hb hix hy).result F (no_index (Proc.devRef .tc y))
      = f (F (Proc.devRef .tc a)) (F (Proc.devRef .tc b))
          ![cast (congrArg (fun U : BufTy => U.Contents Val) (hT 0)) (F (Proc.devRef .tc c1)),
            cast (congrArg (fun U : BufTy => U.Contents Val) (hT 1)) (F (Proc.devRef .tc c2))] :=
  (binaryIndexed_result a b ![c1, c2] T y f hT ha hb hix hy F).trans
    (congrArg (f _ _) (funext fun k => by fin_cases k <;> rfl))

/-- One write of a 16 × 1 piece into a 128 × 8 array, started (after clamping) at row `16 a` of column `a`, read
    at row `k`, column `r`: the piece's entry `k mod 16` when `k` is in block `a` and `r = a`, the array's own entry
    otherwise. -/
theorem dus_block_apply {α : Type} (x : (⟨2, ![128, 8]⟩ : Shape).Idx → α) (w : (⟨2, ![16, 1]⟩ : Shape).Idx → α)
    (start : Fin 2 → ℤ) (h : (⟨2, ![128, 8]⟩ : Shape).Slices (fun _ => 0) ⟨2, ![16, 1]⟩) (a : ℕ)
    (h0 : (min (max (start 0) 0) (112 : ℤ)).toNat = 16 * a) (h1 : (min (max (start 1) 0) (7 : ℤ)).toNat = a)
    (k : Fin 128) (r : Fin 8) :
    Host.dynamicUpdateSlice x w start h (ix2 k r)
      = if k.val / 16 = a ∧ r.val = a then w (ix2 (⟨k.val % 16, Nat.mod_lt _ (by decide)⟩ : Fin 16) (0 : Fin 1))
        else x (ix2 k r) := by
  unfold Host.dynamicUpdateSlice
  exact Cert.UpdateChain.updateSlice_block_apply x w a _ h0 h1 _ k r

/-- Eight such writes of one piece `w` into an array `z`, the `j`-th started (after clamping) at row `16 j` of column
    `j`, read at row `k`, column `r`: the written rectangles are disjoint, one per column, so the entry is the piece's
    entry `k mod 16` when `k` is in block `r` and `z`'s own entry otherwise. -/
theorem dus8_apply {α : Type} (z : (⟨2, ![128, 8]⟩ : Shape).Idx → α) (w : (⟨2, ![16, 1]⟩ : Shape).Idx → α)
    (s0 s1 s2 s3 s4 s5 s6 s7 : Fin 2 → ℤ) (h : (⟨2, ![128, 8]⟩ : Shape).Slices (fun _ => 0) ⟨2, ![16, 1]⟩)
    (h00 : (min (max (s0 0) 0) (112 : ℤ)).toNat = 16 * 0) (h01 : (min (max (s0 1) 0) (7 : ℤ)).toNat = 0)
    (h10 : (min (max (s1 0) 0) (112 : ℤ)).toNat = 16 * 1) (h11 : (min (max (s1 1) 0) (7 : ℤ)).toNat = 1)
    (h20 : (min (max (s2 0) 0) (112 : ℤ)).toNat = 16 * 2) (h21 : (min (max (s2 1) 0) (7 : ℤ)).toNat = 2)
    (h30 : (min (max (s3 0) 0) (112 : ℤ)).toNat = 16 * 3) (h31 : (min (max (s3 1) 0) (7 : ℤ)).toNat = 3)
    (h40 : (min (max (s4 0) 0) (112 : ℤ)).toNat = 16 * 4) (h41 : (min (max (s4 1) 0) (7 : ℤ)).toNat = 4)
    (h50 : (min (max (s5 0) 0) (112 : ℤ)).toNat = 16 * 5) (h51 : (min (max (s5 1) 0) (7 : ℤ)).toNat = 5)
    (h60 : (min (max (s6 0) 0) (112 : ℤ)).toNat = 16 * 6) (h61 : (min (max (s6 1) 0) (7 : ℤ)).toNat = 6)
    (h70 : (min (max (s7 0) 0) (112 : ℤ)).toNat = 16 * 7) (h71 : (min (max (s7 1) 0) (7 : ℤ)).toNat = 7)
    (k : Fin 128) (r : Fin 8) :
    Host.dynamicUpdateSlice (Host.dynamicUpdateSlice (Host.dynamicUpdateSlice (Host.dynamicUpdateSlice (Host.dynamicUpdateSlice (Host.dynamicUpdateSlice (Host.dynamicUpdateSlice (Host.dynamicUpdateSlice (z) w s0 h) w s1 h) w s2 h) w s3 h) w s4 h) w s5 h) w s6 h) w s7 h (ix2 k r)
      = if k.val / 16 = r.val then w (ix2 (⟨k.val % 16, Nat.mod_lt _ (by decide)⟩ : Fin 16) (0 : Fin 1))
        else z (ix2 k r) := by
  have hr := r.isLt
  rw [dus_block_apply _ w s7 h 7 h70 h71,
    dus_block_apply _ w s6 h 6 h60 h61,
    dus_block_apply _ w s5 h 5 h50 h51,
    dus_block_apply _ w s4 h 4 h40 h41,
    dus_block_apply _ w s3 h 3 h30 h31,
    dus_block_apply _ w s2 h 2 h20 h21,
    dus_block_apply _ w s1 h 1 h10 h11,
    dus_block_apply _ w s0 h 0 h00 h01]
  clear h00 h01 h10 h11 h20 h21 h30 h31 h40 h41 h50 h51 h60 h61 h70 h71
  by_cases hkr : k.val / 16 = r.val
  · rw [if_pos hkr]
    split_ifs <;> first | rfl | (exfalso; omega)
  · rw [if_neg hkr]
    split_ifs <;> first | rfl | (exfalso; omega)

-- the buffers at launch and the generator registers
variable (m : (ℓ : Loc nD τ sig) → Buf (Elt Ideal) ℓ) (ρ : Dev nD → PrngReg)

set_option maxHeartbeats 1000000 in
/-- The first matrix at region 3's entry, at row `k`, column `r`: entry `k mod 16` of the vector when `k` is in block `r`,
    zero otherwise. -/
theorem bd0_apply (c : Dev nD) (k : Fin 128) (r : Fin 8) (A8 : S32x1.Idx → EReal)
    (hA : A8 = W12 m ρ c (Proc.devRef .tc main_arg8)) :
    (W13 m ρ c (Proc.devRef .tc main_v124) : S128x8.Idx → EReal) (ix2 k r)
      = if k.val / 16 = r.val then A8 (ix2 (⟨k.val % 16, by omega⟩ : Fin 32) (0 : Fin 1)) else 0 := by
  subst hA
  have hk := k.isLt
  dsimp only [W13]
  -- the stretch of host operations, read at this one array: eight writes of the piece into the zero array
  simp (disch := decide) only [after_cons, after_nil,
      nullary_result', unary_result', binary_result', ternary_result', quaternary_result', reshape_result', nary4_result', nary_result',
      unaryIndexed_result', binaryIndexed_pair_result,
      nullary_result_ne', unary_result_ne', binary_result_ne', ternary_result_ne', quaternary_result_ne', reshape_result_ne',
      nary_result_ne', unaryIndexed_result_ne', binaryIndexed_result_ne']
  -- the eight writes read at the entry `(k, r)`; each start, clamped, is where the write was aimed
  rw [dus8_apply (k := k) (r := r)]
  · -- the piece is sixteen consecutive entries of the vector
    have hw : extractStridedSlice S16x1 ![0, 0] (W12 m ρ c (Proc.devRef .tc main_arg8)) Gen.slices_S32x1_S16x1_0_0
          (ix2 (⟨k.val % 16, Nat.mod_lt _ (by decide)⟩ : Fin 16) (0 : Fin 1))
        = (W12 m ρ c (Proc.devRef .tc main_arg8) : S32x1.Idx → EReal) (ix2 (⟨k.val % 16, by omega⟩ : Fin 32) (0 : Fin 1)) :=
      extractStridedSlice_apply (s := S32x1) (t := S16x1) ![0, 0] (W12 m ρ c (Proc.devRef .tc main_arg8)) Gen.slices_S32x1_S16x1_0_0
        (ix2 (⟨k.val % 16, Nat.mod_lt _ (by decide)⟩ : Fin 16) (0 : Fin 1))
        (ix2 (⟨k.val % 16, by omega⟩ : Fin 32) (0 : Fin 1)) fun a => by
          match a with
          | ⟨0, _⟩ => show k.val % 16 = 0 + k.val % 16; omega
          | ⟨1, _⟩ => show 0 = 0 + 0; rfl
    -- the array written into is zero everywhere
    have hzero : broadcastInDim S128x8 ![] Gen.bcast_S_S128x8 (constant (F := Ideal) S_ .f32 0x00000000#32) (ix2 k r) = (0 : EReal) :=
      (broadcastInDim_scalar_apply _ _ _).trans ((constant_apply _ _).trans Ideal.ofBits_zero_f32)
    by_cases hkr : k.val / 16 = r.val
    · rw [if_pos hkr, if_pos hkr]; exact hw
    · rw [if_neg hkr, if_neg hkr]; exact hzero
  all_goals rfl

set_option maxHeartbeats 1000000 in
/-- The second matrix at region 3's entry, at row `k`, column `r`: entry `16 + k mod 16` of the vector when `k` is in
    block `r`, zero otherwise. -/
theorem bd1_apply (c : Dev nD) (k : Fin 128) (r : Fin 8) (A8 : S32x1.Idx → EReal)
    (hA : A8 = W12 m ρ c (Proc.devRef .tc main_arg8)) :
    (W13 m ρ c (Proc.devRef .tc main_v133) : S128x8.Idx → EReal) (ix2 k r)
      = if k.val / 16 = r.val then A8 (ix2 (⟨16 + k.val % 16, by omega⟩ : Fin 32) (0 : Fin 1)) else 0 := by
  subst hA
  have hk := k.isLt
  dsimp only [W13]
  -- the stretch of host operations, read at this one array: eight writes of the piece into the zero array
  simp (disch := decide) only [after_cons, after_nil,
      nullary_result', unary_result', binary_result', ternary_result', quaternary_result', reshape_result', nary4_result', nary_result',
      unaryIndexed_result', binaryIndexed_pair_result,
      nullary_result_ne', unary_result_ne', binary_result_ne', ternary_result_ne', quaternary_result_ne', reshape_result_ne',
      nary_result_ne', unaryIndexed_result_ne', binaryIndexed_result_ne']
  -- the eight writes read at the entry `(k, r)`; each start, clamped, is where the write was aimed
  rw [dus8_apply (k := k) (r := r)]
  · -- the piece is sixteen consecutive entries of the vector
    have hw : extractStridedSlice S16x1 ![16, 0] (W12 m ρ c (Proc.devRef .tc main_arg8)) Gen.slices_S32x1_S16x1_16_0
          (ix2 (⟨k.val % 16, Nat.mod_lt _ (by decide)⟩ : Fin 16) (0 : Fin 1))
        = (W12 m ρ c (Proc.devRef .tc main_arg8) : S32x1.Idx → EReal) (ix2 (⟨16 + k.val % 16, by omega⟩ : Fin 32) (0 : Fin 1)) :=
      extractStridedSlice_apply (s := S32x1) (t := S16x1) ![16, 0] (W12 m ρ c (Proc.devRef .tc main_arg8)) Gen.slices_S32x1_S16x1_16_0
        (ix2 (⟨k.val % 16, Nat.mod_lt _ (by decide)⟩ : Fin 16) (0 : Fin 1))
        (ix2 (⟨16 + k.val % 16, by omega⟩ : Fin 32) (0 : Fin 1)) fun a => by
          match a with
          | ⟨0, _⟩ => show 16 + k.val % 16 = 16 + k.val % 16; omega
          | ⟨1, _⟩ => show 0 = 0 + 0; rfl
    -- the array written into is zero everywhere
    have hzero : broadcastInDim S128x8 ![] Gen.bcast_S_S128x8 (constant (F := Ideal) S_ .f32 0x00000000#32) (ix2 k r) = (0 : EReal) :=
      (broadcastInDim_scalar_apply _ _ _).trans ((constant_apply _ _).trans Ideal.ofBits_zero_f32)
    by_cases hkr : k.val / 16 = r.val
    · rw [if_pos hkr, if_pos hkr]; exact hw
    · rw [if_neg hkr, if_neg hkr]; exact hzero
  all_goals rfl

end Cert.KernelIdeal.DecodeW

end
-- ==== Proof.Region3.lean ====
/-
  Region 3: two matrix products added, plus a bias row.

  The region reads two matrices `X₀`, `X₁` of 250000 rows and 128 columns, two matrices `W₀`, `W₁` of 128 rows
  and 8 columns and a bias `B` of one row and 8 columns, and writes a matrix of 250000 rows and 8 columns. The
  rows are cut into 25 blocks of 10000: block `t` holds rows `10000 t … 10000 t + 9999`, of `X₀`, of `X₁` (all
  128 columns) and of the result (all 8 columns) alike; `W₀`, `W₁` and the bias are read whole at every block.
  On a block the body multiplies the block of `X₀` by `W₀` and the block of `X₁` by `W₁`, each product started
  from zero, adds the two products and adds the bias row to every row. So the entry of the result at row `p` and
  column `r` is `(Σ_d X₀(p, d) · W₀(d, r) + Σ_d X₁(p, d) · W₁(d, r)) + B(0, r)`, `d` over the 128 columns: it
  depends on row `p` of `X₀` and of `X₁`, on column `r` of `W₀` and of `W₁` and on the bias entry of column
  `r`, and on nothing else. Row `p` lies in block `p / 10000`, so the 25 blocks fill the result and every entry
  of it is written.

  Below: the body's value at an entry of a block (`block_entry`), the block index of each window at each of the
  25 points (`block_index`), what a point writes back as a block of one function of the five arrays
  (`written_block`), the rows each block holds (`mem_block`) and that the blocks fill the array (`rows_covered`),
  the result array (`result_array`) and its entries (`out_apply`).
-/
import proofs.«119417_j62199716380859_2_alg».proof.Proof.Gen.KernelIdeal.Frame
import proofs.«119417_j62199716380859_2_alg».proof.Proof.LibMatmulRead
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region3

open Cert.KernelIdeal Cert.KernelIdeal.Gen

-- the contents of the buffers when the region is entered
variable (V : (c : Dev nD) → (b : Ref sig .tc) → Buf (Elt Ideal) ((c : Thread nD τ).loc b))

/-- The offsets of a whole-block access are zero on both axes. -/
theorem zero_offsets : (![0, 0] : Fin 2 → Nat) = fun _ => 0 := funext fun a => by fin_cases a <;> rfl

/-- The body on a block, at row `p` and column `r` of the block: row `p` of the first block against column `r` of
    the first 128 × 8 matrix, plus row `p` of the second block against column `r` of the second matrix, plus the
    bias entry of column `r` (the bias row is repeated down the 10000 rows). -/
theorem block_entry (x0 x1 : Vec Ideal S10000x128 .f32) (x2 x3 : Vec Ideal S128x8 .f32) (x4 : Vec Ideal S1x8 .f32)
    (p : Fin 10000) (r : Fin 8) :
    k3_pay1 x0 x2 x1 x3 x4 (ix2 p r)
      = (∑ d : Fin 128, x0 (ix2 p d) * x2 (ix2 d r) + ∑ d : Fin 128, x1 (ix2 p d) * x3 (ix2 d r)) + x4 (ix2 0 r) := by
  unfold k3_pay1
  simp only [shapeCast_self]
  refine (addf_apply _ _ _).trans ?_
  refine congrArg₂ (· + ·) ?_ ?_
  · refine (addf_apply _ _ _).trans ?_
    refine congrArg₂ (· + ·) ?_ ?_
    · exact matmul_ix2_apply dot_S10000x128_S128x8_S10000x8_1_0_0_1_n_n rfl rfl rfl rfl rfl rfl none x0 x2 p r
    · exact matmul_ix2_apply dot_S10000x128_S128x8_S10000x8_1_0_0_1_n_n rfl rfl rfl rfl rfl rfl none x1 x3 p r
  · refine broadcastTo_apply x4 _ (ix2 p r) (ix2 0 r) fun a => ?_
    match a with
    | ⟨0, _⟩ => rfl
    | ⟨1, _⟩ => rfl

/-- The five arrays as the region finds them, as functions of a row and a column. -/
abbrev X0 (c : Dev nD) : S250000x128.Idx → EReal := V c main_v112
abbrev X1 (c : Dev nD) : S250000x128.Idx → EReal := V c main_v113
abbrev W0 (c : Dev nD) : S128x8.Idx → EReal := V c main_v124
abbrev W1 (c : Dev nD) : S128x8.Idx → EReal := V c main_v133
abbrev B (c : Dev nD) : S1x8.Idx → EReal := V c main_v137

/-- The result as one function of the five arrays: at row `p`, column `r`, the two inner products of row `p` with
    column `r`, added, plus the bias entry of column `r`. -/
abbrev G (a0 a1 : S250000x128.Idx → EReal) (a2 a3 : S128x8.Idx → EReal) (a4 : S1x8.Idx → EReal) :
    S250000x8.Idx → EReal :=
  fun i => (∑ d : Fin 128, a0 (ix2 (i 0 : Fin 250000) d) * a2 (ix2 d (i 1 : Fin 8))
      + ∑ d : Fin 128, a1 (ix2 (i 0 : Fin 250000) d) * a3 (ix2 d (i 1 : Fin 8)))
    + a4 (ix2 (0 : Fin 1) (i 1 : Fin 8))

/-- At point `t` the windows of the two tall matrices and of the result are on block `t` of the rows and block 0 of
    the columns; each of the three small arrays' windows is on its one block. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of `G` of the five arrays: entry `(p, r)` of the block is computed from
    row `p` of block `t` of each tall matrix, which is its row `10000 t + p`, from column `r` of each small matrix
    and from the bias at column `r`. -/
theorem written_block (c : Dev nD) (t : Fin cfg3.N) :
    (dat3 (F := Ideal) V c).flushed 5 t
      = ((cfg3.win 5).blk t).view.read (Elt Ideal) (G (X0 V c) (X1 V c) (W0 V c) (W1 V c) (B V c)) := by
  show (cfg3.win 5).cut (grid3.coords t) ((dat3 V c).after 5 t) = _
  rw [after3_5]
  unfold out3_5
  rw [View.canon_unit_zero zero_offsets]
  simp only [View.ld_unit_zero (S := S10000x128) zero_offsets, View.ld_unit_zero (S := S128x8) zero_offsets,
    View.ld_unit_zero (S := S1x8) zero_offsets]
  obtain ⟨e00, e01, e10, e11, e20, e21, e30, e31, e40, e41, e50, e51⟩ := block_index t
  funext j
  have key : ∀ y : S10000x8.Idx,
      k3_pay1 (iblk3 V c 0 t) (iblk3 V c 2 t) (iblk3 V c 1 t) (iblk3 V c 3 t) (iblk3 V c 4 t) y
        = G (X0 V c) (X1 V c) (W0 V c) (W1 V c) (B V c) (((cfg3.win 5).blk t).view.emb y) := by
    intro y
    obtain ⟨p, r, rfl⟩ : ∃ (p : Fin 10000) (r : Fin 8), y = ix2 p r := ⟨y 0, y 1, eq_ix2 y⟩
    refine (block_entry (iblk3 V c 0 t) (iblk3 V c 1 t) (iblk3 V c 2 t) (iblk3 V c 3 t) (iblk3 V c 4 t) p r).trans ?_
    show (∑ d : Fin 128, X0 V c (((cfg3.win 0).blk t).view.emb (ix2 p d)) * W0 V c (((cfg3.win 2).blk t).view.emb (ix2 d r))
        + ∑ d : Fin 128, X1 V c (((cfg3.win 1).blk t).view.emb (ix2 p d)) * W1 V c (((cfg3.win 3).blk t).view.emb (ix2 d r)))
        + B V c (((cfg3.win 4).blk t).view.emb (ix2 0 r))
      = (∑ d : Fin 128, X0 V c (ix2 ((((cfg3.win 5).blk t).view.emb (ix2 p r)) 0) d) * W0 V c (ix2 d ((((cfg3.win 5).blk t).view.emb (ix2 p r)) 1))
        + ∑ d : Fin 128, X1 V c (ix2 ((((cfg3.win 5).blk t).view.emb (ix2 p r)) 0) d) * W1 V c (ix2 d ((((cfg3.win 5).blk t).view.emb (ix2 p r)) 1)))
        + B V c (ix2 (0 : Fin 1) ((((cfg3.win 5).blk t).view.emb (ix2 p r)) 1))
    -- a tall matrix's block and the result's block sit at the same rows
    have h0 : ∀ d : Fin 128, ((cfg3.win 0).blk t).view.emb (ix2 p d) = ix2 ((((cfg3.win 5).blk t).view.emb (ix2 p r)) 0) d := fun d => by
      funext a; apply Fin.ext
      match a with
      | ⟨0, _⟩ => show win3_0.index t (0 : Fin 2) * 10000 + 1 * p.val = win3_5.index t (0 : Fin 2) * 10000 + 1 * p.val; omega
      | ⟨1, _⟩ => show win3_0.index t (1 : Fin 2) * 128 + 1 * d.val = d.val; omega
    have h1 : ∀ d : Fin 128, ((cfg3.win 1).blk t).view.emb (ix2 p d) = ix2 ((((cfg3.win 5).blk t).view.emb (ix2 p r)) 0) d := fun d => by
      funext a; apply Fin.ext
      match a with
      | ⟨0, _⟩ => show win3_1.index t (0 : Fin 2) * 10000 + 1 * p.val = win3_5.index t (0 : Fin 2) * 10000 + 1 * p.val; omega
      | ⟨1, _⟩ => show win3_1.index t (1 : Fin 2) * 128 + 1 * d.val = d.val; omega
    -- a small matrix's one block is the matrix; its column is the result's column
    have h2 : ∀ d : Fin 128, ((cfg3.win 2).blk t).view.emb (ix2 d r) = ix2 d ((((cfg3.win 5).blk t).view.emb (ix2 p r)) 1) := fun d => by
      funext a; apply Fin.ext
      match a with
      | ⟨0, _⟩ => show win3_2.index t (0 : Fin 2) * 128 + 1 * d.val = d.val; omega
      | ⟨1, _⟩ => show win3_2.index t (1 : Fin 2) * 8 + 1 * r.val = win3_5.index t (1 : Fin 2) * 8 + 1 * r.val; omega
    have h3 : ∀ d : Fin 128, ((cfg3.win 3).blk t).view.emb (ix2 d r) = ix2 d ((((cfg3.win 5).blk t).view.emb (ix2 p r)) 1) := fun d => by
      funext a; apply Fin.ext
      match a with
      | ⟨0, _⟩ => show win3_3.index t (0 : Fin 2) * 128 + 1 * d.val = d.val; omega
      | ⟨1, _⟩ => show win3_3.index t (1 : Fin 2) * 8 + 1 * r.val = win3_5.index t (1 : Fin 2) * 8 + 1 * r.val; omega
    -- the bias's one block is the bias
    have h4 : ((cfg3.win 4).blk t).view.emb (ix2 0 r) = ix2 (0 : Fin 1) ((((cfg3.win 5).blk t).view.emb (ix2 p r)) 1) := by
      funext a; apply Fin.ext
      match a with
      | ⟨0, _⟩ => show win3_4.index t (0 : Fin 2) * 1 + 1 * 0 = 0; omega
      | ⟨1, _⟩ => show win3_4.index t (1 : Fin 2) * 8 + 1 * r.val = win3_5.index t (1 : Fin 2) * 8 + 1 * r.val; omega
    exact congrArg₂ (· + ·)
      (congrArg₂ (· + ·)
        (Finset.sum_congr rfl fun d _ => congrArg₂ (· * ·) (congrArg (X0 V c) (h0 d)) (congrArg (W0 V c) (h2 d)))
        (Finset.sum_congr rfl fun d _ => congrArg₂ (· * ·) (congrArg (X1 V c) (h1 d)) (congrArg (W1 V c) (h3 d))))
      (congrArg (B V c) h4)
  exact key j

/-- An entry of the result is in point `t`'s block iff each of its coordinates is in the block's range on its axis. -/
theorem mem_block (t : Fin cfg3.N) (i : S250000x8.Idx) :
    i ∈ ((cfg3.win 5).blk t).view.set ↔ ∀ a : Fin 2, win3_5.index t a * S10000x8.size a ≤ (i a).val ∧ (i a).val < win3_5.index t a * S10000x8.size a + S10000x8.size a := by
  show i ∈ ((View.whole main_v138).slice (win3_5.rect t)).set ↔ _
  rw [View.set_slice_whole, Rect.mem_set_unit]
  exact Iff.rfl

/-- Every entry of the result is in the block of some point that writes back: row `p` is in block `p / 10000`. -/
theorem rows_covered (i : S250000x8.Idx) :
    ∃ t : Fin cfg3.N, (cfg3.win 5).flush t = true ∧ i ∈ ((cfg3.win 5).blk t).view.set := by
  have hi0 : (i 0).val < 250000 := (i 0).isLt
  have hi1 : (i 1).val < 8 := (i 1).isLt
  have hN : cfg3.N = 25 := N_3
  let t : Fin cfg3.N := ⟨(i 0).val / 10000, by rw [hN]; omega⟩
  obtain ⟨e00, e01, e10, e11, e20, e21, e30, e31, e40, e41, e50, e51⟩ := block_index t
  have e50' : win3_5.index t (0 : Fin 2) = (i 0).val / 10000 := e50
  refine ⟨t, flush3_5 t, ?_⟩
  rw [mem_block]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 8 ≤ (i 1).val ∧ (i 1).val < win3_5.index t (1 : Fin 2) * 8 + 8; omega

/-- The result array after the 25 points: `G` of the five arrays as the region found them. -/
theorem result_array (c : Dev nD) :
    (dat3 (F := Ideal) V c).arrAt 5 cfg3.N = G (X0 V c) (X1 V c) (W0 V c) (W1 V c) (B V c) :=
  (dat3 (F := Ideal) V c).arrAt_eq_of_cover 5 (G (X0 V c) (X1 V c) (W0 V c) (W1 V c) (B V c))
    (fun t _ => written_block V c t) rows_covered

/-- The result at row `p`, column `r`, with the five arrays at their literal index types. -/
theorem out_apply_typed (c : Dev nD) (p : Fin 250000) (r : Fin 8) :
    ((dat3 (F := Ideal) V c).arrAt 5 cfg3.N : S250000x8.Idx → EReal) (ix2 p r)
      = (∑ d : Fin 128, X0 V c (ix2 p d) * W0 V c (ix2 d r) + ∑ d : Fin 128, X1 V c (ix2 p d) * W1 V c (ix2 d r))
        + B V c (ix2 0 r) :=
  congrFun (result_array V c) (ix2 p r)

/-- The result at row `p`, column `r`: row `p` of the first tall matrix against column `r` of the first small one,
    plus row `p` of the second tall matrix against column `r` of the second small one, plus the bias's entry of
    column `r`. -/
theorem out_apply (c : Dev nD) (p : Fin 250000) (r : Fin 8) :
    (dat3 (F := Ideal) V c).arrAt 5 cfg3.N (ix2 p r)
      = @HAdd.hAdd EReal EReal EReal instHAdd
          (∑ d : Fin 128, @HMul.hMul EReal EReal EReal instHMul (V c main_v112 (ix2 p d)) (V c main_v124 (ix2 d r))
            + ∑ d : Fin 128, @HMul.hMul EReal EReal EReal instHMul (V c main_v113 (ix2 p d)) (V c main_v133 (ix2 d r)))
          (V c main_v137 (ix2 0 r)) :=
  out_apply_typed V c p r

end Cert.KernelIdeal.Region3

end
-- ==== Proof.KDecode.lean ====
/-
  The last grid region read at an entry of the result column.

  The region's output is a `[250000,8]` array; the program's result is the same numbers as one column of 2000000, so
  entry `e` of the column is entry `(e / 8, e % 8)` of the array.  That entry is the sum of two inner products of
  length 128 plus a bias entry.  Each inner product pairs row `e / 8` of a packed table (rows `8 (e / 8) … 8 (e / 8) + 7`
  of a table of 2000000 rows of 16, laid side by side) with column `e % 8` of a 128 × 8 array that carries a vector of
  sixteen weights in the block of rows `16 r … 16 r + 15` of each column `r` and zeros elsewhere.  Of the 128 products
  only the sixteen of block `e % 8` are left, and they pair row `8 (e / 8) + e % 8 = e` of the table with the sixteen
  weights.  The two weight vectors are the first and the last sixteen entries of one column of 32 weights; the bias row
  repeats one number.

  Hence entry `e` of the result depends on row `e` of each of the two gathered tables, on the 32 weights and on the
  bias number only:
      result (e) = (∑ i < 16, GE₀ (e, i) · a (i) + ∑ i < 16, GE₁ (e, i) · a (16 + i)) + b.
  All values are extended reals and every operation is exact.
-/
import proofs.«119417_j62199716380859_2_alg».proof.Proof.KBoundary
import proofs.«119417_j62199716380859_2_alg».proof.Proof.KHostRead
import proofs.«119417_j62199716380859_2_alg».proof.Proof.KDecodeW
import proofs.«119417_j62199716380859_2_alg».proof.Proof.Region3
import proofs.«119417_j62199716380859_2_alg».proof.Proof.LibPackRead
import proofs.«119417_j62199716380859_2_alg».proof.Proof.LibBlockSum

noncomputable section

open Idealize.ShloMosaic Idealize.ShloMosaic.TcCoe Idealize.SL.Sem
open Idealize.ShloMosaic.StableHlo
open Idealize.ShloMosaic.ValueIdx

namespace Cert.KernelIdeal.Decode

open Cert.KernelIdeal Cert.KernelIdeal.Gen Cert.KernelIdeal.KStage

/-- A packed table times a block-diagonal column. Row `p` of the packed table is rows `8p … 8p + 7` of the table of
    rows of 16; if column `r` of the 128 × 8 array carries the vector `w` in block `r` and zeros elsewhere, the inner
    product of the packed row with that column is the inner product of row `8p + r` of the table with `w`. -/
theorem packed_row_times_block_column (e : Fin 2000000) (p : Fin 250000) (r : Fin 8)
    (hp : p.val = e.val / 8) (hr : r.val = e.val % 8)
    (X : S250000x128.Idx → EReal) (GE : S2000000x16.Idx → EReal) (hX : X = packE GE)
    (Wt : S128x8.Idx → EReal) (w : Fin 16 → EReal)
    (hW : ∀ d : Fin 128, Wt (ix2 d r) = if d.val / 16 = r.val then w (Cert.BlockSum.lo d) else 0) :
    ∑ d : Fin 128, X (ix2 p d) * Wt (ix2 d r) = ∑ i : Fin 16, GE (ix2 e i) * w i := by
  subst hX
  have he := e.isLt
  have hpl := p.isLt
  -- the summand for block `a` and place `i`
  let f : Fin 8 → Fin 16 → EReal := fun a i =>
    GE (ix2 (⟨8 * p.val + a.val, by have := a.isLt; omega⟩ : Fin 2000000) i) * (if a.val = r.val then w i else 0)
  have hterm : ∀ d : Fin 128, packE GE (ix2 p d) * Wt (ix2 d r) = f (Cert.BlockSum.hi d) (Cert.BlockSum.lo d) := by
    intro d
    refine congrArg₂ (· * ·) ?_ (hW d)
    exact Cert.PackRead.pack8_apply GE shapeCasts_S2000000x16_S250000x128 p d
      (⟨8 * p.val + (Cert.BlockSum.hi d).val, by have := (Cert.BlockSum.hi d).isLt; omega⟩ : Fin 2000000)
      (Cert.BlockSum.lo d) rfl rfl
  refine (Finset.sum_congr rfl fun d _ => hterm d).trans ?_
  refine (Cert.BlockSum.sum128_block f r fun a i hab => ?_).trans ?_
  · have hne : ¬ a.val = r.val := fun h => hab (Fin.ext h)
    show GE _ * (if a.val = r.val then w i else 0) = 0
    rw [if_neg hne, mul_zero]
  · refine Finset.sum_congr rfl fun i _ => ?_
    show GE (ix2 (⟨8 * p.val + r.val, _⟩ : Fin 2000000) i) * (if r.val = r.val then w i else 0) = GE (ix2 e i) * w i
    rw [if_pos rfl]
    exact congrArg (fun s : Fin 2000000 => GE (ix2 s i) * w i) (Fin.ext (by show 8 * p.val + r.val = e.val; omega))

variable (m : (ℓ : Loc nD τ sig) → Buf (Elt Ideal) ℓ) (ρ : Dev nD → PrngReg) (c : Dev nD)

/-- Entry `e` of the result column: the row of the first gathered table at `e` against the first sixteen weights, plus
    the row of the second gathered table at `e` against the last sixteen weights, plus the bias number. -/
theorem decode_apply (e : Fin 2000000) (z : Fin 1) (GE0 GE1 : S2000000x16.Idx → EReal)
    (h0 : GE0 = gatE0 (m ((c : Thread nD τ).loc main_arg2)) (unpack (W12 m ρ c (Proc.devRef .tc main_v92))))
    (h1 : GE1 = gatE1 (m ((c : Thread nD τ).loc main_arg2)) (unpack (W12 m ρ c (Proc.devRef .tc main_v92))))
    (A8 : S32x1.Idx → EReal) (hA : A8 = m ((c : Thread nD τ).loc main_arg8))
    (B9 : S1.Idx → EReal) (hB : B9 = m ((c : Thread nD τ).loc main_arg9)) :
    unpackOut (W14 m ρ c (Proc.devRef .tc main_v138)) (ix2 e z)
      = (∑ i : Fin 16, GE0 (ix2 e i) * A8 (ix2 (⟨i.val, by have := i.isLt; omega⟩ : Fin 32) (0 : Fin 1))
          + ∑ i : Fin 16, GE1 (ix2 e i) * A8 (ix2 (⟨16 + i.val, by have := i.isLt; omega⟩ : Fin 32) (0 : Fin 1)))
        + B9 (ix1 (0 : Fin 1)) := by
  have he := e.isLt
  have hp : e.val / 8 < 250000 := by omega
  have hr : e.val % 8 < 8 := Nat.mod_lt _ (by decide)
  refine (Cert.PackRead.unpack8col_apply _ shapeCasts_S250000x8_S2000000x1 e z ⟨e.val / 8, hp⟩ ⟨e.val % 8, hr⟩ rfl rfl).trans ?_
  refine (congrFun (W14_arr m ρ c 5) (ix2 (⟨e.val / 8, hp⟩ : Fin 250000) (⟨e.val % 8, hr⟩ : Fin 8))).trans ?_
  refine (Region3.out_apply_typed (V13 m ρ) c ⟨e.val / 8, hp⟩ ⟨e.val % 8, hr⟩).trans ?_
  refine congrArg₂ (· + ·) (congrArg₂ (· + ·) ?_ ?_) ?_
  · refine packed_row_times_block_column e ⟨e.val / 8, hp⟩ ⟨e.val % 8, hr⟩ rfl rfl _ GE0
      ((Boundary.W13_v112 m ρ c).trans (by rw [h0])) _
      (fun i => A8 (ix2 (⟨i.val, by have := i.isLt; omega⟩ : Fin 32) (0 : Fin 1))) fun d => ?_
    exact DecodeW.bd0_apply m ρ c d ⟨e.val % 8, hr⟩ A8 (hA.trans (Boundary.W12_arg8 m ρ c).symm)
  · refine packed_row_times_block_column e ⟨e.val / 8, hp⟩ ⟨e.val % 8, hr⟩ rfl rfl _ GE1
      ((Boundary.W13_v113 m ρ c).trans (by rw [h1])) _
      (fun i => A8 (ix2 (⟨16 + i.val, by have := i.isLt; omega⟩ : Fin 32) (0 : Fin 1))) fun d => ?_
    exact DecodeW.bd1_apply m ρ c d ⟨e.val % 8, hr⟩ A8 (hA.trans (Boundary.W12_arg8 m ρ c).symm)
  · exact HostRead.tileb_apply m ρ c 0 ⟨e.val % 8, hr⟩ B9 (hB.trans (Boundary.W12_arg9 m ρ c).symm)

end Cert.KernelIdeal.Decode
end
-- ==== Proof.RBridge.lean ====
/-
  The reference program's stages against the kernel's.

  The reference computes, layer by layer: the embedding rows `h`; `h · W1`; the aggregation of that (gather the source
  rows, weight them, scatter-add them into the destination rows); bias and the positive part; the product with `W2`;
  the aggregation again; the bias; and for every pair the rows of its two nodes laid side by side (32 numbers) times
  the 32 × 1 weight, plus the bias. Its gathers, weights and scatter-adds are, operation for operation, the ones the
  kernel program runs on the host between its grid regions, so the reference's stages are the kernel-side named
  stages of the same inputs (first part, by unfolding the definitions); and its dense steps are read at an entry as
  the sixteen-term (or 16 + 16-term) sums they are (second part).
-/
import proofs.«119417_j62199716380859_2_alg».proof.Proof.RefReadPatched
import proofs.«119417_j62199716380859_2_alg».proof.Proof.KStage
import proofs.«119417_j62199716380859_2_alg».proof.Proof.LibBlockSum

set_option maxRecDepth 16384

noncomputable section

namespace Cert.Bridge

open Cert.ReferenceIdeal Cert.ReferenceIdeal.Read Idealize.ShloMosaic Idealize.ShloMosaic.ValueIdx
open Cert.KernelIdeal.KStage Cert.ReferenceIdeal.Facts₀ Cert.ReferenceIdeal.Facts

variable (x0 : (⟨S1000000, .i32⟩ : BufTy).Contents (Elt Ideal)) (x1 : (⟨S2x5000000, .i32⟩ : BufTy).Contents (Elt Ideal)) (x2 : (⟨S2x2000000, .i32⟩ : BufTy).Contents (Elt Ideal)) (x3 : (⟨S1000000x16, .f32⟩ : BufTy).Contents (Elt Ideal)) (x4 : (⟨S16x16, .f32⟩ : BufTy).Contents (Elt Ideal)) (x5 : (⟨S16, .f32⟩ : BufTy).Contents (Elt Ideal)) (x6 : (⟨S16x16, .f32⟩ : BufTy).Contents (Elt Ideal)) (x7 : (⟨S16, .f32⟩ : BufTy).Contents (Elt Ideal)) (x8 : (⟨S32x1, .f32⟩ : BufTy).Contents (Elt Ideal)) (x9 : (⟨S1, .f32⟩ : BufTy).Contents (Elt Ideal))

/-! ## The shared host stages -/

theorem v10_eq : val_main_v10 (F := Ideal) x0 x3 = emb x0 x3 := rfl

theorem v50_eq : val_main_v50 (F := Ideal) x0 x1 x3 x4 = agg x1 (val_main_v11 (F := Ideal) x0 x3 x4) := rfl

theorem v94_eq : val_main_v94 (F := Ideal) x0 x1 x3 x4 x5 x6 = agg x1 (val_main_v55 (F := Ideal) x0 x1 x3 x4 x5 x6) := rfl

theorem v106_eq : val_main_v106 (F := Ideal) x0 x1 x2 x3 x4 x5 x6 x7 = gatE0 x2 (val_main_v97 (F := Ideal) x0 x1 x3 x4 x5 x6 x7) := rfl

theorem v115_eq : val_main_v115 (F := Ideal) x0 x1 x2 x3 x4 x5 x6 x7 = gatE1 x2 (val_main_v97 (F := Ideal) x0 x1 x3 x4 x5 x6 x7) := rfl

/-! ## The reference's dense steps, entry by entry -/

/-- The first product: sixteen terms. -/
theorem v11_apply (n : Fin 1000000) (j : Fin 16) :
    val_main_v11 (F := Ideal) x0 x3 x4 (ix2 n j) = ∑ i : Fin 16, val_main_v10 (F := Ideal) x0 x3 (ix2 n i) * x4 (ix2 i j) := by
  rw [val_main_v11_apply]
  refine Finset.sum_congr rfl fun i _ => ?_
  refine congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

/-- The second product, of the positive part of the biased aggregation. -/
theorem v55_apply (n : Fin 1000000) (j : Fin 16) :
    val_main_v55 (F := Ideal) x0 x1 x3 x4 x5 x6 (ix2 n j)
      = ∑ i : Fin 16, max (val_main_v50 (F := Ideal) x0 x1 x3 x4 (ix2 n i) + x5 (ix1 i)) 0 * x6 (ix2 i j) := by
  rw [val_main_v55_apply]
  refine Finset.sum_congr rfl fun i _ => ?_
  refine congrArg₂ (· * ·) ?_ (congrArg _ (funext fun a => ?_))
  · rw [val_main_v54_apply, val_main_v53_apply, val_main_v52_apply, val_main_v51_apply, val_main_call1_v0_apply,
      val_main_call1_cst_apply]
    show max (_ + _) (Ideal.ofBits .f32 0x00000000#32) = _
    rw [Ideal.ofBits_zero_f32]
    refine congrArg₂ max (congrArg₂ (· + ·) (congrArg _ (funext fun a => ?_)) (congrArg _ (funext fun a => ?_))) rfl
    · match a with
      | ⟨0, _⟩ => rfl
      | ⟨1, _⟩ => rfl
    · match a with
      | ⟨0, _⟩ => rfl
  · match a with
    | ⟨0, _⟩ => rfl
    | ⟨1, _⟩ => rfl

/-- The second bias. -/
theorem v97_apply (n : Fin 1000000) (j : Fin 16) :
    val_main_v97 (F := Ideal) x0 x1 x3 x4 x5 x6 x7 (ix2 n j)
      = val_main_v94 (F := Ideal) x0 x1 x3 x4 x5 x6 (ix2 n j) + x7 (ix1 j) := by
  rw [val_main_v97_apply, val_main_v96_apply, val_main_v95_apply]
  show _ + _ = _
  refine congrArg₂ (· + ·) rfl (congrArg _ (funext fun a => ?_))
  match a with
  | ⟨0, _⟩ => rfl

/-- The decode step: the 32-term product splits at the seam of the two gathered rows. -/
theorem v120_apply (e : Fin 2000000) (z : Fin 1) :
    val_main_v120 (F := Ideal) x0 x1 x2 x3 x4 x5 x6 x7 x8 x9 (ix2 e z)
      = (∑ i : Fin 16, val_main_v106 (F := Ideal) x0 x1 x2 x3 x4 x5 x6 x7 (ix2 e i) * x8 (ix2 (⟨i.val, by have := i.isLt; omega⟩ : Fin 32) (0 : Fin 1))
          + ∑ i : Fin 16, val_main_v115 (F := Ideal) x0 x1 x2 x3 x4 x5 x6 x7 (ix2 e i) * x8 (ix2 (⟨16 + i.val, by have := i.isLt; omega⟩ : Fin 32) (0 : Fin 1)))
        + x9 (ix1 (0 : Fin 1)) := by
  have hz : z = 0 := Subsingleton.elim _ _
  subst hz
  rw [val_main_v120_apply, val_main_v117_apply, val_main_v119_apply, val_main_v118_apply]
  show _ + _ = _
  refine congrArg₂ (· + ·) ?_ (congrArg _ (funext fun a => ?_))
  · rw [Cert.BlockSum.sum32_split]
    refine congrArg₂ (· + ·) (Finset.sum_congr rfl fun i _ => ?_) (Finset.sum_congr rfl fun i _ => ?_)
    · refine congrArg₂ (· * ·) ?_ (congrArg _ (funext fun a => ?_))
      · unfold val_main_v116
        exact concatenate_pair_apply_left (t := S2000000x32) (s₁ := S2000000x16) (s₂ := S2000000x16) (1 : Fin 2) _ _
          concatenates_S2000000x16_S2000000x16_S2000000x32_d1
          (lidx_main_v117 (ix2 e (0 : Fin 1)) (⟨i.val, by have := i.isLt; omega⟩ : Fin 32)) rfl (ix2 e i)
          fun b => by
            match b with
            | ⟨0, _⟩ => rfl
            | ⟨1, _⟩ => rfl
      · match a with
        | ⟨0, _⟩ => rfl
        | ⟨1, _⟩ => rfl
    · refine congrArg₂ (· * ·) ?_ (congrArg _ (funext fun a => ?_))
      · unfold val_main_v116
        exact concatenate_pair_apply_right (t := S2000000x32) (s₁ := S2000000x16) (s₂ := S2000000x16) (1 : Fin 2) _ _
          concatenates_S2000000x16_S2000000x16_S2000000x32_d1
          (lidx_main_v117 (ix2 e (0 : Fin 1)) (⟨16 + i.val, by have := i.isLt; omega⟩ : Fin 32)) rfl rfl (ix2 e i)
          (fun b hb => by
            match b with
            | ⟨0, _⟩ => rfl
            | ⟨1, _⟩ => exact absurd rfl hb)
          (by show i.val + 16 = 16 + i.val; omega)
      · match a with
        | ⟨0, _⟩ => rfl
        | ⟨1, _⟩ => rfl
  · match a with
    | ⟨0, _⟩ => rfl

end Cert.Bridge

end
-- ==== Proof.KValue.lean ====
/-
  The kernel program's result is the reference's final stage of the same arguments.

  Four steps, one per grid region, each an equality of whole tables proved entry by entry:
    • region 0's output, unpacked, is the embedding rows times `W1`: the packed product with the block-diagonal
      matrix has 128 terms per entry of which only the sixteen of the entry's own block are not zero;
    • region 1's output, unpacked, is the positive part of the biased aggregation of that, times `W2`, likewise;
    • region 2's output, unpacked, is the aggregation of that plus the second bias;
    • region 3's output, unpacked to a column, is for each pair the sixteen products of the first node's row with
      the first half of the 32 × 1 weight plus the sixteen of the second node's row with the second half, plus the
      bias: the reference's 32-term product split at the seam of its concatenation.
  Between the regions both programs run the same gathers, weights and scatter-adds on whatever table the previous
  step produced, so each step's equality carries to the next by rewriting.
-/
import proofs.«119417_j62199716380859_2_alg».proof.Proof.KBoundary
import proofs.«119417_j62199716380859_2_alg».proof.Proof.KDense
import proofs.«119417_j62199716380859_2_alg».proof.Proof.KDecode
import proofs.«119417_j62199716380859_2_alg».proof.Proof.RBridge

set_option maxRecDepth 16384

noncomputable section

namespace Cert.KernelIdeal.Final

open Cert.KernelIdeal Cert.KernelIdeal.Gen Cert.KernelIdeal.KStage Cert.KernelIdeal.Boundary
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Region 0: the embedding rows times the first weight. -/
theorem layer1_dense : unpack (W6 m ρ c (Proc.devRef .tc main_v45)) = Cert.ReferenceIdeal.Read.val_main_v11 (F := Ideal) (m ((c : Thread nD τ).loc main_arg0)) (m ((c : Thread nD τ).loc main_arg3)) (m ((c : Thread nD τ).loc main_arg4)) := by
  funext i
  obtain ⟨n, j, rfl⟩ : ∃ (n : Fin 1000000) (j : Fin 16), i = ix2 n j := ⟨i 0, i 1, eq_ix2 i⟩
  rw [Cert.KernelIdeal.Dense.dense1 m ρ c n j _ rfl _ rfl, Cert.Bridge.v11_apply, Cert.Bridge.v10_eq]

/-- Region 1: the positive part of the biased first aggregation times the second weight. -/
theorem layer2_dense : unpack (W10 m ρ c (Proc.devRef .tc main_v72)) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  funext i
  obtain ⟨n, j, rfl⟩ : ∃ (n : Fin 1000000) (j : Fin 16), i = ix2 n j := ⟨i 0, i 1, eq_ix2 i⟩
  rw [Cert.KernelIdeal.Dense.dense2 m ρ c n j _ rfl _ rfl _ rfl, layer1_dense m ρ c, ← Cert.Bridge.v50_eq, Cert.Bridge.v55_apply]

/-- Region 2: the second aggregation plus the second bias. -/
theorem layer2_out : unpack (W12 m ρ c (Proc.devRef .tc main_v92)) = Cert.ReferenceIdeal.Read.val_main_v97 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨n, j, rfl⟩ : ∃ (n : Fin 1000000) (j : Fin 16), i = ix2 n j := ⟨i 0, i 1, eq_ix2 i⟩
  rw [Cert.KernelIdeal.Dense.dense3 m ρ c n j _ rfl _ rfl, layer2_dense m ρ c, ← Cert.Bridge.v94_eq, Cert.Bridge.v97_apply]

/-- Region 3: the decode step. -/
theorem decode_out : unpackOut (W14 m ρ c (Proc.devRef .tc main_v138)) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨e, z, rfl⟩ : ∃ (e : Fin 2000000) (z : Fin 1), i = ix2 e z := ⟨i 0, i 1, eq_ix2 i⟩
  rw [Cert.KernelIdeal.Decode.decode_apply m ρ c e z _ _ rfl rfl _ rfl _ rfl, layer2_out m ρ c, ← Cert.Bridge.v106_eq, ← Cert.Bridge.v115_eq,
    Cert.Bridge.v120_apply]

/-- The result buffer at the last boundary is the reference's final stage of the kernel's arguments. -/
theorem result_eq : W15 m ρ c (Proc.devRef .tc main_v139) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W15_v139 m ρ c).trans (decode_out m ρ c)

end Cert.KernelIdeal.Final

end
-- ==== Proof.lean ====
/-
  A two-layer graph convolution with a pair decoder, computed with lane-dense grid kernels, against its plain reference.

  Both programs take node ids, a list of 5000000 edges, a list of 2000000 node pairs, an embedding table of 1000000
  rows of 16 numbers, two 16 × 16 weights with their biases, and a 32 × 1 weight with its bias. Both extend the edge list
  by the self loops, weigh edge `e` by `1 / sqrt (deg (src e)) · 1 / sqrt (deg (dst e))`, and aggregate a table by gathering
  the source rows, weighting them and adding them into the destination rows. The reference multiplies a table by a
  16 × 16 weight directly; the kernel packs eight rows of 16 into one row of 128, multiplies by the 128 × 128 matrix
  that repeats the weight eight times down its diagonal, and unpacks: an entry of the packed product is a sum of 128
  terms of which 112 meet a zero of the block-diagonal matrix, and the other sixteen are the reference's. The biases
  are added (and the positive part taken) on the packed rows against a bias repeated eight times, which is the same
  entry by entry. For a pair the reference lays the two nodes' rows side by side and multiplies the 32 numbers by
  the 32 × 1 weight; the kernel multiplies each node's packed rows by the half of the weight that belongs to it,
  written down the diagonal of a 128 × 8 matrix, and adds the two: the 32-term sum split at the seam. On the extended
  reals these rearrangements use only that a product with zero is zero, that one is neutral, and that finite sums may
  be regrouped; none of them needs the inputs to be finite.

  The idealization rewrote nothing in the kernel, so the kernel and its idealization are one text read at two
  instances. The three frame claims are the generated frames (the reference's is its run with the result dropped).
-/
import proofs.«119417_j62199716380859_2_alg».proof.Defs
import proofs.«119417_j62199716380859_2_alg».proof.Proof.Gen.Kernel
import proofs.«119417_j62199716380859_2_alg».proof.Proof.Gen.Kernel.Frame
import proofs.«119417_j62199716380859_2_alg».proof.Proof.Gen.KernelIdeal
import proofs.«119417_j62199716380859_2_alg».proof.Proof.Gen.KernelIdeal.Frame
import proofs.«119417_j62199716380859_2_alg».proof.Proof.Gen.ReferenceIdeal
import proofs.«119417_j62199716380859_2_alg».proof.Proof.Gen.Pre_finite_inputs
import proofs.«119417_j62199716380859_2_alg».proof.Proof.RefRunPatched
import proofs.«119417_j62199716380859_2_alg».proof.Proof.RefReadPatched
import proofs.«119417_j62199716380859_2_alg».proof.Proof.KRun
import proofs.«119417_j62199716380859_2_alg».proof.Proof.KValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's final stage of the (agreeing) arguments in their result buffers. -/
theorem algebraic : Cert.algebraic_KernelIdeal_ReferenceIdeal := by
  intro m ρ m' ρ' _ hagree
  refine ⟨fun c => Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Final.result_eq m ρ c), (h c).2⟩)
      (Cert.KernelIdeal.RunV.run_last (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v120_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
